-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v244)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v244) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v448) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S12x128x64 : Shape := ⟨3, ![12, 128, 64]⟩
abbrev S12x64 : Shape := ⟨2, ![12, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S12x128x64 : S_.BroadcastsInDim S12x128x64 (![] : Fin 0 → Fin S12x128x64.rank)
  reducesTo_S12x128x64_S_d0_1_2 : S12x128x64.ReducesTo [0, 1, 2] S_
  bcast_S_S12x64 : S_.BroadcastsInDim S12x64 (![] : Fin 0 → Fin S12x64.rank)
  reducesTo_S12x64_S_d0_1 : S12x64.ReducesTo [0, 1] S_

variable [Facts]

def fn_part1 {F : FTy → Type} [FloatOps F] (main_v13 : IVec S_ 1) (main_v16 : IVec S12x64 1) : IVec S_ 1 :=
  let main_c_5 : IVec S_ 1 := constantI S_ 1 1#1
  let main_v17 : IVec S_ 1 := (fun x v => Host.reduce IntOp.andi x v reducesTo_S12x64_S_d0_1 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S12x128x64 .f32) (main_arg4 : FVec F S12x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S12x128x64 .f32 := Host.absf main_arg3
  let main_cst_2 : FVec F S_ .f32 := constant S_ .f32 0x7F800000#32
  let main_v10 : FVec F S12x128x64 .f32 := broadcastInDim S12x128x64 ![] bcast_S_S12x128x64 main_cst_2
  let main_v11 : IVec S12x128x64 1 := cmpf .olt main_v9 main_v10
  let main_c_3 : IVec S_ 1 := constantI S_ 1 1#1
  let main_v12 : IVec S_ 1 := (fun x v => Host.reduce IntOp.andi x v reducesTo_S12x128x64_S_d0_1_2 h_S_) main_v11 main_c_3
  let main_v13 : IVec S_ 1 := andi main_v8 main_v12
  let main_v14 : FVec F S12x64 .f32 := Host.absf main_arg4
  let main_cst_4 : FVec F S_ .f32 := constant S_ .f32 0x7F800000#32
  let main_v15 : FVec F S12x64 .f32 := broadcastInDim S12x64 ![] bcast_S_S12x64 main_cst_4
  let main_v16 : IVec S12x64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S12x128x64 : Shape := ⟨3, ![12, 128, 64]⟩
abbrev S12x64 : Shape := ⟨2, ![12, 64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S5000 : Shape := ⟨1, ![5000]⟩
abbrev S5000x1 : Shape := ⟨2, ![5000, 1]⟩

abbrev nBuf : Space → Nat
  | .hbm => 286
  | .vmem => 108
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S12x128x64, .f32⟩
  | 4 => ⟨S12x64, .f32⟩
  | 5 => ⟨S1x800000, .i32⟩
  | 6 => ⟨S800000, .i32⟩
  | 7 => ⟨S1x800000, .i32⟩
  | 8 => ⟨S800000, .i32⟩
  | 9 => ⟨S800000x1, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S800000x64, .f32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S1x64x64, .f32⟩
  | 26 => ⟨S64x64, .f32⟩
  | 27 => ⟨S1x64x64, .f32⟩
  | 28 => ⟨S64x64, .f32⟩
  | 29 => ⟨S1x64, .f32⟩
  | 30 => ⟨S64, .f32⟩
  | 31 => ⟨S1x64, .f32⟩
  | 32 => ⟨S50000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S1x64x64, .f32⟩
  | 49 => ⟨S64x64, .f32⟩
  | 50 => ⟨S1x64x64, .f32⟩
  | 51 => ⟨S64x64, .f32⟩
  | 52 => ⟨S1x64, .f32⟩
  | 53 => ⟨S64, .f32⟩
  | 54 => ⟨S1x64, .f32⟩
  | 55 => ⟨S50000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S1x64x64, .f32⟩
  | 72 => ⟨S64x64, .f32⟩
  | 73 => ⟨S1x64x64, .f32⟩
  | 74 => ⟨S64x64, .f32⟩
  | 75 => ⟨S1x64, .f32⟩
  | 76 => ⟨S64, .f32⟩
  | 77 => ⟨S1x64, .f32⟩
  | 78 => ⟨S50000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S800000x64, .f32⟩
  | 89 => ⟨S800000x64, .f32⟩
  | 90 => ⟨S_, .f32⟩
  | 91 => ⟨S50000x64, .f32⟩
  | 92 => ⟨S800000x1, .i32⟩
  | 93 => ⟨S50000x64, .f32⟩
  | 94 => ⟨S1x64x64, .f32⟩
  | 95 => ⟨S64x64, .f32⟩
  | 96 => ⟨S1x64x64, .f32⟩
  | 97 => ⟨S64x64, .f32⟩
  | 98 => ⟨S1x64, .f32⟩
  | 99 => ⟨S64, .f32⟩
  | 100 => ⟨S1x64, .f32⟩
  | 101 => ⟨S50000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S800000x64, .f32⟩
  | 112 => ⟨S800000x64, .f32⟩
  | 113 => ⟨S_, .f32⟩
  | 114 => ⟨S50000x64, .f32⟩
  | 115 => ⟨S800000x1, .i32⟩
  | 116 => ⟨S50000x64, .f32⟩
  | 117 => ⟨S1x64x64, .f32⟩
  | 118 => ⟨S64x64, .f32⟩
  | 119 => ⟨S1x64x64, .f32⟩
  | 120 => ⟨S64x64, .f32⟩
  | 121 => ⟨S1x64, .f32⟩
  | 122 => ⟨S64, .f32⟩
  | 123 => ⟨S1x64, .f32⟩
  | 124 => ⟨S50000x64, .f32⟩
  | 125 => ⟨S_, .i32⟩
  | 126 => ⟨S800000, .i32⟩
  | 127 => ⟨S800000, .i1⟩
  | _ => ⟨S50000x64, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S800000x64, .f32⟩
  | 7 => ⟨S800000x64, .f32⟩
  | 8 => ⟨S_, .f32⟩
  | 9 => ⟨S50000x64, .f32⟩
  | 10 => ⟨S800000x1, .i32⟩
  | 11 => ⟨S50000x64, .f32⟩
  | 12 => ⟨S1x64x64, .f32⟩
  | 13 => ⟨S64x64, .f32⟩
  | 14 => ⟨S1x64x64, .f32⟩
  | 15 => ⟨S64x64, .f32⟩
  | 16 => ⟨S1x64, .f32⟩
  | 17 => ⟨S64, .f32⟩
  | 18 => ⟨S1x64, .f32⟩
  | 19 => ⟨S50000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S800000x64, .f32⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S1x64x64, .f32⟩
  | 36 => ⟨S64x64, .f32⟩
  | 37 => ⟨S1x64x64, .f32⟩
  | 38 => ⟨S64x64, .f32⟩
  | 39 => ⟨S1x64, .f32⟩
  | 40 => ⟨S64, .f32⟩
  | 41 => ⟨S1x64, .f32⟩
  | 42 => ⟨S50000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S800000x64, .f32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S1x64x64, .f32⟩
  | 59 => ⟨S64x64, .f32⟩
  | 60 => ⟨S1x64x64, .f32⟩
  | 61 => ⟨S64x64, .f32⟩
  | 62 => ⟨S1x64, .f32⟩
  | 63 => ⟨S64, .f32⟩
  | 64 => ⟨S1x64, .f32⟩
  | 65 => ⟨S50000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S800000x64, .f32⟩
  | 76 => ⟨S800000x64, .f32⟩
  | 77 => ⟨S_, .f32⟩
  | 78 => ⟨S50000x64, .f32⟩
  | 79 => ⟨S800000x1, .i32⟩
  | 80 => ⟨S50000x64, .f32⟩
  | 81 => ⟨S1x64x64, .f32⟩
  | 82 => ⟨S64x64, .f32⟩
  | 83 => ⟨S1x64x64, .f32⟩
  | 84 => ⟨S64x64, .f32⟩
  | 85 => ⟨S1x64, .f32⟩
  | 86 => ⟨S64, .f32⟩
  | 87 => ⟨S1x64, .f32⟩
  | 88 => ⟨S50000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S800000x64, .f32⟩
  | 99 => ⟨S800000x64, .f32⟩
  | 100 => ⟨S_, .f32⟩
  | 101 => ⟨S50000x64, .f32⟩
  | 102 => ⟨S800000x1, .i32⟩
  | 103 => ⟨S50000x64, .f32⟩
  | 104 => ⟨S1x64x64, .f32⟩
  | 105 => ⟨S64x64, .f32⟩
  | 106 => ⟨S1x64x64, .f32⟩
  | 107 => ⟨S64x64, .f32⟩
  | 108 => ⟨S1x64, .f32⟩
  | 109 => ⟨S64, .f32⟩
  | 110 => ⟨S1x64, .f32⟩
  | 111 => ⟨S50000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S800000x64, .f32⟩
  | 122 => ⟨S800000x64, .f32⟩
  | 123 => ⟨S_, .f32⟩
  | 124 => ⟨S50000x64, .f32⟩
  | 125 => ⟨S800000x1, .i32⟩
  | 126 => ⟨S50000x64, .f32⟩
  | 127 => ⟨S1x64x64, .f32⟩
  | _ => ⟨S50000x64, .f32⟩

abbrev hbmTy0_2 (i : Nat) : BufTy := match i % 128 with
  | 0 => ⟨S64x64, .f32⟩
  | 1 => ⟨S1x64x64, .f32⟩
  | 2 => ⟨S64x64, .f32⟩
  | 3 => ⟨S1x64, .f32⟩
  | 4 => ⟨S64, .f32⟩
  | 5 => ⟨S1x64, .f32⟩
  | 6 => ⟨S50000x64, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000x64, .f32⟩
  | 16 => ⟨S800000x64, .f32⟩
  | 17 => ⟨S800000x64, .f32⟩
  | 18 => ⟨S_, .f32⟩
  | 19 => ⟨S50000x64, .f32⟩
  | 20 => ⟨S800000x1, .i32⟩
  | 21 => ⟨S50000x64, .f32⟩
  | 22 => ⟨S1x64x64, .f32⟩
  | 23 => ⟨S64x64, .f32⟩
  | 24 => ⟨S1x64x64, .f32⟩
  | 25 => ⟨S64x64, .f32⟩
  | 26 => ⟨S1x64, .f32⟩
  | 27 => ⟨S64, .f32⟩
  | 28 => ⟨S1x64, .f32⟩
  | 29 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S64x64, .f32⟩
  | .local _ .vmem, ⟨42, _⟩ => ⟨S1x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S64x64, .f32⟩
  | .local _ .vmem, ⟨50, _⟩ => ⟨S64x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x64, .f32⟩
  | .local _ .vmem, ⟨59, _⟩ => ⟨S64x64, .f32⟩
  | .local _ .vmem, ⟨60, _⟩ => ⟨S1x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S64x64, .f32⟩
  | .local _ .vmem, ⟨68, _⟩ => ⟨S64x64, .f32⟩
  | .local _ .vmem, ⟨69, _⟩ => ⟨S1x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S64x64, .f32⟩
  | .local _ .vmem, ⟨77, _⟩ => ⟨S64x64, .f32⟩
  | .local _ .vmem, ⟨78, _⟩ => ⟨S1x64, .f32⟩
  | .local _ .vmem, ⟨79, _⟩ => ⟨S5000x64, .f32⟩
  | .local _ .vmem, ⟨80, _⟩ => ⟨S5000x64, .f32⟩
  | .local _ .vmem, ⟨81, _⟩ => ⟨S5000x64, .f32⟩
  | .local _ .vmem, ⟨82, _⟩ => ⟨S5000x64, .f32⟩
  | .local _ .vmem, ⟨83, _⟩ => ⟨S5000x64, .f32⟩
  | .local _ .vmem, ⟨84, _⟩ => ⟨S5000x64, .f32⟩
  | .local _ .vmem, ⟨85, _⟩ => ⟨S64x64, .f32⟩
  | .local _ .vmem, ⟨86, _⟩ => ⟨S64x64, .f32⟩
  | .local _ .vmem, ⟨87, _⟩ => ⟨S1x64, .f32⟩
  | .local _ .vmem, ⟨88, _⟩ => ⟨S5000x64, .f32⟩
  | .local _ .vmem, ⟨89, _⟩ => ⟨S5000x64, .f32⟩
  | .local _ .vmem, ⟨90, _⟩ => ⟨S5000x64, .f32⟩
  | .local _ .vmem, ⟨91, _⟩ => ⟨S5000x64, .f32⟩
  | .local _ .vmem, ⟨92, _⟩ => ⟨S5000x64, .f32⟩
  | .local _ .vmem, ⟨93, _⟩ => ⟨S5000x64, .f32⟩
  | .local _ .vmem, ⟨94, _⟩ => ⟨S64x64, .f32⟩
  | .local _ .vmem, ⟨95, _⟩ => ⟨S64x64, .f32⟩
  | .local _ .vmem, ⟨96, _⟩ => ⟨S1x64, .f32⟩
  | .local _ .vmem, ⟨97, _⟩ => ⟨S5000x64, .f32⟩
  | .local _ .vmem, ⟨98, _⟩ => ⟨S5000x64, .f32⟩
  | .local _ .vmem, ⟨99, _⟩ => ⟨S5000x64, .f32⟩
  | .local _ .vmem, ⟨100, _⟩ => ⟨S5000x64, .f32⟩
  | .local _ .vmem, ⟨101, _⟩ => ⟨S5000x64, .f32⟩
  | .local _ .vmem, ⟨102, _⟩ => ⟨S5000x64, .f32⟩
  | .local _ .vmem, ⟨103, _⟩ => ⟨S64x64, .f32⟩
  | .local _ .vmem, ⟨104, _⟩ => ⟨S64x64, .f32⟩
  | .local _ .vmem, ⟨105, _⟩ => ⟨S1x64, .f32⟩
  | .local _ .vmem, ⟨106, _⟩ => ⟨S5000x64, .f32⟩
  | .local _ .vmem, ⟨107, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_v46 : Ref sig .tc := ⟨.hbm, 58, rfl⟩
abbrev main_c_5 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_c_7 : Ref sig .tc := ⟨.hbm, 79, rfl⟩
abbrev main_v65 : Ref sig .tc := ⟨.hbm, 80, rfl⟩
abbrev main_v66 : Ref sig .tc := ⟨.hbm, 81, rfl⟩
abbrev main_c_8 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_9 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_c_10 : Ref sig .tc := ⟨.hbm, 102, rfl⟩
abbrev main_v85 : Ref sig .tc := ⟨.hbm, 103, rfl⟩
abbrev main_v86 : Ref sig .tc := ⟨.hbm, 104, rfl⟩
abbrev main_c_11 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_12 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_c_13 : Ref sig .tc := ⟨.hbm, 125, rfl⟩
abbrev main_v105 : Ref sig .tc := ⟨.hbm, 126, rfl⟩
abbrev main_v106 : Ref sig .tc := ⟨.hbm, 127, rfl⟩
abbrev main_c_14 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_cst_15 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_c_16 : Ref sig .tc := ⟨.hbm, 148, rfl⟩
abbrev main_v125 : Ref sig .tc := ⟨.hbm, 149, rfl⟩
abbrev main_v126 : Ref sig .tc := ⟨.hbm, 150, rfl⟩
abbrev main_c_17 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_cst_18 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_c_19 : Ref sig .tc := ⟨.hbm, 171, rfl⟩
abbrev main_v145 : Ref sig .tc := ⟨.hbm, 172, rfl⟩
abbrev main_v146 : Ref sig .tc := ⟨.hbm, 173, rfl⟩
abbrev main_c_20 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_cst_21 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_c_22 : Ref sig .tc := ⟨.hbm, 194, rfl⟩
abbrev main_v165 : Ref sig .tc := ⟨.hbm, 195, rfl⟩
abbrev main_v166 : Ref sig .tc := ⟨.hbm, 196, rfl⟩
abbrev main_c_23 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_cst_24 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_c_25 : Ref sig .tc := ⟨.hbm, 217, rfl⟩
abbrev main_v185 : Ref sig .tc := ⟨.hbm, 218, rfl⟩
abbrev main_v186 : Ref sig .tc := ⟨.hbm, 219, rfl⟩
abbrev main_c_26 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_cst_27 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_c_28 : Ref sig .tc := ⟨.hbm, 240, rfl⟩
abbrev main_v205 : Ref sig .tc := ⟨.hbm, 241, rfl⟩
abbrev main_v206 : Ref sig .tc := ⟨.hbm, 242, rfl⟩
abbrev main_c_29 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_cst_30 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_c_31 : Ref sig .tc := ⟨.hbm, 263, rfl⟩
abbrev main_v225 : Ref sig .tc := ⟨.hbm, 264, rfl⟩
abbrev main_v226 : Ref sig .tc := ⟨.hbm, 265, rfl⟩
abbrev main_c_32 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_cst_33 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg5_0 : Ref sig .tc := ⟨.vmem, 79, rfl⟩
abbrev cc8_stg5_1 : Ref sig .tc := ⟨.vmem, 80, rfl⟩
abbrev cc9_stg0_0 : Ref sig .tc := ⟨.vmem, 81, rfl⟩
abbrev cc9_stg0_1 : Ref sig .tc := ⟨.vmem, 82, rfl⟩
abbrev cc9_stg1_0 : Ref sig .tc := ⟨.vmem, 83, rfl⟩
abbrev cc9_stg1_1 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg1_1 : Ref sig .tc := ⟨.vmem, 93, rfl⟩
abbrev cc10_stg2_0 : Ref sig .tc := ⟨.vmem, 94, rfl⟩
abbrev cc10_stg3_0 : Ref sig .tc := ⟨.vmem, 95, rfl⟩
abbrev cc10_stg4_0 : Ref sig .tc := ⟨.vmem, 96, rfl⟩
abbrev cc10_stg5_0 : Ref sig .tc := ⟨.vmem, 97, rfl⟩
abbrev cc10_stg5_1 : Ref sig .tc := ⟨.vmem, 98, rfl⟩
abbrev cc11_stg0_0 : Ref sig .tc := ⟨.vmem, 99, rfl⟩
abbrev cc11_stg0_1 : Ref sig .tc := ⟨.vmem, 100, rfl⟩
abbrev cc11_stg1_0 : Ref sig .tc := ⟨.vmem, 101, rfl⟩
abbrev cc11_stg1_1 : Ref sig .tc := ⟨.vmem, 102, rfl⟩
abbrev cc11_stg2_0 : Ref sig .tc := ⟨.vmem, 103, rfl⟩
abbrev cc11_stg3_0 : Ref sig .tc := ⟨.vmem, 104, rfl⟩
abbrev cc11_stg4_0 : Ref sig .tc := ⟨.vmem, 105, rfl⟩
abbrev cc11_stg5_0 : Ref sig .tc := ⟨.vmem, 106, rfl⟩
abbrev cc11_stg5_1 : Ref sig .tc := ⟨.vmem, 107, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem5_0 : DmaSem sig := 79
abbrev cc8_sem5_1 : DmaSem sig := 80
abbrev cc9_sem0_0 : DmaSem sig := 81
abbrev cc9_sem0_1 : DmaSem sig := 82
abbrev cc9_sem1_0 : DmaSem sig := 83
abbrev cc9_sem1_1 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem0_1 : DmaSem sig := 91
abbrev cc10_sem1_0 : DmaSem sig := 92
abbrev cc10_sem1_1 : DmaSem sig := 93
abbrev cc10_sem2_0 : DmaSem sig := 94
abbrev cc10_sem3_0 : DmaSem sig := 95
abbrev cc10_sem4_0 : DmaSem sig := 96
abbrev cc10_sem5_0 : DmaSem sig := 97
abbrev cc10_sem5_1 : DmaSem sig := 98
abbrev cc11_sem0_0 : DmaSem sig := 99
abbrev cc11_sem0_1 : DmaSem sig := 100
abbrev cc11_sem1_0 : DmaSem sig := 101
abbrev cc11_sem1_1 : DmaSem sig := 102
abbrev cc11_sem2_0 : DmaSem sig := 103
abbrev cc11_sem3_0 : DmaSem sig := 104
abbrev cc11_sem4_0 : DmaSem sig := 105
abbrev cc11_sem5_0 : DmaSem sig := 106
abbrev cc11_sem5_1 : DmaSem sig := 107

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S12x128x64_S1x64x64_0_0_0 : S12x128x64.Slices ![0, 0, 0] S1x64x64
  shapeCasts_S1x64x64_S64x64 : S1x64x64.ShapeCasts S64x64
  slices_S12x128x64_S1x64x64_0_64_0 : S12x128x64.Slices ![0, 64, 0] S1x64x64
  slices_S12x64_S1x64_0_0 : S12x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S12x128x64_S1x64x64_1_0_0 : S12x128x64.Slices ![1, 0, 0] S1x64x64
  slices_S12x128x64_S1x64x64_1_64_0 : S12x128x64.Slices ![1, 64, 0] S1x64x64
  slices_S12x64_S1x64_1_0 : S12x64.Slices ![1, 0] S1x64
  slices_S12x128x64_S1x64x64_2_0_0 : S12x128x64.Slices ![2, 0, 0] S1x64x64
  slices_S12x128x64_S1x64x64_2_64_0 : S12x128x64.Slices ![2, 64, 0] S1x64x64
  slices_S12x64_S1x64_2_0 : S12x64.Slices ![2, 0] S1x64
  slices_S12x128x64_S1x64x64_3_0_0 : S12x128x64.Slices ![3, 0, 0] S1x64x64
  slices_S12x128x64_S1x64x64_3_64_0 : S12x128x64.Slices ![3, 64, 0] S1x64x64
  slices_S12x64_S1x64_3_0 : S12x64.Slices ![3, 0] S1x64
  slices_S12x128x64_S1x64x64_4_0_0 : S12x128x64.Slices ![4, 0, 0] S1x64x64
  slices_S12x128x64_S1x64x64_4_64_0 : S12x128x64.Slices ![4, 64, 0] S1x64x64
  slices_S12x64_S1x64_4_0 : S12x64.Slices ![4, 0] S1x64
  slices_S12x128x64_S1x64x64_5_0_0 : S12x128x64.Slices ![5, 0, 0] S1x64x64
  slices_S12x128x64_S1x64x64_5_64_0 : S12x128x64.Slices ![5, 64, 0] S1x64x64
  slices_S12x64_S1x64_5_0 : S12x64.Slices ![5, 0] S1x64
  slices_S12x128x64_S1x64x64_6_0_0 : S12x128x64.Slices ![6, 0, 0] S1x64x64
  slices_S12x128x64_S1x64x64_6_64_0 : S12x128x64.Slices ![6, 64, 0] S1x64x64
  slices_S12x64_S1x64_6_0 : S12x64.Slices ![6, 0] S1x64
  slices_S12x128x64_S1x64x64_7_0_0 : S12x128x64.Slices ![7, 0, 0] S1x64x64
  slices_S12x128x64_S1x64x64_7_64_0 : S12x128x64.Slices ![7, 64, 0] S1x64x64
  slices_S12x64_S1x64_7_0 : S12x64.Slices ![7, 0] S1x64
  slices_S12x128x64_S1x64x64_8_0_0 : S12x128x64.Slices ![8, 0, 0] S1x64x64
  slices_S12x128x64_S1x64x64_8_64_0 : S12x128x64.Slices ![8, 64, 0] S1x64x64
  slices_S12x64_S1x64_8_0 : S12x64.Slices ![8, 0] S1x64
  slices_S12x128x64_S1x64x64_9_0_0 : S12x128x64.Slices ![9, 0, 0] S1x64x64
  slices_S12x128x64_S1x64x64_9_64_0 : S12x128x64.Slices ![9, 64, 0] S1x64x64
  slices_S12x64_S1x64_9_0 : S12x64.Slices ![9, 0] S1x64
  slices_S12x128x64_S1x64x64_10_0_0 : S12x128x64.Slices ![10, 0, 0] S1x64x64
  slices_S12x128x64_S1x64x64_10_64_0 : S12x128x64.Slices ![10, 64, 0] S1x64x64
  slices_S12x64_S1x64_10_0 : S12x64.Slices ![10, 0] S1x64
  slices_S12x128x64_S1x64x64_11_0_0 : S12x128x64.Slices ![11, 0, 0] S1x64x64
  slices_S12x128x64_S1x64x64_11_64_0 : S12x128x64.Slices ![11, 64, 0] S1x64x64
  slices_S12x64_S1x64_11_0 : S12x64.Slices ![11, 0] S1x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S50000x64.size a
  hwx8_1 : ∀ i : grid8.Coords, EltTy.bits .f32 = 32 ∨ (Rect.block (s := S50000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S50000x64.size a
  hwx8_5 : ∀ i : grid8.Coords, EltTy.bits .f32 = 32 ∨ (Rect.block (s := S50000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S50000x64.size a
  hwx9_1 : ∀ i : grid9.Coords, EltTy.bits .f32 = 32 ∨ (Rect.block (s := S50000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S50000x64.size a
  hwx9_5 : ∀ i : grid9.Coords, EltTy.bits .f32 = 32 ∨ (Rect.block (s := S50000x64) S5000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S50000x64.size a
  hwx10_1 : ∀ i : grid10.Coords, EltTy.bits .f32 = 32 ∨ (Rect.block (s := S50000x64) S5000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x64.size a ≤ S64x64.size a
  hwx10_2 : ∀ i : grid10.Coords, EltTy.bits .f32 = 32 ∨ (Rect.block (s := S64x64) S64x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x64.size a ≤ S50000x64.size a
  hwx10_5 : ∀ i : grid10.Coords, EltTy.bits .f32 = 32 ∨ (Rect.block (s := S50000x64) S5000x64.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S50000x64.size a
  hwx11_1 : ∀ i : grid11.Coords, EltTy.bits .f32 = 32 ∨ (Rect.block (s := S50000x64) S5000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .f32 = 32 ∨ (Rect.block (s := S64x64) S64x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S50000x64.size a
  hwx11_5 : ∀ i : grid11.Coords, EltTy.bits .f32 = 32 ∨ (Rect.block (s := S50000x64) S5000x64.size (cc11_transform_5 i) (hinb11_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v84) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v96) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v84) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v98) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v104) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v116) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v118) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v120) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v123) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v124) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v136) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v124) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v138) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v140) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v143) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v144) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v156) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v144) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v158) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v160) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v163) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v164) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v176) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v164) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v178) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v180) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v183) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v184) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v196) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v184) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v198) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v200) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v203) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v204) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v216) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v204) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v218) S64x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v220) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v223) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v224) S5000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v236) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v224) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v238) S64x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v240) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v243) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v244) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S12x128x64 : Shape := ⟨3, ![12, 128, 64]⟩
abbrev S12x64 : Shape := ⟨2, ![12, 64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩

abbrev nBuf : Space → Nat
  | .hbm => 538
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S12x128x64, .f32⟩
  | 4 => ⟨S12x64, .f32⟩
  | 5 => ⟨S1x800000, .i32⟩
  | 6 => ⟨S800000, .i32⟩
  | 7 => ⟨S1x800000, .i32⟩
  | 8 => ⟨S800000, .i32⟩
  | 9 => ⟨S800000x1, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S800000x64, .f32⟩
  | 20 => ⟨S800000x64, .f32⟩
  | 21 => ⟨S_, .f32⟩
  | 22 => ⟨S50000x64, .f32⟩
  | 23 => ⟨S800000x1, .i32⟩
  | 24 => ⟨S50000x64, .f32⟩
  | 25 => ⟨S50000x64, .f32⟩
  | 26 => ⟨S_, .f32⟩
  | 27 => ⟨S50000, .f32⟩
  | 28 => ⟨S50000x1, .f32⟩
  | 29 => ⟨S50000x1, .f32⟩
  | 30 => ⟨S_, .f32⟩
  | 31 => ⟨S50000x1, .f32⟩
  | 32 => ⟨S50000x1, .f32⟩
  | 33 => ⟨S50000x64, .f32⟩
  | 34 => ⟨S50000x64, .f32⟩
  | 35 => ⟨S50000x128, .f32⟩
  | 36 => ⟨S1x128x64, .f32⟩
  | 37 => ⟨S128x64, .f32⟩
  | 38 => ⟨S50000x64, .f32⟩
  | 39 => ⟨S1x64, .f32⟩
  | 40 => ⟨S64, .f32⟩
  | 41 => ⟨S1x64, .f32⟩
  | 42 => ⟨S50000x64, .f32⟩
  | 43 => ⟨S50000x64, .f32⟩
  | 44 => ⟨S50000x64, .f32⟩
  | 45 => ⟨S_, .f32⟩
  | 46 => ⟨S50000, .f32⟩
  | 47 => ⟨S50000x1, .f32⟩
  | 48 => ⟨S50000x1, .f32⟩
  | 49 => ⟨S_, .f32⟩
  | 50 => ⟨S50000x1, .f32⟩
  | 51 => ⟨S50000x1, .f32⟩
  | 52 => ⟨S50000x64, .f32⟩
  | 53 => ⟨S50000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S800000x64, .f32⟩
  | 64 => ⟨S800000x64, .f32⟩
  | 65 => ⟨S_, .f32⟩
  | 66 => ⟨S50000x64, .f32⟩
  | 67 => ⟨S800000x1, .i32⟩
  | 68 => ⟨S50000x64, .f32⟩
  | 69 => ⟨S50000x64, .f32⟩
  | 70 => ⟨S_, .f32⟩
  | 71 => ⟨S50000, .f32⟩
  | 72 => ⟨S50000x1, .f32⟩
  | 73 => ⟨S50000x1, .f32⟩
  | 74 => ⟨S_, .f32⟩
  | 75 => ⟨S50000x1, .f32⟩
  | 76 => ⟨S50000x1, .f32⟩
  | 77 => ⟨S50000x64, .f32⟩
  | 78 => ⟨S50000x64, .f32⟩
  | 79 => ⟨S50000x128, .f32⟩
  | 80 => ⟨S1x128x64, .f32⟩
  | 81 => ⟨S128x64, .f32⟩
  | 82 => ⟨S50000x64, .f32⟩
  | 83 => ⟨S1x64, .f32⟩
  | 84 => ⟨S64, .f32⟩
  | 85 => ⟨S1x64, .f32⟩
  | 86 => ⟨S50000x64, .f32⟩
  | 87 => ⟨S50000x64, .f32⟩
  | 88 => ⟨S50000x64, .f32⟩
  | 89 => ⟨S_, .f32⟩
  | 90 => ⟨S50000, .f32⟩
  | 91 => ⟨S50000x1, .f32⟩
  | 92 => ⟨S50000x1, .f32⟩
  | 93 => ⟨S_, .f32⟩
  | 94 => ⟨S50000x1, .f32⟩
  | 95 => ⟨S50000x1, .f32⟩
  | 96 => ⟨S50000x64, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S50000x64, .f32⟩
  | 114 => ⟨S_, .f32⟩
  | 115 => ⟨S50000, .f32⟩
  | 116 => ⟨S50000x1, .f32⟩
  | 117 => ⟨S50000x1, .f32⟩
  | 118 => ⟨S_, .f32⟩
  | 119 => ⟨S50000x1, .f32⟩
  | 120 => ⟨S50000x1, .f32⟩
  | 121 => ⟨S50000x64, .f32⟩
  | 122 => ⟨S50000x64, .f32⟩
  | 123 => ⟨S50000x128, .f32⟩
  | 124 => ⟨S1x128x64, .f32⟩
  | 125 => ⟨S128x64, .f32⟩
  | 126 => ⟨S50000x64, .f32⟩
  | 127 => ⟨S1x64, .f32⟩
  | _ => ⟨S50000x64, .f32⟩

abbrev hbmTy0_1 (i : Nat) : BufTy := match i % 128 with
  | 0 => ⟨S64, .f32⟩
  | 1 => ⟨S1x64, .f32⟩
  | 2 => ⟨S50000x64, .f32⟩
  | 3 => ⟨S50000x64, .f32⟩
  | 4 => ⟨S50000x64, .f32⟩
  | 5 => ⟨S_, .f32⟩
  | 6 => ⟨S50000, .f32⟩
  | 7 => ⟨S50000x1, .f32⟩
  | 8 => ⟨S50000x1, .f32⟩
  | 9 => ⟨S_, .f32⟩
  | 10 => ⟨S50000x1, .f32⟩
  | 11 => ⟨S50000x1, .f32⟩
  | 12 => ⟨S50000x64, .f32⟩
  | 13 => ⟨S50000x64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S800000x64, .f32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S50000x64, .f32⟩
  | 30 => ⟨S_, .f32⟩
  | 31 => ⟨S50000, .f32⟩
  | 32 => ⟨S50000x1, .f32⟩
  | 33 => ⟨S50000x1, .f32⟩
  | 34 => ⟨S_, .f32⟩
  | 35 => ⟨S50000x1, .f32⟩
  | 36 => ⟨S50000x1, .f32⟩
  | 37 => ⟨S50000x64, .f32⟩
  | 38 => ⟨S50000x64, .f32⟩
  | 39 => ⟨S50000x128, .f32⟩
  | 40 => ⟨S1x128x64, .f32⟩
  | 41 => ⟨S128x64, .f32⟩
  | 42 => ⟨S50000x64, .f32⟩
  | 43 => ⟨S1x64, .f32⟩
  | 44 => ⟨S64, .f32⟩
  | 45 => ⟨S1x64, .f32⟩
  | 46 => ⟨S50000x64, .f32⟩
  | 47 => ⟨S50000x64, .f32⟩
  | 48 => ⟨S50000x64, .f32⟩
  | 49 => ⟨S_, .f32⟩
  | 50 => ⟨S50000, .f32⟩
  | 51 => ⟨S50000x1, .f32⟩
  | 52 => ⟨S50000x1, .f32⟩
  | 53 => ⟨S_, .f32⟩
  | 54 => ⟨S50000x1, .f32⟩
  | 55 => ⟨S50000x1, .f32⟩
  | 56 => ⟨S50000x64, .f32⟩
  | 57 => ⟨S50000x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S800000x64, .f32⟩
  | 68 => ⟨S800000x64, .f32⟩
  | 69 => ⟨S_, .f32⟩
  | 70 => ⟨S50000x64, .f32⟩
  | 71 => ⟨S800000x1, .i32⟩
  | 72 => ⟨S50000x64, .f32⟩
  | 73 => ⟨S50000x64, .f32⟩
  | 74 => ⟨S_, .f32⟩
  | 75 => ⟨S50000, .f32⟩
  | 76 => ⟨S50000x1, .f32⟩
  | 77 => ⟨S50000x1, .f32⟩
  | 78 => ⟨S_, .f32⟩
  | 79 => ⟨S50000x1, .f32⟩
  | 80 => ⟨S50000x1, .f32⟩
  | 81 => ⟨S50000x64, .f32⟩
  | 82 => ⟨S50000x64, .f32⟩
  | 83 => ⟨S50000x128, .f32⟩
  | 84 => ⟨S1x128x64, .f32⟩
  | 85 => ⟨S128x64, .f32⟩
  | 86 => ⟨S50000x64, .f32⟩
  | 87 => ⟨S1x64, .f32⟩
  | 88 => ⟨S64, .f32⟩
  | 89 => ⟨S1x64, .f32⟩
  | 90 => ⟨S50000x64, .f32⟩
  | 91 => ⟨S50000x64, .f32⟩
  | 92 => ⟨S50000x64, .f32⟩
  | 93 => ⟨S_, .f32⟩
  | 94 => ⟨S50000, .f32⟩
  | 95 => ⟨S50000x1, .f32⟩
  | 96 => ⟨S50000x1, .f32⟩
  | 97 => ⟨S_, .f32⟩
  | 98 => ⟨S50000x1, .f32⟩
  | 99 => ⟨S50000x1, .f32⟩
  | 100 => ⟨S50000x64, .f32⟩
  | 101 => ⟨S50000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S800000x64, .f32⟩
  | 112 => ⟨S800000x64, .f32⟩
  | 113 => ⟨S_, .f32⟩
  | 114 => ⟨S50000x64, .f32⟩
  | 115 => ⟨S800000x1, .i32⟩
  | 116 => ⟨S50000x64, .f32⟩
  | 117 => ⟨S50000x64, .f32⟩
  | 118 => ⟨S_, .f32⟩
  | 119 => ⟨S50000, .f32⟩
  | 120 => ⟨S50000x1, .f32⟩
  | 121 => ⟨S50000x1, .f32⟩
  | 122 => ⟨S_, .f32⟩
  | 123 => ⟨S50000x1, .f32⟩
  | 124 => ⟨S50000x1, .f32⟩
  | 125 => ⟨S50000x64, .f32⟩
  | 126 => ⟨S50000x64, .f32⟩
  | 127 => ⟨S50000x128, .f32⟩
  | _ => ⟨S50000x64, .f32⟩

abbrev hbmTy0_2 (i : Nat) : BufTy := match i % 128 with
  | 0 => ⟨S1x128x64, .f32⟩
  | 1 => ⟨S128x64, .f32⟩
  | 2 => ⟨S50000x64, .f32⟩
  | 3 => ⟨S1x64, .f32⟩
  | 4 => ⟨S64, .f32⟩
  | 5 => ⟨S1x64, .f32⟩
  | 6 => ⟨S50000x64, .f32⟩
  | 7 => ⟨S50000x64, .f32⟩
  | 8 => ⟨S50000x64, .f32⟩
  | 9 => ⟨S_, .f32⟩
  | 10 => ⟨S50000, .f32⟩
  | 11 => ⟨S50000x1, .f32⟩
  | 12 => ⟨S50000x1, .f32⟩
  | 13 => ⟨S_, .f32⟩
  | 14 => ⟨S50000x1, .f32⟩
  | 15 => ⟨S50000x1, .f32⟩
  | 16 => ⟨S50000x64, .f32⟩
  | 17 => ⟨S50000x64, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S800000x64, .f32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S50000x64, .f32⟩
  | 34 => ⟨S_, .f32⟩
  | 35 => ⟨S50000, .f32⟩
  | 36 => ⟨S50000x1, .f32⟩
  | 37 => ⟨S50000x1, .f32⟩
  | 38 => ⟨S_, .f32⟩
  | 39 => ⟨S50000x1, .f32⟩
  | 40 => ⟨S50000x1, .f32⟩
  | 41 => ⟨S50000x64, .f32⟩
  | 42 => ⟨S50000x64, .f32⟩
  | 43 => ⟨S50000x128, .f32⟩
  | 44 => ⟨S1x128x64, .f32⟩
  | 45 => ⟨S128x64, .f32⟩
  | 46 => ⟨S50000x64, .f32⟩
  | 47 => ⟨S1x64, .f32⟩
  | 48 => ⟨S64, .f32⟩
  | 49 => ⟨S1x64, .f32⟩
  | 50 => ⟨S50000x64, .f32⟩
  | 51 => ⟨S50000x64, .f32⟩
  | 52 => ⟨S50000x64, .f32⟩
  | 53 => ⟨S_, .f32⟩
  | 54 => ⟨S50000, .f32⟩
  | 55 => ⟨S50000x1, .f32⟩
  | 56 => ⟨S50000x1, .f32⟩
  | 57 => ⟨S_, .f32⟩
  | 58 => ⟨S50000x1, .f32⟩
  | 59 => ⟨S50000x1, .f32⟩
  | 60 => ⟨S50000x64, .f32⟩
  | 61 => ⟨S50000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S800000x64, .f32⟩
  | 72 => ⟨S800000x64, .f32⟩
  | 73 => ⟨S_, .f32⟩
  | 74 => ⟨S50000x64, .f32⟩
  | 75 => ⟨S800000x1, .i32⟩
  | 76 => ⟨S50000x64, .f32⟩
  | 77 => ⟨S50000x64, .f32⟩
  | 78 => ⟨S_, .f32⟩
  | 79 => ⟨S50000, .f32⟩
  | 80 => ⟨S50000x1, .f32⟩
  | 81 => ⟨S50000x1, .f32⟩
  | 82 => ⟨S_, .f32⟩
  | 83 => ⟨S50000x1, .f32⟩
  | 84 => ⟨S50000x1, .f32⟩
  | 85 => ⟨S50000x64, .f32⟩
  | 86 => ⟨S50000x64, .f32⟩
  | 87 => ⟨S50000x128, .f32⟩
  | 88 => ⟨S1x128x64, .f32⟩
  | 89 => ⟨S128x64, .f32⟩
  | 90 => ⟨S50000x64, .f32⟩
  | 91 => ⟨S1x64, .f32⟩
  | 92 => ⟨S64, .f32⟩
  | 93 => ⟨S1x64, .f32⟩
  | 94 => ⟨S50000x64, .f32⟩
  | 95 => ⟨S50000x64, .f32⟩
  | 96 => ⟨S50000x64, .f32⟩
  | 97 => ⟨S_, .f32⟩
  | 98 => ⟨S50000, .f32⟩
  | 99 => ⟨S50000x1, .f32⟩
  | 100 => ⟨S50000x1, .f32⟩
  | 101 => ⟨S_, .f32⟩
  | 102 => ⟨S50000x1, .f32⟩
  | 103 => ⟨S50000x1, .f32⟩
  | 104 => ⟨S50000x64, .f32⟩
  | 105 => ⟨S50000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S800000x64, .f32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S50000x64, .f32⟩
  | 122 => ⟨S_, .f32⟩
  | 123 => ⟨S50000, .f32⟩
  | 124 => ⟨S50000x1, .f32⟩
  | 125 => ⟨S50000x1, .f32⟩
  | 126 => ⟨S_, .f32⟩
  | 127 => ⟨S50000x1, .f32⟩
  | _ => ⟨S50000x64, .f32⟩

abbrev hbmTy0_3 (i : Nat) : BufTy := match i % 128 with
  | 0 => ⟨S50000x1, .f32⟩
  | 1 => ⟨S50000x64, .f32⟩
  | 2 => ⟨S50000x64, .f32⟩
  | 3 => ⟨S50000x128, .f32⟩
  | 4 => ⟨S1x128x64, .f32⟩
  | 5 => ⟨S128x64, .f32⟩
  | 6 => ⟨S50000x64, .f32⟩
  | 7 => ⟨S1x64, .f32⟩
  | 8 => ⟨S64, .f32⟩
  | 9 => ⟨S1x64, .f32⟩
  | 10 => ⟨S50000x64, .f32⟩
  | 11 => ⟨S50000x64, .f32⟩
  | 12 => ⟨S50000x64, .f32⟩
  | 13 => ⟨S_, .f32⟩
  | 14 => ⟨S50000, .f32⟩
  | 15 => ⟨S50000x1, .f32⟩
  | 16 => ⟨S50000x1, .f32⟩
  | 17 => ⟨S_, .f32⟩
  | 18 => ⟨S50000x1, .f32⟩
  | 19 => ⟨S50000x1, .f32⟩
  | 20 => ⟨S50000x64, .f32⟩
  | 21 => ⟨S50000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S800000x64, .f32⟩
  | 32 => ⟨S800000x64, .f32⟩
  | 33 => ⟨S_, .f32⟩
  | 34 => ⟨S50000x64, .f32⟩
  | 35 => ⟨S800000x1, .i32⟩
  | 36 => ⟨S50000x64, .f32⟩
  | 37 => ⟨S50000x64, .f32⟩
  | 38 => ⟨S_, .f32⟩
  | 39 => ⟨S50000, .f32⟩
  | 40 => ⟨S50000x1, .f32⟩
  | 41 => ⟨S50000x1, .f32⟩
  | 42 => ⟨S_, .f32⟩
  | 43 => ⟨S50000x1, .f32⟩
  | 44 => ⟨S50000x1, .f32⟩
  | 45 => ⟨S50000x64, .f32⟩
  | 46 => ⟨S50000x64, .f32⟩
  | 47 => ⟨S50000x128, .f32⟩
  | 48 => ⟨S1x128x64, .f32⟩
  | 49 => ⟨S128x64, .f32⟩
  | 50 => ⟨S50000x64, .f32⟩
  | 51 => ⟨S1x64, .f32⟩
  | 52 => ⟨S64, .f32⟩
  | 53 => ⟨S1x64, .f32⟩
  | 54 => ⟨S50000x64, .f32⟩
  | 55 => ⟨S50000x64, .f32⟩
  | 56 => ⟨S50000x64, .f32⟩
  | 57 => ⟨S_, .f32⟩
  | 58 => ⟨S50000, .f32⟩
  | 59 => ⟨S50000x1, .f32⟩
  | 60 => ⟨S50000x1, .f32⟩
  | 61 => ⟨S_, .f32⟩
  | 62 => ⟨S50000x1, .f32⟩
  | 63 => ⟨S50000x1, .f32⟩
  | 64 => ⟨S50000x64, .f32⟩
  | 65 => ⟨S50000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S800000x64, .f32⟩
  | 76 => ⟨S800000x64, .f32⟩
  | 77 => ⟨S_, .f32⟩
  | 78 => ⟨S50000x64, .f32⟩
  | 79 => ⟨S800000x1, .i32⟩
  | 80 => ⟨S50000x64, .f32⟩
  | 81 => ⟨S50000x64, .f32⟩
  | 82 => ⟨S_, .f32⟩
  | 83 => ⟨S50000, .f32⟩
  | 84 => ⟨S50000x1, .f32⟩
  | 85 => ⟨S50000x1, .f32⟩
  | 86 => ⟨S_, .f32⟩
  | 87 => ⟨S50000x1, .f32⟩
  | 88 => ⟨S50000x1, .f32⟩
  | 89 => ⟨S50000x64, .f32⟩
  | 90 => ⟨S50000x64, .f32⟩
  | 91 => ⟨S50000x128, .f32⟩
  | 92 => ⟨S1x128x64, .f32⟩
  | 93 => ⟨S128x64, .f32⟩
  | 94 => ⟨S50000x64, .f32⟩
  | 95 => ⟨S1x64, .f32⟩
  | 96 => ⟨S64, .f32⟩
  | 97 => ⟨S1x64, .f32⟩
  | 98 => ⟨S50000x64, .f32⟩
  | 99 => ⟨S50000x64, .f32⟩
  | 100 => ⟨S50000x64, .f32⟩
  | 101 => ⟨S_, .f32⟩
  | 102 => ⟨S50000, .f32⟩
  | 103 => ⟨S50000x1, .f32⟩
  | 104 => ⟨S50000x1, .f32⟩
  | 105 => ⟨S_, .f32⟩
  | 106 => ⟨S50000x1, .f32⟩
  | 107 => ⟨S50000x1, .f32⟩
  | 108 => ⟨S50000x64, .f32⟩
  | 109 => ⟨S50000x64, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S800000x64, .f32⟩
  | 120 => ⟨S800000x64, .f32⟩
  | 121 => ⟨S_, .f32⟩
  | 122 => ⟨S50000x64, .f32⟩
  | 123 => ⟨S800000x1, .i32⟩
  | 124 => ⟨S50000x64, .f32⟩
  | 125 => ⟨S50000x64, .f32⟩
  | 126 => ⟨S_, .f32⟩
  | 127 => ⟨S50000, .f32⟩
  | _ => ⟨S50000x64, .f32⟩

abbrev hbmTy0_4 (i : Nat) : BufTy := match i % 128 with
  | 0 => ⟨S50000x1, .f32⟩
  | 1 => ⟨S50000x1, .f32⟩
  | 2 => ⟨S_, .f32⟩
  | 3 => ⟨S50000x1, .f32⟩
  | 4 => ⟨S50000x1, .f32⟩
  | 5 => ⟨S50000x64, .f32⟩
  | 6 => ⟨S50000x64, .f32⟩
  | 7 => ⟨S50000x128, .f32⟩
  | 8 => ⟨S1x128x64, .f32⟩
  | 9 => ⟨S128x64, .f32⟩
  | 10 => ⟨S50000x64, .f32⟩
  | 11 => ⟨S1x64, .f32⟩
  | 12 => ⟨S64, .f32⟩
  | 13 => ⟨S1x64, .f32⟩
  | 14 => ⟨S50000x64, .f32⟩
  | 15 => ⟨S50000x64, .f32⟩
  | 16 => ⟨S50000x64, .f32⟩
  | 17 => ⟨S_, .f32⟩
  | 18 => ⟨S50000, .f32⟩
  | 19 => ⟨S50000x1, .f32⟩
  | 20 => ⟨S50000x1, .f32⟩
  | 21 => ⟨S_, .f32⟩
  | 22 => ⟨S50000x1, .f32⟩
  | 23 => ⟨S50000x1, .f32⟩
  | 24 => ⟨S50000x64, .f32⟩
  | 25 => ⟨S50000x64, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_11 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_c_12 : Ref sig .tc := ⟨.hbm, 98, rfl⟩
abbrev main_v79 : Ref sig .tc := ⟨.hbm, 99, rfl⟩
abbrev main_v80 : Ref sig .tc := ⟨.hbm, 100, rfl⟩
abbrev main_c_13 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_14 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_15 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_16 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_17 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_cst_18 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_c_19 : Ref sig .tc := ⟨.hbm, 142, rfl⟩
abbrev main_v116 : Ref sig .tc := ⟨.hbm, 143, rfl⟩
abbrev main_v117 : Ref sig .tc := ⟨.hbm, 144, rfl⟩
abbrev main_c_20 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_21 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_22 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_23 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_24 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_cst_25 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_c_26 : Ref sig .tc := ⟨.hbm, 186, rfl⟩
abbrev main_v153 : Ref sig .tc := ⟨.hbm, 187, rfl⟩
abbrev main_v154 : Ref sig .tc := ⟨.hbm, 188, rfl⟩
abbrev main_c_27 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_28 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_cst_29 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_cst_30 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_cst_31 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_cst_32 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_c_33 : Ref sig .tc := ⟨.hbm, 230, rfl⟩
abbrev main_v190 : Ref sig .tc := ⟨.hbm, 231, rfl⟩
abbrev main_v191 : Ref sig .tc := ⟨.hbm, 232, rfl⟩
abbrev main_c_34 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_cst_35 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_cst_36 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_cst_37 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_cst_38 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_cst_39 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_c_40 : Ref sig .tc := ⟨.hbm, 274, rfl⟩
abbrev main_v227 : Ref sig .tc := ⟨.hbm, 275, rfl⟩
abbrev main_v228 : Ref sig .tc := ⟨.hbm, 276, rfl⟩
abbrev main_c_41 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_cst_42 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_cst_43 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_cst_44 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_cst_45 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_cst_46 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_c_47 : Ref sig .tc := ⟨.hbm, 318, rfl⟩
abbrev main_v264 : Ref sig .tc := ⟨.hbm, 319, rfl⟩
abbrev main_v265 : Ref sig .tc := ⟨.hbm, 320, rfl⟩
abbrev main_c_48 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_cst_49 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_cst_50 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_cst_51 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_v290 : Ref sig .tc := ⟨.hbm, 349, rfl⟩
abbrev main_v291 : Ref sig .tc := ⟨.hbm, 350, rfl⟩
abbrev main_v292 : Ref sig .tc := ⟨.hbm, 351, rfl⟩
abbrev main_v293 : Ref sig .tc := ⟨.hbm, 352, rfl⟩
abbrev main_cst_52 : Ref sig .tc := ⟨.hbm, 353, rfl⟩
abbrev main_v294 : Ref sig .tc := ⟨.hbm, 354, rfl⟩
abbrev main_v295 : Ref sig .tc := ⟨.hbm, 355, rfl⟩
abbrev main_v296 : Ref sig .tc := ⟨.hbm, 356, rfl⟩
abbrev main_cst_53 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_c_54 : Ref sig .tc := ⟨.hbm, 362, rfl⟩
abbrev main_v301 : Ref sig .tc := ⟨.hbm, 363, rfl⟩
abbrev main_v302 : Ref sig .tc := ⟨.hbm, 364, rfl⟩
abbrev main_c_55 : Ref sig .tc := ⟨.hbm, 365, rfl⟩
abbrev main_v303 : Ref sig .tc := ⟨.hbm, 366, rfl⟩
abbrev main_v304 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_cst_56 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_v313 : Ref sig .tc := ⟨.hbm, 377, rfl⟩
abbrev main_cst_57 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_cst_58 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_v330 : Ref sig .tc := ⟨.hbm, 396, rfl⟩
abbrev main_cst_59 : Ref sig .tc := ⟨.hbm, 397, rfl⟩
abbrev main_v331 : Ref sig .tc := ⟨.hbm, 398, rfl⟩
abbrev main_v332 : Ref sig .tc := ⟨.hbm, 399, rfl⟩
abbrev main_v333 : Ref sig .tc := ⟨.hbm, 400, rfl⟩
abbrev main_cst_60 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_c_61 : Ref sig .tc := ⟨.hbm, 406, rfl⟩
abbrev main_v338 : Ref sig .tc := ⟨.hbm, 407, rfl⟩
abbrev main_v339 : Ref sig .tc := ⟨.hbm, 408, rfl⟩
abbrev main_c_62 : Ref sig .tc := ⟨.hbm, 409, rfl⟩
abbrev main_v340 : Ref sig .tc := ⟨.hbm, 410, rfl⟩
abbrev main_v341 : Ref sig .tc := ⟨.hbm, 411, rfl⟩
abbrev main_v342 : Ref sig .tc := ⟨.hbm, 412, rfl⟩
abbrev main_v343 : Ref sig .tc := ⟨.hbm, 413, rfl⟩
abbrev main_v344 : Ref sig .tc := ⟨.hbm, 414, rfl⟩
abbrev main_v345 : Ref sig .tc := ⟨.hbm, 415, rfl⟩
abbrev main_v346 : Ref sig .tc := ⟨.hbm, 416, rfl⟩
abbrev main_cst_63 : Ref sig .tc := ⟨.hbm, 417, rfl⟩
abbrev main_v347 : Ref sig .tc := ⟨.hbm, 418, rfl⟩
abbrev main_v348 : Ref sig .tc := ⟨.hbm, 419, rfl⟩
abbrev main_v349 : Ref sig .tc := ⟨.hbm, 420, rfl⟩
abbrev main_v350 : Ref sig .tc := ⟨.hbm, 421, rfl⟩
abbrev main_cst_64 : Ref sig .tc := ⟨.hbm, 422, rfl⟩
abbrev main_v351 : Ref sig .tc := ⟨.hbm, 423, rfl⟩
abbrev main_v352 : Ref sig .tc := ⟨.hbm, 424, rfl⟩
abbrev main_v353 : Ref sig .tc := ⟨.hbm, 425, rfl⟩
abbrev main_cst_65 : Ref sig .tc := ⟨.hbm, 426, rfl⟩
abbrev main_v354 : Ref sig .tc := ⟨.hbm, 427, rfl⟩
abbrev main_v355 : Ref sig .tc := ⟨.hbm, 428, rfl⟩
abbrev main_v356 : Ref sig .tc := ⟨.hbm, 429, rfl⟩
abbrev main_v357 : Ref sig .tc := ⟨.hbm, 430, rfl⟩
abbrev main_v358 : Ref sig .tc := ⟨.hbm, 431, rfl⟩
abbrev main_v359 : Ref sig .tc := ⟨.hbm, 432, rfl⟩
abbrev main_v360 : Ref sig .tc := ⟨.hbm, 433, rfl⟩
abbrev main_v361 : Ref sig .tc := ⟨.hbm, 434, rfl⟩
abbrev main_v362 : Ref sig .tc := ⟨.hbm, 435, rfl⟩
abbrev main_v363 : Ref sig .tc := ⟨.hbm, 436, rfl⟩
abbrev main_v364 : Ref sig .tc := ⟨.hbm, 437, rfl⟩
abbrev main_v365 : Ref sig .tc := ⟨.hbm, 438, rfl⟩
abbrev main_v366 : Ref sig .tc := ⟨.hbm, 439, rfl⟩
abbrev main_v367 : Ref sig .tc := ⟨.hbm, 440, rfl⟩
abbrev main_cst_66 : Ref sig .tc := ⟨.hbm, 441, rfl⟩
abbrev main_v368 : Ref sig .tc := ⟨.hbm, 442, rfl⟩
abbrev main_v369 : Ref sig .tc := ⟨.hbm, 443, rfl⟩
abbrev main_v370 : Ref sig .tc := ⟨.hbm, 444, rfl⟩
abbrev main_cst_67 : Ref sig .tc := ⟨.hbm, 445, rfl⟩
abbrev main_v371 : Ref sig .tc := ⟨.hbm, 446, rfl⟩
abbrev main_v372 : Ref sig .tc := ⟨.hbm, 447, rfl⟩
abbrev main_v373 : Ref sig .tc := ⟨.hbm, 448, rfl⟩
abbrev main_v374 : Ref sig .tc := ⟨.hbm, 449, rfl⟩
abbrev main_c_68 : Ref sig .tc := ⟨.hbm, 450, rfl⟩
abbrev main_v375 : Ref sig .tc := ⟨.hbm, 451, rfl⟩
abbrev main_v376 : Ref sig .tc := ⟨.hbm, 452, rfl⟩
abbrev main_c_69 : Ref sig .tc := ⟨.hbm, 453, rfl⟩
abbrev main_v377 : Ref sig .tc := ⟨.hbm, 454, rfl⟩
abbrev main_v378 : Ref sig .tc := ⟨.hbm, 455, rfl⟩
abbrev main_v379 : Ref sig .tc := ⟨.hbm, 456, rfl⟩
abbrev main_v380 : Ref sig .tc := ⟨.hbm, 457, rfl⟩
abbrev main_v381 : Ref sig .tc := ⟨.hbm, 458, rfl⟩
abbrev main_v382 : Ref sig .tc := ⟨.hbm, 459, rfl⟩
abbrev main_v383 : Ref sig .tc := ⟨.hbm, 460, rfl⟩
abbrev main_cst_70 : Ref sig .tc := ⟨.hbm, 461, rfl⟩
abbrev main_v384 : Ref sig .tc := ⟨.hbm, 462, rfl⟩
abbrev main_v385 : Ref sig .tc := ⟨.hbm, 463, rfl⟩
abbrev main_v386 : Ref sig .tc := ⟨.hbm, 464, rfl⟩
abbrev main_v387 : Ref sig .tc := ⟨.hbm, 465, rfl⟩
abbrev main_cst_71 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_cst_72 : Ref sig .tc := ⟨.hbm, 470, rfl⟩
abbrev main_v391 : Ref sig .tc := ⟨.hbm, 471, rfl⟩
abbrev main_v392 : Ref sig .tc := ⟨.hbm, 472, rfl⟩
abbrev main_v393 : Ref sig .tc := ⟨.hbm, 473, rfl⟩
abbrev main_v394 : Ref sig .tc := ⟨.hbm, 474, rfl⟩
abbrev main_v395 : Ref sig .tc := ⟨.hbm, 475, rfl⟩
abbrev main_v396 : Ref sig .tc := ⟨.hbm, 476, rfl⟩
abbrev main_v397 : Ref sig .tc := ⟨.hbm, 477, rfl⟩
abbrev main_v398 : Ref sig .tc := ⟨.hbm, 478, rfl⟩
abbrev main_v399 : Ref sig .tc := ⟨.hbm, 479, rfl⟩
abbrev main_v400 : Ref sig .tc := ⟨.hbm, 480, rfl⟩
abbrev main_v401 : Ref sig .tc := ⟨.hbm, 481, rfl⟩
abbrev main_v402 : Ref sig .tc := ⟨.hbm, 482, rfl⟩
abbrev main_v403 : Ref sig .tc := ⟨.hbm, 483, rfl⟩
abbrev main_v404 : Ref sig .tc := ⟨.hbm, 484, rfl⟩
abbrev main_cst_73 : Ref sig .tc := ⟨.hbm, 485, rfl⟩
abbrev main_v405 : Ref sig .tc := ⟨.hbm, 486, rfl⟩
abbrev main_v406 : Ref sig .tc := ⟨.hbm, 487, rfl⟩
abbrev main_v407 : Ref sig .tc := ⟨.hbm, 488, rfl⟩
abbrev main_cst_74 : Ref sig .tc := ⟨.hbm, 489, rfl⟩
abbrev main_v408 : Ref sig .tc := ⟨.hbm, 490, rfl⟩
abbrev main_v409 : Ref sig .tc := ⟨.hbm, 491, rfl⟩
abbrev main_v410 : Ref sig .tc := ⟨.hbm, 492, rfl⟩
abbrev main_v411 : Ref sig .tc := ⟨.hbm, 493, rfl⟩
abbrev main_c_75 : Ref sig .tc := ⟨.hbm, 494, rfl⟩
abbrev main_v412 : Ref sig .tc := ⟨.hbm, 495, rfl⟩
abbrev main_v413 : Ref sig .tc := ⟨.hbm, 496, rfl⟩
abbrev main_c_76 : Ref sig .tc := ⟨.hbm, 497, rfl⟩
abbrev main_v414 : Ref sig .tc := ⟨.hbm, 498, rfl⟩
abbrev main_v415 : Ref sig .tc := ⟨.hbm, 499, rfl⟩
abbrev main_v416 : Ref sig .tc := ⟨.hbm, 500, rfl⟩
abbrev main_v417 : Ref sig .tc := ⟨.hbm, 501, rfl⟩
abbrev main_v418 : Ref sig .tc := ⟨.hbm, 502, rfl⟩
abbrev main_v419 : Ref sig .tc := ⟨.hbm, 503, rfl⟩
abbrev main_v420 : Ref sig .tc := ⟨.hbm, 504, rfl⟩
abbrev main_cst_77 : Ref sig .tc := ⟨.hbm, 505, rfl⟩
abbrev main_v421 : Ref sig .tc := ⟨.hbm, 506, rfl⟩
abbrev main_v422 : Ref sig .tc := ⟨.hbm, 507, rfl⟩
abbrev main_v423 : Ref sig .tc := ⟨.hbm, 508, rfl⟩
abbrev main_v424 : Ref sig .tc := ⟨.hbm, 509, rfl⟩
abbrev main_cst_78 : Ref sig .tc := ⟨.hbm, 510, rfl⟩
abbrev main_v425 : Ref sig .tc := ⟨.hbm, 511, rfl⟩
abbrev main_v426 : Ref sig .tc := ⟨.hbm, 512, rfl⟩
abbrev main_v427 : Ref sig .tc := ⟨.hbm, 513, rfl⟩
abbrev main_cst_79 : Ref sig .tc := ⟨.hbm, 514, rfl⟩
abbrev main_v428 : Ref sig .tc := ⟨.hbm, 515, rfl⟩
abbrev main_v429 : Ref sig .tc := ⟨.hbm, 516, rfl⟩
abbrev main_v430 : Ref sig .tc := ⟨.hbm, 517, rfl⟩
abbrev main_v431 : Ref sig .tc := ⟨.hbm, 518, rfl⟩
abbrev main_v432 : Ref sig .tc := ⟨.hbm, 519, rfl⟩
abbrev main_v433 : Ref sig .tc := ⟨.hbm, 520, rfl⟩
abbrev main_v434 : Ref sig .tc := ⟨.hbm, 521, rfl⟩
abbrev main_v435 : Ref sig .tc := ⟨.hbm, 522, rfl⟩
abbrev main_v436 : Ref sig .tc := ⟨.hbm, 523, rfl⟩
abbrev main_v437 : Ref sig .tc := ⟨.hbm, 524, rfl⟩
abbrev main_v438 : Ref sig .tc := ⟨.hbm, 525, rfl⟩
abbrev main_v439 : Ref sig .tc := ⟨.hbm, 526, rfl⟩
abbrev main_v440 : Ref sig .tc := ⟨.hbm, 527, rfl⟩
abbrev main_v441 : Ref sig .tc := ⟨.hbm, 528, rfl⟩
abbrev main_cst_80 : Ref sig .tc := ⟨.hbm, 529, rfl⟩
abbrev main_v442 : Ref sig .tc := ⟨.hbm, 530, rfl⟩
abbrev main_v443 : Ref sig .tc := ⟨.hbm, 531, rfl⟩
abbrev main_v444 : Ref sig .tc := ⟨.hbm, 532, rfl⟩
abbrev main_cst_81 : Ref sig .tc := ⟨.hbm, 533, rfl⟩
abbrev main_v445 : Ref sig .tc := ⟨.hbm, 534, rfl⟩
abbrev main_v446 : Ref sig .tc := ⟨.hbm, 535, rfl⟩
abbrev main_v447 : Ref sig .tc := ⟨.hbm, 536, rfl⟩
abbrev main_v448 : Ref sig .tc := ⟨.hbm, 537, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  slices_S12x128x64_S1x128x64_0_0_0 : S12x128x64.Slices ![0, 0, 0] S1x128x64
  shapeCasts_S1x128x64_S128x64 : S1x128x64.ShapeCasts S128x64
  slices_S12x64_S1x64_0_0 : S12x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S12x128x64_S1x128x64_1_0_0 : S12x128x64.Slices ![1, 0, 0] S1x128x64
  slices_S12x64_S1x64_1_0 : S12x64.Slices ![1, 0] S1x64
  slices_S12x128x64_S1x128x64_2_0_0 : S12x128x64.Slices ![2, 0, 0] S1x128x64
  slices_S12x64_S1x64_2_0 : S12x64.Slices ![2, 0] S1x64
  slices_S12x128x64_S1x128x64_3_0_0 : S12x128x64.Slices ![3, 0, 0] S1x128x64
  slices_S12x64_S1x64_3_0 : S12x64.Slices ![3, 0] S1x64
  slices_S12x128x64_S1x128x64_4_0_0 : S12x128x64.Slices ![4, 0, 0] S1x128x64
  slices_S12x64_S1x64_4_0 : S12x64.Slices ![4, 0] S1x64
  slices_S12x128x64_S1x128x64_5_0_0 : S12x128x64.Slices ![5, 0, 0] S1x128x64
  slices_S12x64_S1x64_5_0 : S12x64.Slices ![5, 0] S1x64
  slices_S12x128x64_S1x128x64_6_0_0 : S12x128x64.Slices ![6, 0, 0] S1x128x64
  slices_S12x64_S1x64_6_0 : S12x64.Slices ![6, 0] S1x64
  slices_S12x128x64_S1x128x64_7_0_0 : S12x128x64.Slices ![7, 0, 0] S1x128x64
  slices_S12x64_S1x64_7_0 : S12x64.Slices ![7, 0] S1x64
  slices_S12x128x64_S1x128x64_8_0_0 : S12x128x64.Slices ![8, 0, 0] S1x128x64
  slices_S12x64_S1x64_8_0 : S12x64.Slices ![8, 0] S1x64
  slices_S12x128x64_S1x128x64_9_0_0 : S12x128x64.Slices ![9, 0, 0] S1x128x64
  slices_S12x64_S1x64_9_0 : S12x64.Slices ![9, 0] S1x64
  slices_S12x128x64_S1x128x64_10_0_0 : S12x128x64.Slices ![10, 0, 0] S1x128x64
  slices_S12x64_S1x64_10_0 : S12x64.Slices ![10, 0] S1x64
  slices_S12x128x64_S1x128x64_11_0_0 : S12x128x64.Slices ![11, 0, 0] S1x128x64
  slices_S12x64_S1x64_11_0 : S12x64.Slices ![11, 0] S1x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RowLayer.lean ====
/-
  One layer of the network, row by row, on the extended reals.

  A row u of 64 entries has the length |u| = sqrt (sum of u k * u k), floored at the small constant eps that both
  programs carry as the same f32 word; the row scaled to unit length is u k / max |u| eps. A layer takes the row a of
  the aggregated messages and the row x of the node features, scales a to unit length, forms

      h q = (sum over k of unit a k * w1 (k, q)) + (sum over k of x k * w2 (k, q)) + b q

  and scales h to unit length. Every output row depends on the same row of the two inputs only, so the layer of a
  block of rows is the block of the layer: `layer_rows`.

  The one law between the two programs: a sum over 128 coordinates is the sum over the first 64 plus the sum over the
  last 64 (`sum_halves`) — addition on the extended reals is commutative and associative, nothing else is used, so
  no finiteness of the inputs is needed.
-/
import Idealize.ShloMosaic.PureOps.Ideal.Laws
import Idealize.ShloMosaic.Lib.ValueIdx

noncomputable section

open scoped BigOperators

namespace Cert.Gnn

open Idealize.ShloMosaic Idealize.ShloMosaic.ValueIdx

/-- The floor under a row's length: the f32 word of 1e-12 that both programs print. -/
def eps : EReal := Ideal.ofBits .f32 0x2B8CBCCC#32

/-- The length of a row, floored at `eps`. -/
def len (u : Fin 64 → EReal) : EReal := max (Ideal.sqrt (∑ k : Fin 64, u k * u k)) eps

/-- A row scaled to unit length. -/
def unit (u : Fin 64 → EReal) : Fin 64 → EReal := fun k => Ideal.div (u k) (len u)

/-- The affine map of a layer on one row: the two products with the two halves of the weight, plus the bias. -/
def aff (a x : Fin 64 → EReal) (w1 w2 : (⟨2, ![64, 64]⟩ : Shape).Idx → EReal) (b : (⟨2, ![1, 64]⟩ : Shape).Idx → EReal) :
    Fin 64 → EReal :=
  fun q => ((∑ k : Fin 64, a k * w1 (ix2 k q)) + ∑ k : Fin 64, x k * w2 (ix2 k q)) + b (ix2 0 q)

/-- One layer on one row: scale the aggregated row, apply the affine map, scale the result. -/
def rowLayer (a x : Fin 64 → EReal) (w1 w2 : (⟨2, ![64, 64]⟩ : Shape).Idx → EReal) (b : (⟨2, ![1, 64]⟩ : Shape).Idx → EReal) :
    Fin 64 → EReal :=
  unit (aff (unit a) x w1 w2 b)

variable {R : Nat}

/-- Row `r` of an array of `R` rows of 64. -/
def row (v : (⟨2, ![R, 64]⟩ : Shape).Idx → EReal) (r : Fin R) : Fin 64 → EReal := fun k => v (ix2 r k)

/-- One layer on an array of rows. -/
def layer (A X : (⟨2, ![R, 64]⟩ : Shape).Idx → EReal) (w1 w2 : (⟨2, ![64, 64]⟩ : Shape).Idx → EReal)
    (b : (⟨2, ![1, 64]⟩ : Shape).Idx → EReal) : (⟨2, ![R, 64]⟩ : Shape).Idx → EReal :=
  fun j => rowLayer (row A (j 0)) (row X (j 0)) w1 w2 b (j 1)

theorem layer_ix2 (A X : (⟨2, ![R, 64]⟩ : Shape).Idx → EReal) (w1 w2 : (⟨2, ![64, 64]⟩ : Shape).Idx → EReal)
    (b : (⟨2, ![1, 64]⟩ : Shape).Idx → EReal) (r : Fin R) (q : Fin 64) :
    layer A X w1 w2 b (ix2 r q) = rowLayer (row A r) (row X r) w1 w2 b q := rfl

/-- A layer reads row `r` of its inputs only: arrays that agree on a row give the same output row. -/
theorem layer_rows {R' : Nat} (A X : (⟨2, ![R, 64]⟩ : Shape).Idx → EReal) (A' X' : (⟨2, ![R', 64]⟩ : Shape).Idx → EReal)
    (w1 w2 : (⟨2, ![64, 64]⟩ : Shape).Idx → EReal) (b : (⟨2, ![1, 64]⟩ : Shape).Idx → EReal) (r : Fin R) (r' : Fin R')
    (hA : ∀ k, A (ix2 r k) = A' (ix2 r' k)) (hX : ∀ k, X (ix2 r k) = X' (ix2 r' k)) (q : Fin 64) :
    layer A X w1 w2 b (ix2 r q) = layer A' X' w1 w2 b (ix2 r' q) := by
  rw [layer_ix2, layer_ix2, show row A r = row A' r' from funext hA, show row X r = row X' r' from funext hX]

/-- A sum over 128 coordinates is the sum over the first 64 plus the sum over the last 64. -/
theorem sum_halves (f : Fin 128 → EReal) :
    ∑ k : Fin 128, f k = (∑ k : Fin 64, f (Fin.castAdd 64 k)) + ∑ k : Fin 64, f (Fin.natAdd 64 k) :=
  Fin.sum_univ_add (a := 64) (b := 64) f

end Cert.Gnn

end
-- ==== Proof.LibPlainDot.lean ====
/-
  A matrix product whose dimension numbers are the plain ones — rows by one contracted axis times that axis by
  columns, no batch axis — read at an output index (r, c): the sum over the contracted coordinate k of
  left (r, k) times right (k, c). Stated for any dimension record with those axis lists, so that a kernel's
  tile product and a host's whole product are both this one sum over `Fin K`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The contraction sum of a plain product is the sum over the one contracted coordinate. -/
theorem contr_sum (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have h1 : d.lhsContracting = [1] := by rw [← hd]
  have h2 : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ =>
      subst hd
      unfold DotDims.lhsIdx
      rw [dif_neg (by exact List.not_mem_nil), dif_pos (by exact List.mem_singleton.mpr rfl)]
      rfl
    | ⟨1, _⟩ => exact (d.lhsIdx_val_of_single h1 j _).trans hk)
  have er : d.rhsIdx j ((contrEquiv1 d K hr hs).symm k) = ix2 k (j 1) := funext fun a => Fin.ext (by
    match a with
    | ⟨0, _⟩ => exact (d.rhsIdx_val_of_single h2 j _).trans hk
    | ⟨1, _⟩ =>
      subst hd
      unfold DotDims.rhsIdx
      rw [dif_neg (by exact List.not_mem_nil), dif_pos (by exact List.mem_singleton.mpr rfl)]
      rfl)
  exact congrArg₂ (· * ·) (congrArg l el) (congrArg r er)

/-- A host product with plain dimension numbers, at the exact reals, read at an index. -/
theorem dotGeneral_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (contr_sum d h1 h2 h3 h4 h5 h6 l r j)

/-- A tile product into the zero accumulator with plain dimension numbers, at the exact reals, read at an index. -/
theorem matmul_zero_plain {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (contr_sum d h1 h2 h3 h4 h5 h6 l r j)

end Idealize.ShloMosaic.PlainDot

end
-- ==== Proof.RefLayerAt.lean ====
/-
  The reference's layer, read at an index, against the row-wise layer.

  The reference writes one layer on the whole block of 50000 rows: it scales every row of the aggregated messages to
  unit length (divide by the larger of the row's length and a small floor), places that block beside the node
  features as a block of 128 columns, multiplies by the 128-row weight of the layer, adds the bias to every row, and
  scales every row of the result to unit length. Read at (r, q):

    * the scaled block is row r scaled to unit length, at q (`refUnit_apply`): the broadcast of the floored length
      reads the length of row r, and the sum over the 64 columns of the squares is the sum over k of v (r, k) * v (r, k);
    * the product with the 128-row weight is a sum over 128 coordinates, which is the sum over the first 64 — where
      the concatenated block reads the scaled messages and the weight its rows 0 … 63 — plus the sum over the last
      64 — where it reads the node features and the weight its rows 64 … 127 (`refAff_apply`);
    * the 128-row slice of the stacked weights at layer i, read at rows k and 64 + k, is the two 64-row slices at
      offsets 0 and 64 read at row k: all are the stacked weights at (i, k, q), respectively (i, 64 + k, q)
      (`wslice_apply`); the bias slice, whether reshaped to 64 entries or to 64 entries and back to one row of 64,
      is the stacked biases at (i, q) (`bslice_apply`).

  So the reference's layer equals the row-wise layer with the two weight halves and the bias row (`layer_bridge`),
  for every layer number i at once. Only the definitions of the operations and the splitting of a finite sum are
  used: no finiteness of the inputs is needed.
-/
import proofs.«122515_j23313082483149_1_alg».proof.Proof.Gen.ReferenceIdeal
import proofs.«122515_j23313082483149_1_alg».proof.Proof.Gen.KernelIdeal
import proofs.«122515_j23313082483149_1_alg».proof.Proof.RowLayer
import proofs.«122515_j23313082483149_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LayerBridge

open Idealize.ShloMosaic Idealize.ShloMosaic.ValueIdx Cert.Gnn

section RefDefs
open Cert.ReferenceIdeal Cert.ReferenceIdeal.Gen

/-- A block of rows, each scaled to unit length, as the reference spells it. -/
def refUnit (v : FVec Ideal S50000x64 .f32) : FVec Ideal S50000x64 .f32 :=
  Host.divf v (broadcastInDim S50000x64 ![0, 1] bcast_S50000x1_S50000x64_0_1 (maximumf (Host.sqrt (broadcastInDim S50000x1 ![0] bcast_S50000_S50000x1_0 (Host.reduceAdd (mulf v v) (constant S_ .f32 0x00000000#32) reducesTo_S50000x64_S50000_d1 h_S_))) (broadcastInDim S50000x1 ![] bcast_S_S50000x1 (constant S_ .f32 0x2B8CBCCC#32))))

/-- The affine map of a layer on a block of rows, as the reference spells it. -/
def refAff (a x : FVec Ideal S50000x64 .f32) (Wf : FVec Ideal S128x64 .f32) (bv : FVec Ideal S64 .f32) : FVec Ideal S50000x64 .f32 :=
  addf (Host.dotGeneral dot_S50000x128_S128x64_S50000x64_1_0_0_1_n_n none (concatenate S50000x128 1 [⟨S50000x64, a⟩, ⟨S50000x64, x⟩] concatenates_S50000x64_S50000x64_S50000x128_d1) Wf) (broadcastInDim S50000x64 ![0, 1] bcast_S1x64_S50000x64_0_1 (broadcastInDim S1x64 ![1] bcast_S64_S1x64_1 bv))

end RefDefs

/-- The reduction witness at the reference's shapes, naming the inserted coordinate. -/
theorem reduces_rows : Shape.Reduces (⟨2, ![50000, 64]⟩ : Shape) [1] ⟨1, ![50000]⟩ := by decide

theorem hostDivf_apply {s : Shape} (a b : FVec Ideal s .f32) (i : s.Idx) : Host.divf a b i = Ideal.div (a i) (b i) := rfl

theorem hostSqrt_apply {s : Shape} (a : FVec Ideal s .f32) (i : s.Idx) : Host.sqrt a i = Ideal.sqrt (a i) := rfl

/-- The reference's scaled block read at (r, q): row r scaled to unit length, at q. -/
theorem refUnit_apply (v : FVec Ideal Cert.ReferenceIdeal.S50000x64 .f32) (r : Fin 50000) (q : Fin 64) :
    refUnit v (ix2 r q) = unit (row v r) q := by
  unfold refUnit
  refine (hostDivf_apply _ _ _).trans ?_
  show _ = Ideal.div (v (ix2 r q)) (len (row v r))
  refine congrArg (Ideal.div (v (ix2 r q))) ?_
  refine (broadcastInDim_apply _ _ _ (ix2 r q) (ix2 r (0 : Fin 1)) fun a => ?_).trans ?_
  · match a with
    | ⟨0, _⟩ => rfl
    | ⟨1, _⟩ => rfl
  refine (maximumf_apply _ _ _).trans ?_
  refine congrArg₂ max ((hostSqrt_apply _ _).trans (congrArg Ideal.sqrt ?_)) rfl
  refine (broadcastInDim_apply _ _ _ (ix2 r (0 : Fin 1)) (ix1 r) fun a => ?_).trans ?_
  · match a with
    | ⟨0, _⟩ => rfl
  refine (Ideal.hostReduceAdd_single _ reduces_rows _ _ (ix1 r)).trans ?_
  refine (congrArg (· + _) Ideal.ofBits_zero_f32).trans ((zero_add _).trans ?_)
  refine Finset.sum_congr rfl fun k _ => ?_
  have e : reduces_rows.lift (ix1 r) k = ix2 r k := funext fun c => Fin.ext (by
    match c with
    | ⟨0, _⟩ => rfl
    | ⟨1, _⟩ => rfl)
  exact congrArg (fun i => v i * v i) e

/-- A slice of the weights at layer i, rows o … o + n - 1, with the unit axis dropped, read at (m, q). -/
theorem wslice_apply {n : Nat} (W3 : (⟨3, ![12, 128, 64]⟩ : Shape).Idx → EReal) (i o : Nat)
    (hs : (⟨3, ![12, 128, 64]⟩ : Shape).Slices ![i, o, 0] ⟨3, ![1, n, 64]⟩)
    (hc : (⟨3, ![1, n, 64]⟩ : Shape).ShapeCasts ⟨2, ![n, 64]⟩) (hi : i < 12)
    (m : Fin n) (m' : Fin 128) (hm : m'.val = o + m.val) (q : Fin 64) :
    shapeCast ⟨2, ![n, 64]⟩ (extractStridedSlice ⟨3, ![1, n, 64]⟩ ![i, o, 0] W3 hs) hc (ix2 m q)
      = W3 (ix3 ⟨i, hi⟩ m' q) := by
  refine (shapeCast_1ab_ab_apply _ hc m q).trans ?_
  refine extractStridedSlice_apply _ _ _ _ _ fun a => ?_
  match a with
  | ⟨0, _⟩ => rfl
  | ⟨1, _⟩ => exact hm
  | ⟨2, _⟩ => exact (Nat.zero_add _).symm

/-- The slice of the biases at layer i read at (0, q). -/
theorem bslice_apply (B2 : (⟨2, ![12, 64]⟩ : Shape).Idx → EReal) (i : Nat)
    (hs : (⟨2, ![12, 64]⟩ : Shape).Slices ![i, 0] ⟨2, ![1, 64]⟩) (hi : i < 12) (q : Fin 64) :
    extractStridedSlice ⟨2, ![1, 64]⟩ ![i, 0] B2 hs (ix2 (0 : Fin 1) q) = B2 (ix2 ⟨i, hi⟩ q) :=
  slice2_axis0_apply i B2 hs 0 q ⟨i, hi⟩ rfl

/-- The reference's affine map read at (r, q): the product with the 128-row weight splits into the two halves. -/
theorem refAff_apply (a x : FVec Ideal Cert.ReferenceIdeal.S50000x64 .f32) (Wf : FVec Ideal Cert.ReferenceIdeal.S128x64 .f32)
    (bv : FVec Ideal Cert.ReferenceIdeal.S64 .f32) (r : Fin 50000) (q : Fin 64) :
    refAff a x Wf bv (ix2 r q)
      = ((∑ k : Fin 64, a (ix2 r k) * Wf (ix2 (Fin.castAdd 64 k) q))
          + ∑ k : Fin 64, x (ix2 r k) * Wf (ix2 (Fin.natAdd 64 k) q)) + bv (ix1 q) := by
  unfold refAff
  refine (addf_apply _ _ _).trans ?_
  refine congrArg₂ (· + ·) ?_ ?_
  · refine (PlainDot.dotGeneral_plain _ rfl rfl rfl rfl rfl rfl none .single _ Wf (ix2 r q)).trans ?_
    refine (sum_halves _).trans ?_
    refine congrArg₂ (· + ·) (Finset.sum_congr rfl fun k _ => ?_) (Finset.sum_congr rfl fun k _ => ?_)
    · refine congrArg (· * _) ?_
      refine concatenate_pair_apply_left (t := Cert.ReferenceIdeal.S50000x128) (s₁ := Cert.ReferenceIdeal.S50000x64)
        (s₂ := Cert.ReferenceIdeal.S50000x64) 1 a x _ (ix2 r (Fin.castAdd 64 k)) rfl (ix2 r k) fun b => ?_
      match b with
      | ⟨0, _⟩ => rfl
      | ⟨1, _⟩ => rfl
    · refine congrArg (· * _) ?_
      refine concatenate_pair_apply_right (t := Cert.ReferenceIdeal.S50000x128) (s₁ := Cert.ReferenceIdeal.S50000x64)
        (s₂ := Cert.ReferenceIdeal.S50000x64) 1 a x _ (ix2 r (Fin.natAdd 64 k)) rfl rfl (ix2 r k) (fun b hb => ?_) ?_
      · match b with
        | ⟨0, _⟩ => rfl
        | ⟨1, _⟩ => exact absurd rfl hb
      · exact Nat.add_comm _ _
  · refine (broadcastInDim_apply _ _ _ (ix2 r q) (ix2 (0 : Fin 1) q) fun a => ?_).trans ?_
    · match a with
      | ⟨0, _⟩ => rfl
      | ⟨1, _⟩ => rfl
    refine broadcastInDim_apply _ _ _ (ix2 (0 : Fin 1) q) (ix1 q) fun a => ?_
    match a with
    | ⟨0, _⟩ => rfl

/-- One layer of the reference — scale the aggregated rows, apply the affine map with the weights and biases of
    layer i, scale the result — is the row-wise layer with the two halves of the same weights and the same biases:
    at (r, q) both are the unit scaling of the affine map of row r, and the weight and bias slices of the two
    spellings read the same entries of the stacked weights and biases. -/
theorem layer_bridge (agg x : FVec Ideal Cert.ReferenceIdeal.S50000x64 .f32)
    (W3 : FVec Ideal Cert.ReferenceIdeal.S12x128x64 .f32) (B2 : FVec Ideal Cert.ReferenceIdeal.S12x64 .f32) (i : Nat)
    (hsR : Cert.ReferenceIdeal.S12x128x64.Slices ![i, 0, 0] Cert.ReferenceIdeal.S1x128x64)
    (hcR : Cert.ReferenceIdeal.S1x128x64.ShapeCasts Cert.ReferenceIdeal.S128x64)
    (hbR : Cert.ReferenceIdeal.S12x64.Slices ![i, 0] Cert.ReferenceIdeal.S1x64)
    (hcbR : Cert.ReferenceIdeal.S1x64.ShapeCasts Cert.ReferenceIdeal.S64)
    (hs1 : Cert.KernelIdeal.S12x128x64.Slices ![i, 0, 0] Cert.KernelIdeal.S1x64x64)
    (hs2 : Cert.KernelIdeal.S12x128x64.Slices ![i, 64, 0] Cert.KernelIdeal.S1x64x64)
    (hc : Cert.KernelIdeal.S1x64x64.ShapeCasts Cert.KernelIdeal.S64x64)
    (hbK : Cert.KernelIdeal.S12x64.Slices ![i, 0] Cert.KernelIdeal.S1x64)
    (hcb1 : Cert.KernelIdeal.S1x64.ShapeCasts Cert.KernelIdeal.S64)
    (hcb2 : Cert.KernelIdeal.S64.ShapeCasts Cert.KernelIdeal.S1x64) :
    refUnit (refAff (refUnit agg) x
        (shapeCast Cert.ReferenceIdeal.S128x64 (extractStridedSlice Cert.ReferenceIdeal.S1x128x64 ![i, 0, 0] W3 hsR) hcR)
        (shapeCast Cert.ReferenceIdeal.S64 (extractStridedSlice Cert.ReferenceIdeal.S1x64 ![i, 0] B2 hbR) hcbR))
      = layer agg x
          (shapeCast Cert.KernelIdeal.S64x64 (extractStridedSlice Cert.KernelIdeal.S1x64x64 ![i, 0, 0] W3 hs1) hc)
          (shapeCast Cert.KernelIdeal.S64x64 (extractStridedSlice Cert.KernelIdeal.S1x64x64 ![i, 64, 0] W3 hs2) hc)
          (shapeCast Cert.KernelIdeal.S1x64
            (shapeCast Cert.KernelIdeal.S64 (extractStridedSlice Cert.KernelIdeal.S1x64 ![i, 0] B2 hbK) hcb1) hcb2) := by
  have hi : i < 12 := by
    have h : i + 1 ≤ 12 := hsR.2 (0 : Fin 3)
    omega
  funext j
  obtain ⟨r, q, rfl⟩ : ∃ (r : Fin 50000) (q : Fin 64), j = ix2 r q := ⟨j 0, j 1, eq_ix2 j⟩
  refine (refUnit_apply _ r q).trans ?_
  refine Eq.trans ?_ (layer_ix2 agg x _ _ _ r q).symm
  refine congrArg (fun u => unit u q) (funext fun q' => ?_)
  refine (refAff_apply _ _ _ _ r q').trans ?_
  refine congrArg₂ (· + ·) (congrArg₂ (· + ·) (Finset.sum_congr rfl fun k _ => ?_) (Finset.sum_congr rfl fun k _ => ?_)) ?_
  · refine congrArg₂ (· * ·) (refUnit_apply agg r k) ?_
    exact (wslice_apply W3 i 0 hsR hcR hi (Fin.castAdd 64 k) (Fin.castAdd 64 k) (Nat.zero_add _).symm q').trans
      (wslice_apply W3 i 0 hs1 hc hi k (Fin.castAdd 64 k) (Nat.zero_add _).symm q').symm
  · refine congrArg₂ (· * ·) rfl ?_
    exact (wslice_apply W3 i 0 hsR hcR hi (Fin.natAdd 64 k) (Fin.natAdd 64 k) (Nat.zero_add _).symm q').trans
      (wslice_apply W3 i 64 hs2 hc hi k (Fin.natAdd 64 k) rfl q').symm
  · refine ((shapeCast_1a_a_apply _ hcbR q').trans (bslice_apply B2 i hbR hi q')).trans ?_
    exact ((shapeCast_a_1a_apply _ hcb2 0 q').trans
      ((shapeCast_1a_a_apply _ hcb1 q').trans (bslice_apply B2 i hbK hi q'))).symm

end Cert.LayerBridge

end
-- ==== Proof.Chain.lean ====
/-
  The two programs as twelve applications of one step.

  From the edge list both programs read the source ids (its row 0), the destination ids (its row 1) and the edge
  weights as a column. One step takes the node features x: it gathers the feature row of every edge's source
  (a negative id counted from the end), scales it by the edge's weight, adds the scaled rows up by destination into
  the aggregated messages, and applies the layer with weights W[i] and bias b[i]. Both programs print the same
  gather, scaling and summation, operation for operation, so that part is carried as one function and never opened.
  The kernel's program applies the row-wise layer to the two halves W[i][:64], W[i][64:] of the weight; the reference
  joins the two inputs side by side and multiplies by W[i] whole. `step_eq` says the two steps agree.
-/
import proofs.«122515_j23313082483149_1_alg».proof.Proof.Gen.KernelIdeal
import proofs.«122515_j23313082483149_1_alg».proof.Proof.Gen.ReferenceIdeal
import proofs.«122515_j23313082483149_1_alg».proof.Proof.RowLayer
import proofs.«122515_j23313082483149_1_alg».proof.Proof.RefLayerAt

set_option maxRecDepth 16384

noncomputable section

namespace Cert.Chain

open Idealize.ShloMosaic Cert.Gnn Cert.LayerBridge

/-- Node features, and every intermediate of the same shape: 50000 rows of 64. -/
abbrev Arr := (⟨Cert.KernelIdeal.S50000x64, .f32⟩ : BufTy).Contents (Elt Ideal)
/-- One id per edge. -/
abbrev Ids := (⟨Cert.KernelIdeal.S800000, .i32⟩ : BufTy).Contents (Elt Ideal)
/-- The edge weights as a column. -/
abbrev EdgeW := (⟨Cert.KernelIdeal.S800000x1, .f32⟩ : BufTy).Contents (Elt Ideal)
/-- The twelve weight matrices. -/
abbrev Wts := (⟨Cert.KernelIdeal.S12x128x64, .f32⟩ : BufTy).Contents (Elt Ideal)
/-- The twelve bias rows. -/
abbrev Bs := (⟨Cert.KernelIdeal.S12x64, .f32⟩ : BufTy).Contents (Elt Ideal)

/-- The source ids: row 0 of the edge list. -/
def srcOf (e : (⟨Cert.KernelIdeal.S2x800000, .i32⟩ : BufTy).Contents (Elt Ideal)) : Ids :=
  shapeCast Cert.KernelIdeal.S800000 (extractStridedSlice Cert.KernelIdeal.S1x800000 ![0, 0] e (by decide)) (by decide)

/-- The destination ids: row 1 of the edge list. -/
def dstOf (e : (⟨Cert.KernelIdeal.S2x800000, .i32⟩ : BufTy).Contents (Elt Ideal)) : Ids :=
  shapeCast Cert.KernelIdeal.S800000 (extractStridedSlice Cert.KernelIdeal.S1x800000 ![1, 0] e (by decide)) (by decide)

/-- The edge weights as a column. -/
def ewOf (w : (⟨Cert.KernelIdeal.S800000, .f32⟩ : BufTy).Contents (Elt Ideal)) : EdgeW :=
  broadcastInDim Cert.KernelIdeal.S800000x1 ![0] (by decide) w

/-- The aggregated messages, as the kernel's program prints them. -/
def aggK (src dst : Ids) (ew : EdgeW) (x : Arr) : Arr :=
  Host.scatterAdd (F := Ideal) Cert.KernelIdeal.scatter_S50000x64_S800000x1_S800000x64_1_0_0_1
    (broadcastInDim Cert.KernelIdeal.S50000x64 ![] (by decide) (constant (F := Ideal) Cert.KernelIdeal.S_ .f32 0x00000000#32))
    (broadcastInDim Cert.KernelIdeal.S800000x1 ![0] (by decide) dst)
    (mulf (Host.gather Cert.KernelIdeal.gather_S50000x64_S800000x1_S800000x64_1_0_n_n_0_1_164 x
        (broadcastInDim Cert.KernelIdeal.S800000x1 ![0] (by decide)
          (select (cmpi .slt src (broadcastInDim Cert.KernelIdeal.S800000 ![] (by decide) (constantI Cert.KernelIdeal.S_ 32 0#32)))
            (addi src (broadcastInDim Cert.KernelIdeal.S800000 ![] (by decide) (constantI Cert.KernelIdeal.S_ 32 50000#32))) src)))
      (broadcastInDim Cert.KernelIdeal.S800000x64 ![0, 1] (by decide) ew))

/-- The aggregated messages, as the reference prints them. -/
def aggR (src dst : Ids) (ew : EdgeW) (x : Arr) : Arr :=
  Host.scatterAdd (F := Ideal) Cert.ReferenceIdeal.scatter_S50000x64_S800000x1_S800000x64_1_0_0_1
    (broadcastInDim Cert.ReferenceIdeal.S50000x64 ![] (by decide) (constant (F := Ideal) Cert.ReferenceIdeal.S_ .f32 0x00000000#32))
    (broadcastInDim Cert.ReferenceIdeal.S800000x1 ![0] (by decide) dst)
    (mulf (Host.gather Cert.ReferenceIdeal.gather_S50000x64_S800000x1_S800000x64_1_0_n_n_0_1_164 x
        (broadcastInDim Cert.ReferenceIdeal.S800000x1 ![0] (by decide)
          (select (cmpi .slt src (broadcastInDim Cert.ReferenceIdeal.S800000 ![] (by decide) (constantI Cert.ReferenceIdeal.S_ 32 0#32)))
            (addi src (broadcastInDim Cert.ReferenceIdeal.S800000 ![] (by decide) (constantI Cert.ReferenceIdeal.S_ 32 50000#32))) src)))
      (broadcastInDim Cert.ReferenceIdeal.S800000x64 ![0, 1] (by decide) ew))

/-- The two spellings are one term: the same operations with the same dimension numbers. -/
theorem agg_eq (src dst : Ids) (ew : EdgeW) (x : Arr) : aggR src dst ew x = aggK src dst ew x := rfl

/-- The first half of layer i's weight, as the kernel's program slices it. -/
def w1K (i : Fin 12) (W : Wts) : (⟨Cert.KernelIdeal.S64x64, .f32⟩ : BufTy).Contents (Elt Ideal) :=
  shapeCast Cert.KernelIdeal.S64x64 (extractStridedSlice Cert.KernelIdeal.S1x64x64 ![i.val, 0, 0] W (by revert i; decide)) (by decide)

/-- The second half of layer i's weight. -/
def w2K (i : Fin 12) (W : Wts) : (⟨Cert.KernelIdeal.S64x64, .f32⟩ : BufTy).Contents (Elt Ideal) :=
  shapeCast Cert.KernelIdeal.S64x64 (extractStridedSlice Cert.KernelIdeal.S1x64x64 ![i.val, 64, 0] W (by revert i; decide)) (by decide)

/-- Layer i's bias as a row. -/
def bK (i : Fin 12) (B : Bs) : (⟨Cert.KernelIdeal.S1x64, .f32⟩ : BufTy).Contents (Elt Ideal) :=
  shapeCast Cert.KernelIdeal.S1x64 (shapeCast Cert.KernelIdeal.S64 (extractStridedSlice Cert.KernelIdeal.S1x64 ![i.val, 0] B (by revert i; decide)) (by decide)) (by decide)

/-- Layer i's whole weight, as the reference slices it. -/
def wR (i : Fin 12) (W : Wts) : (⟨Cert.ReferenceIdeal.S128x64, .f32⟩ : BufTy).Contents (Elt Ideal) :=
  shapeCast Cert.ReferenceIdeal.S128x64 (extractStridedSlice Cert.ReferenceIdeal.S1x128x64 ![i.val, 0, 0] W (by revert i; decide)) (by decide)

/-- Layer i's bias as a vector, as the reference slices it. -/
def bR (i : Fin 12) (B : Bs) : (⟨Cert.ReferenceIdeal.S64, .f32⟩ : BufTy).Contents (Elt Ideal) :=
  shapeCast Cert.ReferenceIdeal.S64 (extractStridedSlice Cert.ReferenceIdeal.S1x64 ![i.val, 0] B (by revert i; decide)) (by decide)

/-- One step of the kernel's program. -/
def stepK (src dst : Ids) (ew : EdgeW) (W : Wts) (B : Bs) (i : Fin 12) (x : Arr) : Arr :=
  layer (aggK src dst ew x) x (w1K i W) (w2K i W) (bK i B)

/-- One step of the reference. -/
def stepR (src dst : Ids) (ew : EdgeW) (W : Wts) (B : Bs) (i : Fin 12) (x : Arr) : Arr :=
  refUnit (refAff (refUnit (aggR src dst ew x)) x (wR i W) (bR i B))

/-- The two steps agree. -/
theorem step_eq (src dst : Ids) (ew : EdgeW) (W : Wts) (B : Bs) (i : Fin 12) (x : Arr) :
    stepR src dst ew W B i x = stepK src dst ew W B i x := by
  unfold stepR stepK
  rw [agg_eq]
  exact layer_bridge _ _ W B i.val _ _ _ _ _ _ _ _ _ _

/-- The first n steps, in order. -/
def iter (f : Fin 12 → Arr → Arr) (x0 : Arr) : (n : Nat) → n ≤ 12 → Arr
  | 0, _ => x0
  | n + 1, h => f ⟨n, h⟩ (iter f x0 n (Nat.le_of_succ_le h))

theorem iter_succ (f : Fin 12 → Arr → Arr) (x0 : Arr) (n : Nat) (h : n + 1 ≤ 12) :
    iter f x0 (n + 1) h = f ⟨n, h⟩ (iter f x0 n (Nat.le_of_succ_le h)) := rfl

/-- Steps that agree one by one agree iterated. -/
theorem iter_congr (f g : Fin 12 → Arr → Arr) (hfg : ∀ i x, f i x = g i x) (x0 : Arr) :
    ∀ (n : Nat) (h : n ≤ 12), iter f x0 n h = iter g x0 n h
  | 0, _ => rfl
  | n + 1, h => by rw [iter_succ, iter_succ, iter_congr f g hfg x0 n, hfg]

end Cert.Chain

end
-- ==== Proof.KernelRun.lean ====
/-
  The idealized kernel's run with its result named. The program is twelve launches of the layer kernel among
  stretches of host operations; its buffer contents at each boundary are a fold from the launch memory (a stretch
  applies its operations, a launch replaces its output array by what its grid points wrote back). Every weakly fair
  execution terminates, nothing faulting, with the result buffer at the last boundary's contents of that buffer and
  the five argument arrays as launched.
-/
import proofs.«122515_j23313082483149_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v244) = W24 m ρ c (Proc.devRef .tc main_v244)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c =>
      ⟨h c _ (mem_uc main_v244 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c)⟩)

end Cert.KernelIdeal.Named

end
-- ==== Proof.BodyAt.lean ====
/-
  The kernel body read at an index.

  Each of the twelve kernels stores one value: its block of 5000 aggregated rows a and 5000 feature rows x, with the
  two 64 x 64 halves w1, w2 of the weight and the bias row b, taken through one layer. The body spells the layer with
  whole-block operations:

    * the length of every row — the squares summed along axis 1, the [5000] result viewed as a [5000, 1] column, the
      square root, the floor eps, the column repeated along the 64 entries — and the block divided by it entrywise
      (`nrm`);
    * the product of the scaled a-block with w1 and of the x-block with w2, each into a zero accumulator, their sum,
      and the bias row repeated down the 5000 rows added (`affB`);
    * the same scaling once more.

  Read at entry (p, q) each of these is the row operation of the module RowLayer on row p: the reduction over axis 1
  at p is the sum over k of the squares of the entries (p, k) (`sumsq_at`), the column and its repetition read the
  value at p (`nrm_at`), a product with the plain dimension numbers at (p, q) is the sum over k of
  left (p, k) * right (k, q) and the repeated bias row reads b (0, q) (`affB_at`). The casts of a block to its own
  shape are the identity and the change of format is the identity on the extended reals, so every kernel's stored value
  is `nrm (affB (nrm a) x w1 w2 b)` (`payK_eq`), and at (p, q) that is `rowLayer (row a p) (row x p) w1 w2 b q`
  (`layerB_at`, `payK_at`).
-/
import proofs.«122515_j23313082483149_1_alg».proof.Proof.Gen.KernelIdeal.Skeleton
import proofs.«122515_j23313082483149_1_alg».proof.Proof.RowLayer
import proofs.«122515_j23313082483149_1_alg».proof.Proof.LibPlainDot
import Idealize.ShloMosaic.Lib.ValueLayout
import Idealize.ShloMosaic.PureOps.Ideal.Laws

noncomputable section
open scoped BigOperators
namespace Cert.KernelIdeal.BodyAt
open Idealize.ShloMosaic Idealize.ShloMosaic.ValueIdx Cert.KernelIdeal Cert.KernelIdeal.Gen Cert.Gnn

/-- The sum of squares along row p of a block, as a vector reduction over axis 1 read at p. -/
theorem sumsq_at (v : FVec Ideal S5000x64 .f32) (h : S5000x64.Reduces [1] S5000) (hφ : FKind.Formats .f32)
    (hacc : (0x00000000#32 : BitVec 32) = FKind.add.neutral .f32 hφ) (p : Fin 5000) :
    multiReduction (F := Ideal) .add [1] S5000 (mulf v v) 0x00000000#32 h hφ hacc (ix1 p)
      = ∑ k : Fin 64, v (ix2 p k) * v (ix2 p k) := by
  refine (Ideal.multiReduction_add_single (mulf v v) 0x00000000#32 h hφ hacc (ix1 p)).trans ?_
  refine Finset.sum_congr rfl fun k _ => ?_
  have e : h.lift (ix1 p) k = ix2 p k := funext fun a => Fin.ext (by
    match a with
    | ⟨0, _⟩ => rfl
    | ⟨1, _⟩ => rfl)
  rw [e]; rfl

/-- A block scaled row by row to unit length, as the vector operations spell it. -/
def nrm (v : FVec Ideal S5000x64 .f32) : FVec Ideal S5000x64 .f32 :=
  divf v (broadcastTo S5000x64
    (maximumf
      (sqrt (shapeCast S5000x1
        (multiReduction (F := Ideal) .add [1] S5000 (mulf v v) 0x00000000#32 reduces_S5000x64_S5000 (.inl rfl) rfl)
        shapeCasts_S5000_S5000x1))
      (broadcast S5000x1 (Scalar.ofBits (F := Ideal) .f32 0x2B8CBCCC#32)))
    broadcasts_S5000x1_S5000x64)

/-- Entry (p, q) of the scaled block is entry q of row p scaled to unit length. -/
theorem nrm_at (v : FVec Ideal S5000x64 .f32) (p : Fin 5000) (q : Fin 64) :
    nrm v (ix2 p q) = unit (row v p) q := by
  unfold nrm
  refine (divf_apply _ _ _).trans ?_
  show Ideal.div (v (ix2 p q)) _ = Ideal.div (v (ix2 p q)) (len (row v p))
  refine congrArg (Ideal.div (v (ix2 p q))) ?_
  refine (broadcastTo_apply _ broadcasts_S5000x1_S5000x64 (ix2 p q) (ix2 p (0 : Fin 1)) fun a => ?_).trans ?_
  · match a with
    | ⟨0, _⟩ => rfl
    | ⟨1, _⟩ => rfl
  · show max (Ideal.sqrt (shapeCast S5000x1 _ shapeCasts_S5000_S5000x1 (ix2 p (0 : Fin 1)))) (Ideal.ofBits .f32 0x2B8CBCCC#32)
        = max (Ideal.sqrt (∑ k : Fin 64, v (ix2 p k) * v (ix2 p k))) eps
    refine congrArg (fun t => max (Ideal.sqrt t) (Ideal.ofBits .f32 0x2B8CBCCC#32)) ?_
    refine (shapeCast_apply _ shapeCasts_S5000_S5000x1 (ix2 p (0 : Fin 1)) (ix1 p) ?_).trans (sumsq_at v _ _ _ p)
    rw [Shape.rowMajor_val_one, Shape.rowMajor_val_two]
    show p.val = p.val * 1 + 0
    omega

/-- The affine map of a layer on a block, as the vector operations spell it: the two products into a zero
    accumulator, added, plus the bias row repeated down the block. -/
def affB (a x : FVec Ideal S5000x64 .f32) (w1 w2 : FVec Ideal S64x64 .f32) (b : FVec Ideal S1x64 .f32) :
    FVec Ideal S5000x64 .f32 :=
  addf
    (addf
      (matmul dot_S5000x64_S64x64_S5000x64_1_0_0_1_n_n none (truncf .bf16 a bitsLt_bf16_f32)
        (truncf .bf16 w1 bitsLt_bf16_f32) (constant S5000x64 .f32 0x00000000#32))
      (matmul dot_S5000x64_S64x64_S5000x64_1_0_0_1_n_n none (truncf .bf16 x bitsLt_bf16_f32)
        (truncf .bf16 w2 bitsLt_bf16_f32) (constant S5000x64 .f32 0x00000000#32)))
    (broadcastTo S5000x64 b broadcasts_S1x64_S5000x64)

/-- Entry (p, q) of the affine map of a block is entry q of the affine map of row p. -/
theorem affB_at (a x : FVec Ideal S5000x64 .f32) (w1 w2 : FVec Ideal S64x64 .f32) (b : FVec Ideal S1x64 .f32)
    (p : Fin 5000) (q : Fin 64) :
    affB a x w1 w2 b (ix2 p q) = aff (row a p) (row x p) w1 w2 b q := by
  unfold affB
  refine (addf_apply _ _ _).trans ?_
  refine congrArg₂ (· + ·) ?_ (broadcastTo_1b_ab_apply b broadcasts_S1x64_S5000x64 p q)
  refine (addf_apply _ _ _).trans ?_
  refine congrArg₂ (· + ·) ?_ ?_
  · exact PlainDot.matmul_zero_plain dot_S5000x64_S64x64_S5000x64_1_0_0_1_n_n rfl rfl rfl rfl rfl rfl none
      (truncf .bf16 a bitsLt_bf16_f32) (truncf .bf16 w1 bitsLt_bf16_f32) (ix2 p q)
  · exact PlainDot.matmul_zero_plain dot_S5000x64_S64x64_S5000x64_1_0_0_1_n_n rfl rfl rfl rfl rfl rfl none
      (truncf .bf16 x bitsLt_bf16_f32) (truncf .bf16 w2 bitsLt_bf16_f32) (ix2 p q)

/-- A block of rows through one layer, as the vector operations spell it, read at (p, q): the layer of row p at q. -/
theorem layerB_at (x0 x1 : FVec Ideal S5000x64 .f32) (x2 x3 : FVec Ideal S64x64 .f32) (x4 : FVec Ideal S1x64 .f32)
    (p : Fin 5000) (q : Fin 64) :
    nrm (affB (nrm x0) x1 x2 x3 x4) (ix2 p q) = rowLayer (row x0 p) (row x1 p) x2 x3 x4 q := by
  have e1 : row (nrm x0) p = unit (row x0 p) := funext fun k => nrm_at x0 p k
  have e2 : row (affB (nrm x0) x1 x2 x3 x4) p = aff (unit (row x0 p)) (row x1 p) x2 x3 x4 := funext fun k => by
    show affB (nrm x0) x1 x2 x3 x4 (ix2 p k) = _
    rw [affB_at, e1]
  rw [nrm_at, e2]
  rfl

/-- The first kernel's stored value is the block through one layer. -/
theorem pay0_eq (x0 x1 : Vec Ideal S5000x64 .f32) (x2 x3 : Vec Ideal S64x64 .f32) (x4 : Vec Ideal S1x64 .f32) :
    k0_pay1 (F := Ideal) x0 x1 x2 x3 x4 = nrm (affB (nrm x0) x1 x2 x3 x4) := by
  unfold k0_pay1
  simp only [shapeCast_self]
  rfl

theorem pay0_at (x0 x1 : Vec Ideal S5000x64 .f32) (x2 x3 : Vec Ideal S64x64 .f32) (x4 : Vec Ideal S1x64 .f32)
    (p : Fin 5000) (q : Fin 64) :
    k0_pay1 (F := Ideal) x0 x1 x2 x3 x4 (ix2 p q) = rowLayer (row x0 p) (row x1 p) x2 x3 x4 q := by
  rw [pay0_eq]
  exact layerB_at x0 x1 x2 x3 x4 p q

/-- Kernel 1's stored value is the block through one layer. -/
theorem pay1_eq (x0 x1 : Vec Ideal S5000x64 .f32) (x2 x3 : Vec Ideal S64x64 .f32) (x4 : Vec Ideal S1x64 .f32) :
    k1_pay1 (F := Ideal) x0 x1 x2 x3 x4 = nrm (affB (nrm x0) x1 x2 x3 x4) := by
  unfold k1_pay1
  simp only [shapeCast_self]
  rfl

/-- Kernel 1's stored value at (p, q) is the layer of row p of its two input blocks, at q. -/
theorem pay1_at (x0 x1 : Vec Ideal S5000x64 .f32) (x2 x3 : Vec Ideal S64x64 .f32) (x4 : Vec Ideal S1x64 .f32)
    (p : Fin 5000) (q : Fin 64) :
    k1_pay1 (F := Ideal) x0 x1 x2 x3 x4 (ix2 p q) = rowLayer (row x0 p) (row x1 p) x2 x3 x4 q := by
  rw [pay1_eq]
  exact layerB_at x0 x1 x2 x3 x4 p q

/-- Kernel 2's stored value is the block through one layer. -/
theorem pay2_eq (x0 x1 : Vec Ideal S5000x64 .f32) (x2 x3 : Vec Ideal S64x64 .f32) (x4 : Vec Ideal S1x64 .f32) :
    k2_pay1 (F := Ideal) x0 x1 x2 x3 x4 = nrm (affB (nrm x0) x1 x2 x3 x4) := by
  unfold k2_pay1
  simp only [shapeCast_self]
  rfl

/-- Kernel 2's stored value at (p, q) is the layer of row p of its two input blocks, at q. -/
theorem pay2_at (x0 x1 : Vec Ideal S5000x64 .f32) (x2 x3 : Vec Ideal S64x64 .f32) (x4 : Vec Ideal S1x64 .f32)
    (p : Fin 5000) (q : Fin 64) :
    k2_pay1 (F := Ideal) x0 x1 x2 x3 x4 (ix2 p q) = rowLayer (row x0 p) (row x1 p) x2 x3 x4 q := by
  rw [pay2_eq]
  exact layerB_at x0 x1 x2 x3 x4 p q

/-- Kernel 3's stored value is the block through one layer. -/
theorem pay3_eq (x0 x1 : Vec Ideal S5000x64 .f32) (x2 x3 : Vec Ideal S64x64 .f32) (x4 : Vec Ideal S1x64 .f32) :
    k3_pay1 (F := Ideal) x0 x1 x2 x3 x4 = nrm (affB (nrm x0) x1 x2 x3 x4) := by
  unfold k3_pay1
  simp only [shapeCast_self]
  rfl

/-- Kernel 3's stored value at (p, q) is the layer of row p of its two input blocks, at q. -/
theorem pay3_at (x0 x1 : Vec Ideal S5000x64 .f32) (x2 x3 : Vec Ideal S64x64 .f32) (x4 : Vec Ideal S1x64 .f32)
    (p : Fin 5000) (q : Fin 64) :
    k3_pay1 (F := Ideal) x0 x1 x2 x3 x4 (ix2 p q) = rowLayer (row x0 p) (row x1 p) x2 x3 x4 q := by
  rw [pay3_eq]
  exact layerB_at x0 x1 x2 x3 x4 p q

/-- Kernel 4's stored value is the block through one layer. -/
theorem pay4_eq (x0 x1 : Vec Ideal S5000x64 .f32) (x2 x3 : Vec Ideal S64x64 .f32) (x4 : Vec Ideal S1x64 .f32) :
    k4_pay1 (F := Ideal) x0 x1 x2 x3 x4 = nrm (affB (nrm x0) x1 x2 x3 x4) := by
  unfold k4_pay1
  simp only [shapeCast_self]
  rfl

/-- Kernel 4's stored value at (p, q) is the layer of row p of its two input blocks, at q. -/
theorem pay4_at (x0 x1 : Vec Ideal S5000x64 .f32) (x2 x3 : Vec Ideal S64x64 .f32) (x4 : Vec Ideal S1x64 .f32)
    (p : Fin 5000) (q : Fin 64) :
    k4_pay1 (F := Ideal) x0 x1 x2 x3 x4 (ix2 p q) = rowLayer (row x0 p) (row x1 p) x2 x3 x4 q := by
  rw [pay4_eq]
  exact layerB_at x0 x1 x2 x3 x4 p q

/-- Kernel 5's stored value is the block through one layer. -/
theorem pay5_eq (x0 x1 : Vec Ideal S5000x64 .f32) (x2 x3 : Vec Ideal S64x64 .f32) (x4 : Vec Ideal S1x64 .f32) :
    k5_pay1 (F := Ideal) x0 x1 x2 x3 x4 = nrm (affB (nrm x0) x1 x2 x3 x4) := by
  unfold k5_pay1
  simp only [shapeCast_self]
  rfl

/-- Kernel 5's stored value at (p, q) is the layer of row p of its two input blocks, at q. -/
theorem pay5_at (x0 x1 : Vec Ideal S5000x64 .f32) (x2 x3 : Vec Ideal S64x64 .f32) (x4 : Vec Ideal S1x64 .f32)
    (p : Fin 5000) (q : Fin 64) :
    k5_pay1 (F := Ideal) x0 x1 x2 x3 x4 (ix2 p q) = rowLayer (row x0 p) (row x1 p) x2 x3 x4 q := by
  rw [pay5_eq]
  exact layerB_at x0 x1 x2 x3 x4 p q

/-- Kernel 6's stored value is the block through one layer. -/
theorem pay6_eq (x0 x1 : Vec Ideal S5000x64 .f32) (x2 x3 : Vec Ideal S64x64 .f32) (x4 : Vec Ideal S1x64 .f32) :
    k6_pay1 (F := Ideal) x0 x1 x2 x3 x4 = nrm (affB (nrm x0) x1 x2 x3 x4) := by
  unfold k6_pay1
  simp only [shapeCast_self]
  rfl

/-- Kernel 6's stored value at (p, q) is the layer of row p of its two input blocks, at q. -/
theorem pay6_at (x0 x1 : Vec Ideal S5000x64 .f32) (x2 x3 : Vec Ideal S64x64 .f32) (x4 : Vec Ideal S1x64 .f32)
    (p : Fin 5000) (q : Fin 64) :
    k6_pay1 (F := Ideal) x0 x1 x2 x3 x4 (ix2 p q) = rowLayer (row x0 p) (row x1 p) x2 x3 x4 q := by
  rw [pay6_eq]
  exact layerB_at x0 x1 x2 x3 x4 p q

/-- Kernel 7's stored value is the block through one layer. -/
theorem pay7_eq (x0 x1 : Vec Ideal S5000x64 .f32) (x2 x3 : Vec Ideal S64x64 .f32) (x4 : Vec Ideal S1x64 .f32) :
    k7_pay1 (F := Ideal) x0 x1 x2 x3 x4 = nrm (affB (nrm x0) x1 x2 x3 x4) := by
  unfold k7_pay1
  simp only [shapeCast_self]
  rfl

/-- Kernel 7's stored value at (p, q) is the layer of row p of its two input blocks, at q. -/
theorem pay7_at (x0 x1 : Vec Ideal S5000x64 .f32) (x2 x3 : Vec Ideal S64x64 .f32) (x4 : Vec Ideal S1x64 .f32)
    (p : Fin 5000) (q : Fin 64) :
    k7_pay1 (F := Ideal) x0 x1 x2 x3 x4 (ix2 p q) = rowLayer (row x0 p) (row x1 p) x2 x3 x4 q := by
  rw [pay7_eq]
  exact layerB_at x0 x1 x2 x3 x4 p q

/-- Kernel 8's stored value is the block through one layer. -/
theorem pay8_eq (x0 x1 : Vec Ideal S5000x64 .f32) (x2 x3 : Vec Ideal S64x64 .f32) (x4 : Vec Ideal S1x64 .f32) :
    k8_pay1 (F := Ideal) x0 x1 x2 x3 x4 = nrm (affB (nrm x0) x1 x2 x3 x4) := by
  unfold k8_pay1
  simp only [shapeCast_self]
  rfl

/-- Kernel 8's stored value at (p, q) is the layer of row p of its two input blocks, at q. -/
theorem pay8_at (x0 x1 : Vec Ideal S5000x64 .f32) (x2 x3 : Vec Ideal S64x64 .f32) (x4 : Vec Ideal S1x64 .f32)
    (p : Fin 5000) (q : Fin 64) :
    k8_pay1 (F := Ideal) x0 x1 x2 x3 x4 (ix2 p q) = rowLayer (row x0 p) (row x1 p) x2 x3 x4 q := by
  rw [pay8_eq]
  exact layerB_at x0 x1 x2 x3 x4 p q

/-- Kernel 9's stored value is the block through one layer. -/
theorem pay9_eq (x0 x1 : Vec Ideal S5000x64 .f32) (x2 x3 : Vec Ideal S64x64 .f32) (x4 : Vec Ideal S1x64 .f32) :
    k9_pay1 (F := Ideal) x0 x1 x2 x3 x4 = nrm (affB (nrm x0) x1 x2 x3 x4) := by
  unfold k9_pay1
  simp only [shapeCast_self]
  rfl

/-- Kernel 9's stored value at (p, q) is the layer of row p of its two input blocks, at q. -/
theorem pay9_at (x0 x1 : Vec Ideal S5000x64 .f32) (x2 x3 : Vec Ideal S64x64 .f32) (x4 : Vec Ideal S1x64 .f32)
    (p : Fin 5000) (q : Fin 64) :
    k9_pay1 (F := Ideal) x0 x1 x2 x3 x4 (ix2 p q) = rowLayer (row x0 p) (row x1 p) x2 x3 x4 q := by
  rw [pay9_eq]
  exact layerB_at x0 x1 x2 x3 x4 p q

/-- Kernel 10's stored value is the block through one layer. -/
theorem pay10_eq (x0 x1 : Vec Ideal S5000x64 .f32) (x2 x3 : Vec Ideal S64x64 .f32) (x4 : Vec Ideal S1x64 .f32) :
    k10_pay1 (F := Ideal) x0 x1 x2 x3 x4 = nrm (affB (nrm x0) x1 x2 x3 x4) := by
  unfold k10_pay1
  simp only [shapeCast_self]
  rfl

/-- Kernel 10's stored value at (p, q) is the layer of row p of its two input blocks, at q. -/
theorem pay10_at (x0 x1 : Vec Ideal S5000x64 .f32) (x2 x3 : Vec Ideal S64x64 .f32) (x4 : Vec Ideal S1x64 .f32)
    (p : Fin 5000) (q : Fin 64) :
    k10_pay1 (F := Ideal) x0 x1 x2 x3 x4 (ix2 p q) = rowLayer (row x0 p) (row x1 p) x2 x3 x4 q := by
  rw [pay10_eq]
  exact layerB_at x0 x1 x2 x3 x4 p q

/-- Kernel 11's stored value is the block through one layer. -/
theorem pay11_eq (x0 x1 : Vec Ideal S5000x64 .f32) (x2 x3 : Vec Ideal S64x64 .f32) (x4 : Vec Ideal S1x64 .f32) :
    k11_pay1 (F := Ideal) x0 x1 x2 x3 x4 = nrm (affB (nrm x0) x1 x2 x3 x4) := by
  unfold k11_pay1
  simp only [shapeCast_self]
  rfl

/-- Kernel 11's stored value at (p, q) is the layer of row p of its two input blocks, at q. -/
theorem pay11_at (x0 x1 : Vec Ideal S5000x64 .f32) (x2 x3 : Vec Ideal S64x64 .f32) (x4 : Vec Ideal S1x64 .f32)
    (p : Fin 5000) (q : Fin 64) :
    k11_pay1 (F := Ideal) x0 x1 x2 x3 x4 (ix2 p q) = rowLayer (row x0 p) (row x1 p) x2 x3 x4 q := by
  rw [pay11_eq]
  exact layerB_at x0 x1 x2 x3 x4 p q

end Cert.KernelIdeal.BodyAt

end
-- ==== Proof.Region0.lean ====
/-
  Launch 0 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ t.val < 10 :=
  (by decide +kernel : ∀ t : Fin grid0.N, _)

/-- Row p of the aggregated-message block at point t is row 5000 t + p of the array. -/
theorem rows_agg (c : Dev nD) (t : Fin cfg0.N) (p : Fin 5000) (r : Fin 50000) (hr : r.val = 5000 * t.val + p.val) :
    row (iblk0 V c 0 t : Vec Ideal S5000x64 .f32) p = row (V c main_v16 : S50000x64.Idx → EReal) r := by
  obtain ⟨⟨e0, e1⟩, -⟩ := idx_facts t
  funext k
  unfold row iblk0
  rw [View.read_apply]
  show V c main_v16 _ = V c main_v16 _
  refine congrArg _ (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- Row p of the feature block at point t is row 5000 t + p of the array. -/
theorem rows_x (c : Dev nD) (t : Fin cfg0.N) (p : Fin 5000) (r : Fin 50000) (hr : r.val = 5000 * t.val + p.val) :
    row (iblk0 V c 1 t : Vec Ideal S5000x64 .f32) p = row (V c main_arg0 : S50000x64.Idx → EReal) r := by
  obtain ⟨-, ⟨e0, e1⟩, -⟩ := idx_facts t
  funext k
  unfold row iblk0
  rw [View.read_apply]
  show V c main_arg0 _ = V c main_arg0 _
  refine congrArg _ (funext fun a => Fin.ext ?_)
  match a with
  | ⟨0, _⟩ => show win0_1.index t (0 : Fin 2) * 5000 + 1 * p.val = r.val; omega
  | ⟨1, _⟩ => show win0_1.index t (1 : Fin 2) * 64 + 1 * k.val = k.val; omega

/-- The first weight half is fetched whole. -/
theorem whole_w1 (c : Dev nD) (t : Fin cfg0.N) : (iblk0 V c 2 t : Vec Ideal S64x64 .f32) = (V c main_v18 : S64x64.Idx → EReal) := by
  obtain ⟨-, -, ⟨e0, e1⟩, -⟩ := idx_facts t
  funext j
  unfold iblk0
  rw [View.read_apply]
  show V c main_v18 _ = V c main_v18 _
  refine congrArg _ (funext fun a => Fin.ext ?_)
  match a with
  | ⟨0, _⟩ => show win0_2.index t (0 : Fin 2) * 64 + 1 * (j 0).val = (j 0).val; omega
  | ⟨1, _⟩ => show win0_2.index t (1 : Fin 2) * 64 + 1 * (j 1).val = (j 1).val; omega

/-- The second weight half is fetched whole. -/
theorem whole_w2 (c : Dev nD) (t : Fin cfg0.N) : (iblk0 V c 3 t : Vec Ideal S64x64 .f32) = (V c main_v20 : S64x64.Idx → EReal) := by
  obtain ⟨-, -, -, ⟨e0, e1⟩, -⟩ := idx_facts t
  funext j
  unfold iblk0
  rw [View.read_apply]
  show V c main_v20 _ = V c main_v20 _
  refine congrArg _ (funext fun a => Fin.ext ?_)
  match a with
  | ⟨0, _⟩ => show win0_3.index t (0 : Fin 2) * 64 + 1 * (j 0).val = (j 0).val; omega
  | ⟨1, _⟩ => show win0_3.index t (1 : Fin 2) * 64 + 1 * (j 1).val = (j 1).val; omega

/-- The bias row is fetched whole. -/
theorem whole_b (c : Dev nD) (t : Fin cfg0.N) : (iblk0 V c 4 t : Vec Ideal S1x64 .f32) = (V c main_v23 : S1x64.Idx → EReal) := by
  obtain ⟨-, -, -, -, ⟨e0, e1⟩, -⟩ := idx_facts t
  funext j
  unfold iblk0
  rw [View.read_apply]
  show V c main_v23 _ = V c main_v23 _
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 64 + 1 * (j 1).val = (j 1).val; omega

/-- The layer of the whole arrays the launch finds. -/
abbrev whole (c : Dev nD) : S50000x64.Idx → EReal :=
  layer (V c main_v16 : S50000x64.Idx → EReal) (V c main_arg0 : S50000x64.Idx → EReal) (V c main_v18 : S64x64.Idx → EReal)
    (V c main_v20 : S64x64.Idx → EReal) (V c main_v23 : S1x64.Idx → EReal)

/-- What point t writes back is block t of the layer of the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg0.win 5).blk t).view.emb (ix2 p q) = (ix2 (⟨5000 * t.val + p.val, by omega⟩ : Fin 50000) q : S50000x64.Idx) :=
    funext fun a => Fin.ext (by
      match a with
      | ⟨0, _⟩ => show win0_5.index t (0 : Fin 2) * 5000 + 1 * p.val = 5000 * t.val + p.val; omega
      | ⟨1, _⟩ => show win0_5.index t (1 : Fin 2) * 64 + 1 * q.val = q.val; omega)
  show _ = layer (V c main_v16 : S50000x64.Idx → EReal) (V c main_arg0 : S50000x64.Idx → EReal) (V c main_v18 : S64x64.Idx → EReal)
    (V c main_v20 : S64x64.Idx → EReal) (V c main_v23 : S1x64.Idx → EReal) (((cfg0.win 5).blk t).view.emb (ix2 p q))
  rw [hemb]
  refine (pay0_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : grid0.N = 10 := N_0
  have ht0 : (i 0).val / 5000 < cfg0.N := by show (i 0).val / 5000 < grid0.N; omega
  obtain ⟨t, htv⟩ : ∃ t : Fin cfg0.N, t.val = (i 0).val / 5000 := ⟨⟨(i 0).val / 5000, ht0⟩, rfl⟩
  obtain ⟨-, -, -, -, -, ⟨e0, e1⟩, -⟩ := idx_facts t
  refine ⟨t, flush0_5 t, ?_⟩
  show i ∈ ((View.whole main_v24).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- The result array after the launch: the layer of the whole arrays it found. -/
theorem final (c : Dev nD) : (dat0 V c).arrAt 5 cfg0.N = whole V c :=
  (dat0 V c).arrAt_eq_of_cover 5 (whole V c) (fun t _ => flushed_eq V c t) (cover)

end Cert.KernelIdeal.Region0

end
-- ==== Proof.Region1.lean ====
/-
  Launch 1 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ t.val < 10 :=
  (by decide +kernel : ∀ t : Fin grid1.N, _)

/-- Row p of the aggregated-message block at point t is row 5000 t + p of the array. -/
theorem rows_agg (c : Dev nD) (t : Fin cfg1.N) (p : Fin 5000) (r : Fin 50000) (hr : r.val = 5000 * t.val + p.val) :
    row (iblk1 V c 0 t : Vec Ideal S5000x64 .f32) p = row (V c main_v36 : S50000x64.Idx → EReal) r := by
  obtain ⟨⟨e0, e1⟩, -⟩ := idx_facts t
  funext k
  unfold row iblk1
  rw [View.read_apply]
  show V c main_v36 _ = V c main_v36 _
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Row p of the feature block at point t is row 5000 t + p of the array. -/
theorem rows_x (c : Dev nD) (t : Fin cfg1.N) (p : Fin 5000) (r : Fin 50000) (hr : r.val = 5000 * t.val + p.val) :
    row (iblk1 V c 1 t : Vec Ideal S5000x64 .f32) p = row (V c main_v24 : S50000x64.Idx → EReal) r := by
  obtain ⟨-, ⟨e0, e1⟩, -⟩ := idx_facts t
  funext k
  unfold row iblk1
  rw [View.read_apply]
  show V c main_v24 _ = V c main_v24 _
  refine congrArg _ (funext fun a => Fin.ext ?_)
  match a with
  | ⟨0, _⟩ => show win1_1.index t (0 : Fin 2) * 5000 + 1 * p.val = r.val; omega
  | ⟨1, _⟩ => show win1_1.index t (1 : Fin 2) * 64 + 1 * k.val = k.val; omega

/-- The first weight half is fetched whole. -/
theorem whole_w1 (c : Dev nD) (t : Fin cfg1.N) : (iblk1 V c 2 t : Vec Ideal S64x64 .f32) = (V c main_v38 : S64x64.Idx → EReal) := by
  obtain ⟨-, -, ⟨e0, e1⟩, -⟩ := idx_facts t
  funext j
  unfold iblk1
  rw [View.read_apply]
  show V c main_v38 _ = V c main_v38 _
  refine congrArg _ (funext fun a => Fin.ext ?_)
  match a with
  | ⟨0, _⟩ => show win1_2.index t (0 : Fin 2) * 64 + 1 * (j 0).val = (j 0).val; omega
  | ⟨1, _⟩ => show win1_2.index t (1 : Fin 2) * 64 + 1 * (j 1).val = (j 1).val; omega

/-- The second weight half is fetched whole. -/
theorem whole_w2 (c : Dev nD) (t : Fin cfg1.N) : (iblk1 V c 3 t : Vec Ideal S64x64 .f32) = (V c main_v40 : S64x64.Idx → EReal) := by
  obtain ⟨-, -, -, ⟨e0, e1⟩, -⟩ := idx_facts t
  funext j
  unfold iblk1
  rw [View.read_apply]
  show V c main_v40 _ = V c main_v40 _
  refine congrArg _ (funext fun a => Fin.ext ?_)
  match a with
  | ⟨0, _⟩ => show win1_3.index t (0 : Fin 2) * 64 + 1 * (j 0).val = (j 0).val; omega
  | ⟨1, _⟩ => show win1_3.index t (1 : Fin 2) * 64 + 1 * (j 1).val = (j 1).val; omega

/-- The bias row is fetched whole. -/
theorem whole_b (c : Dev nD) (t : Fin cfg1.N) : (iblk1 V c 4 t : Vec Ideal S1x64 .f32) = (V c main_v43 : S1x64.Idx → EReal) := by
  obtain ⟨-, -, -, -, ⟨e0, e1⟩, -⟩ := idx_facts t
  funext j
  unfold iblk1
  rw [View.read_apply]
  show V c main_v43 _ = V c main_v43 _
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 64 + 1 * (j 1).val = (j 1).val; omega

/-- The layer of the whole arrays the launch finds. -/
abbrev whole (c : Dev nD) : S50000x64.Idx → EReal :=
  layer (V c main_v36 : S50000x64.Idx → EReal) (V c main_v24 : S50000x64.Idx → EReal) (V c main_v38 : S64x64.Idx → EReal)
    (V c main_v40 : S64x64.Idx → EReal) (V c main_v43 : S1x64.Idx → EReal)

/-- What point t writes back is block t of the layer of the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg1.win 5).blk t).view.emb (ix2 p q) = (ix2 (⟨5000 * t.val + p.val, by omega⟩ : Fin 50000) q : S50000x64.Idx) :=
    funext fun a => Fin.ext (by
      match a with
      | ⟨0, _⟩ => show win1_5.index t (0 : Fin 2) * 5000 + 1 * p.val = 5000 * t.val + p.val; omega
      | ⟨1, _⟩ => show win1_5.index t (1 : Fin 2) * 64 + 1 * q.val = q.val; omega)
  show _ = layer (V c main_v36 : S50000x64.Idx → EReal) (V c main_v24 : S50000x64.Idx → EReal) (V c main_v38 : S64x64.Idx → EReal)
    (V c main_v40 : S64x64.Idx → EReal) (V c main_v43 : S1x64.Idx → EReal) (((cfg1.win 5).blk t).view.emb (ix2 p q))
  rw [hemb]
  refine (pay1_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : grid1.N = 10 := N_1
  have ht0 : (i 0).val / 5000 < cfg1.N := by show (i 0).val / 5000 < grid1.N; omega
  obtain ⟨t, htv⟩ : ∃ t : Fin cfg1.N, t.val = (i 0).val / 5000 := ⟨⟨(i 0).val / 5000, ht0⟩, rfl⟩
  obtain ⟨-, -, -, -, -, ⟨e0, e1⟩, -⟩ := idx_facts t
  refine ⟨t, flush1_5 t, ?_⟩
  show i ∈ ((View.whole main_v44).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- The result array after the launch: the layer of the whole arrays it found. -/
theorem final (c : Dev nD) : (dat1 V c).arrAt 5 cfg1.N = whole V c :=
  (dat1 V c).arrAt_eq_of_cover 5 (whole V c) (fun t _ => flushed_eq V c t) (cover)

end Cert.KernelIdeal.Region1

end
-- ==== Proof.Region2.lean ====
/-
  Launch 2 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ t.val < 10 :=
  (by decide +kernel : ∀ t : Fin grid2.N, _)

/-- Row p of the aggregated-message block at point t is row 5000 t + p of the array. -/
theorem rows_agg (c : Dev nD) (t : Fin cfg2.N) (p : Fin 5000) (r : Fin 50000) (hr : r.val = 5000 * t.val + p.val) :
    row (iblk2 V c 0 t : Vec Ideal S5000x64 .f32) p = row (V c main_v56 : S50000x64.Idx → EReal) r := by
  obtain ⟨⟨e0, e1⟩, -⟩ := idx_facts t
  funext k
  unfold row iblk2
  rw [View.read_apply]
  show V c main_v56 _ = V c main_v56 _
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- Row p of the feature block at point t is row 5000 t + p of the array. -/
theorem rows_x (c : Dev nD) (t : Fin cfg2.N) (p : Fin 5000) (r : Fin 50000) (hr : r.val = 5000 * t.val + p.val) :
    row (iblk2 V c 1 t : Vec Ideal S5000x64 .f32) p = row (V c main_v44 : S50000x64.Idx → EReal) r := by
  obtain ⟨-, ⟨e0, e1⟩, -⟩ := idx_facts t
  funext k
  unfold row iblk2
  rw [View.read_apply]
  show V c main_v44 _ = V c main_v44 _
  refine congrArg _ (funext fun a => Fin.ext ?_)
  match a with
  | ⟨0, _⟩ => show win2_1.index t (0 : Fin 2) * 5000 + 1 * p.val = r.val; omega
  | ⟨1, _⟩ => show win2_1.index t (1 : Fin 2) * 64 + 1 * k.val = k.val; omega

/-- The first weight half is fetched whole. -/
theorem whole_w1 (c : Dev nD) (t : Fin cfg2.N) : (iblk2 V c 2 t : Vec Ideal S64x64 .f32) = (V c main_v58 : S64x64.Idx → EReal) := by
  obtain ⟨-, -, ⟨e0, e1⟩, -⟩ := idx_facts t
  funext j
  unfold iblk2
  rw [View.read_apply]
  show V c main_v58 _ = V c main_v58 _
  refine congrArg _ (funext fun a => Fin.ext ?_)
  match a with
  | ⟨0, _⟩ => show win2_2.index t (0 : Fin 2) * 64 + 1 * (j 0).val = (j 0).val; omega
  | ⟨1, _⟩ => show win2_2.index t (1 : Fin 2) * 64 + 1 * (j 1).val = (j 1).val; omega

/-- The second weight half is fetched whole. -/
theorem whole_w2 (c : Dev nD) (t : Fin cfg2.N) : (iblk2 V c 3 t : Vec Ideal S64x64 .f32) = (V c main_v60 : S64x64.Idx → EReal) := by
  obtain ⟨-, -, -, ⟨e0, e1⟩, -⟩ := idx_facts t
  funext j
  unfold iblk2
  rw [View.read_apply]
  show V c main_v60 _ = V c main_v60 _
  refine congrArg _ (funext fun a => Fin.ext ?_)
  match a with
  | ⟨0, _⟩ => show win2_3.index t (0 : Fin 2) * 64 + 1 * (j 0).val = (j 0).val; omega
  | ⟨1, _⟩ => show win2_3.index t (1 : Fin 2) * 64 + 1 * (j 1).val = (j 1).val; omega

/-- The bias row is fetched whole. -/
theorem whole_b (c : Dev nD) (t : Fin cfg2.N) : (iblk2 V c 4 t : Vec Ideal S1x64 .f32) = (V c main_v63 : S1x64.Idx → EReal) := by
  obtain ⟨-, -, -, -, ⟨e0, e1⟩, -⟩ := idx_facts t
  funext j
  unfold iblk2
  rw [View.read_apply]
  show V c main_v63 _ = V c main_v63 _
  refine congrArg _ (funext fun a => Fin.ext ?_)
  match a with
  | ⟨0, _⟩ => show win2_4.index t (0 : Fin 2) * 1 + 1 * (j 0).val = (j 0).val; omega
  | ⟨1, _⟩ => show win2_4.index t (1 : Fin 2) * 64 + 1 * (j 1).val = (j 1).val; omega

/-- The layer of the whole arrays the launch finds. -/
abbrev whole (c : Dev nD) : S50000x64.Idx → EReal :=
  layer (V c main_v56 : S50000x64.Idx → EReal) (V c main_v44 : S50000x64.Idx → EReal) (V c main_v58 : S64x64.Idx → EReal)
    (V c main_v60 : S64x64.Idx → EReal) (V c main_v63 : S1x64.Idx → EReal)

/-- What point t writes back is block t of the layer of the whole arrays. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg2.win 5).blk t).view.emb (ix2 p q) = (ix2 (⟨5000 * t.val + p.val, by omega⟩ : Fin 50000) q : S50000x64.Idx) :=
    funext fun a => Fin.ext (by
      match a with
      | ⟨0, _⟩ => show win2_5.index t (0 : Fin 2) * 5000 + 1 * p.val = 5000 * t.val + p.val; omega
      | ⟨1, _⟩ => show win2_5.index t (1 : Fin 2) * 64 + 1 * q.val = q.val; omega)
  show _ = layer (V c main_v56 : S50000x64.Idx → EReal) (V c main_v44 : S50000x64.Idx → EReal) (V c main_v58 : S64x64.Idx → EReal)
    (V c main_v60 : S64x64.Idx → EReal) (V c main_v63 : S1x64.Idx → EReal) (((cfg2.win 5).blk t).view.emb (ix2 p q))
  rw [hemb]
  refine (pay2_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 10 := N_2
  have ht0 : (i 0).val / 5000 < cfg2.N := by show (i 0).val / 5000 < grid2.N; omega
  obtain ⟨t, htv⟩ : ∃ t : Fin cfg2.N, t.val = (i 0).val / 5000 := ⟨⟨(i 0).val / 5000, ht0⟩, rfl⟩
  obtain ⟨-, -, -, -, -, ⟨e0, e1⟩, -⟩ := idx_facts t
  refine ⟨t, flush2_5 t, ?_⟩
  show i ∈ ((View.whole main_v64).slice (win2_5.rect t)).set
  rw [View.set_slice_whole, Rect.mem_set_unit]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 64 ≤ (i 1).val ∧ (i 1).val < win2_5.index t (1 : Fin 2) * 64 + 64
    omega

/-- The result array after the launch: the layer of the whole arrays it found. -/
theorem final (c : Dev nD) : (dat2 V c).arrAt 5 cfg2.N = whole V c :=
  (dat2 V c).arrAt_eq_of_cover 5 (whole V c) (fun t _ => flushed_eq V c t) (cover)

end Cert.KernelIdeal.Region2

end
-- ==== Proof.Region3.lean ====
/-
  Launch 3 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region3

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0)
    ∧ t.val < 10 :=
  (by decide +kernel : ∀ t : Fin grid3.N, _)

/-- Row p of the aggregated-message block at point t is row 5000 t + p of the array. -/
theorem rows_agg (c : Dev nD) (t : Fin cfg3.N) (p : Fin 5000) (r : Fin 50000) (hr : r.val = 5000 * t.val + p.val) :
    row (iblk3 V c 0 t : Vec Ideal S5000x64 .f32) p = row (V c main_v76 : S50000x64.Idx → EReal) r := by
  obtain ⟨⟨e0, e1⟩, -⟩ := idx_facts t
  funext k
  unfold row iblk3
  rw [View.read_apply]
  show V c main_v76 _ = V c main_v76 _
  refine congrArg _ (funext fun a => Fin.ext ?_)
  match a with
  | ⟨0, _⟩ => show win3_0.index t (0 : Fin 2) * 5000 + 1 * p.val = r.val; omega
  | ⟨1, _⟩ => show win3_0.index t (1 : Fin 2) * 64 + 1 * k.val = k.val; omega

/-- Row p of the feature block at point t is row 5000 t + p of the array. -/
theorem rows_x (c : Dev nD) (t : Fin cfg3.N) (p : Fin 5000) (r : Fin 50000) (hr : r.val = 5000 * t.val + p.val) :
    row (iblk3 V c 1 t : Vec Ideal S5000x64 .f32) p = row (V c main_v64 : S50000x64.Idx → EReal) r := by
  obtain ⟨-, ⟨e0, e1⟩, -⟩ := idx_facts t
  funext k
  unfold row iblk3
  rw [View.read_apply]
  show V c main_v64 _ = V c main_v64 _
  refine congrArg _ (funext fun a => Fin.ext ?_)
  match a with
  | ⟨0, _⟩ => show win3_1.index t (0 : Fin 2) * 5000 + 1 * p.val = r.val; omega
  | ⟨1, _⟩ => show win3_1.index t (1 : Fin 2) * 64 + 1 * k.val = k.val; omega

/-- The first weight half is fetched whole. -/
theorem whole_w1 (c : Dev nD) (t : Fin cfg3.N) : (iblk3 V c 2 t : Vec Ideal S64x64 .f32) = (V c main_v78 : S64x64.Idx → EReal) := by
  obtain ⟨-, -, ⟨e0, e1⟩, -⟩ := idx_facts t
  funext j
  unfold iblk3
  rw [View.read_apply]
  show V c main_v78 _ = V c main_v78 _
  refine congrArg _ (funext fun a => Fin.ext ?_)
  match a with
  | ⟨0, _⟩ => show win3_2.index t (0 : Fin 2) * 64 + 1 * (j 0).val = (j 0).val; omega
  | ⟨1, _⟩ => show win3_2.index t (1 : Fin 2) * 64 + 1 * (j 1).val = (j 1).val; omega

/-- The second weight half is fetched whole. -/
theorem whole_w2 (c : Dev nD) (t : Fin cfg3.N) : (iblk3 V c 3 t : Vec Ideal S64x64 .f32) = (V c main_v80 : S64x64.Idx → EReal) := by
  obtain ⟨-, -, -, ⟨e0, e1⟩, -⟩ := idx_facts t
  funext j
  unfold iblk3
  rw [View.read_apply]
  show V c main_v80 _ = V c main_v80 _
  refine congrArg _ (funext fun a => Fin.ext ?_)
  match a with
  | ⟨0, _⟩ => show win3_3.index t (0 : Fin 2) * 64 + 1 * (j 0).val = (j 0).val; omega
  | ⟨1, _⟩ => show win3_3.index t (1 : Fin 2) * 64 + 1 * (j 1).val = (j 1).val; omega

/-- The bias row is fetched whole. -/
theorem whole_b (c : Dev nD) (t : Fin cfg3.N) : (iblk3 V c 4 t : Vec Ideal S1x64 .f32) = (V c main_v83 : S1x64.Idx → EReal) := by
  obtain ⟨-, -, -, -, ⟨e0, e1⟩, -⟩ := idx_facts t
  funext j
  unfold iblk3
  rw [View.read_apply]
  show V c main_v83 _ = V c main_v83 _
  refine congrArg _ (funext fun a => Fin.ext ?_)
  match a with
  | ⟨0, _⟩ => show win3_4.index t (0 : Fin 2) * 1 + 1 * (j 0).val = (j 0).val; omega
  | ⟨1, _⟩ => show win3_4.index t (1 : Fin 2) * 64 + 1 * (j 1).val = (j 1).val; omega

/-- The layer of the whole arrays the launch finds. -/
abbrev whole (c : Dev nD) : S50000x64.Idx → EReal :=
  layer (V c main_v76 : S50000x64.Idx → EReal) (V c main_v64 : S50000x64.Idx → EReal) (V c main_v78 : S64x64.Idx → EReal)
    (V c main_v80 : S64x64.Idx → EReal) (V c main_v83 : S1x64.Idx → EReal)

/-- What point t writes back is block t of the layer of the whole arrays. -/
theorem flushed_eq (c : Dev nD) (t : Fin cfg3.N) :
    (dat3 V c).flushed 5 t = ((cfg3.win 5).blk t).view.read (Elt Ideal) (whole V c) := by
  show (cfg3.win 5).cut (grid3.coords t) ((dat3 V c).after 5 t) = _
  rw [after3_5]
  unfold out3_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg3.win 5).blk t).view.emb (ix2 p q) = (ix2 (⟨5000 * t.val + p.val, by omega⟩ : Fin 50000) q : S50000x64.Idx) :=
    funext fun a => Fin.ext (by
      match a with
      | ⟨0, _⟩ => show win3_5.index t (0 : Fin 2) * 5000 + 1 * p.val = 5000 * t.val + p.val; omega
      | ⟨1, _⟩ => show win3_5.index t (1 : Fin 2) * 64 + 1 * q.val = q.val; omega)
  show _ = layer (V c main_v76 : S50000x64.Idx → EReal) (V c main_v64 : S50000x64.Idx → EReal) (V c main_v78 : S64x64.Idx → EReal)
    (V c main_v80 : S64x64.Idx → EReal) (V c main_v83 : S1x64.Idx → EReal) (((cfg3.win 5).blk t).view.emb (ix2 p q))
  rw [hemb]
  refine (pay3_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  have hN : grid3.N = 10 := N_3
  have ht0 : (i 0).val / 5000 < cfg3.N := by show (i 0).val / 5000 < grid3.N; omega
  obtain ⟨t, htv⟩ : ∃ t : Fin cfg3.N, t.val = (i 0).val / 5000 := ⟨⟨(i 0).val / 5000, ht0⟩, rfl⟩
  obtain ⟨-, -, -, -, -, ⟨e0, e1⟩, -⟩ := idx_facts t
  refine ⟨t, flush3_5 t, ?_⟩
  show i ∈ ((View.whole main_v84).slice (win3_5.rect t)).set
  rw [View.set_slice_whole, Rect.mem_set_unit]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 64 ≤ (i 1).val ∧ (i 1).val < win3_5.index t (1 : Fin 2) * 64 + 64
    omega

/-- The result array after the launch: the layer of the whole arrays it found. -/
theorem final (c : Dev nD) : (dat3 V c).arrAt 5 cfg3.N = whole V c :=
  (dat3 V c).arrAt_eq_of_cover 5 (whole V c) (fun t _ => flushed_eq V c t) (cover)

end Cert.KernelIdeal.Region3

end
-- ==== Proof.Region4.lean ====
/-
  Launch 4 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region4

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = t.val ∧ win4_5.index t (1 : Fin 2) = 0)
    ∧ t.val < 10 :=
  (by decide +kernel : ∀ t : Fin grid4.N, _)

/-- Row p of the aggregated-message block at point t is row 5000 t + p of the array. -/
theorem rows_agg (c : Dev nD) (t : Fin cfg4.N) (p : Fin 5000) (r : Fin 50000) (hr : r.val = 5000 * t.val + p.val) :
    row (iblk4 V c 0 t : Vec Ideal S5000x64 .f32) p = row (V c main_v96 : S50000x64.Idx → EReal) r := by
  obtain ⟨⟨e0, e1⟩, -⟩ := idx_facts t
  funext k
  unfold row iblk4
  rw [View.read_apply]
  show V c main_v96 _ = V c main_v96 _
  refine congrArg _ (funext fun a => Fin.ext ?_)
  match a with
  | ⟨0, _⟩ => show win4_0.index t (0 : Fin 2) * 5000 + 1 * p.val = r.val; omega
  | ⟨1, _⟩ => show win4_0.index t (1 : Fin 2) * 64 + 1 * k.val = k.val; omega

/-- Row p of the feature block at point t is row 5000 t + p of the array. -/
theorem rows_x (c : Dev nD) (t : Fin cfg4.N) (p : Fin 5000) (r : Fin 50000) (hr : r.val = 5000 * t.val + p.val) :
    row (iblk4 V c 1 t : Vec Ideal S5000x64 .f32) p = row (V c main_v84 : S50000x64.Idx → EReal) r := by
  obtain ⟨-, ⟨e0, e1⟩, -⟩ := idx_facts t
  funext k
  unfold row iblk4
  rw [View.read_apply]
  show V c main_v84 _ = V c main_v84 _
  refine congrArg _ (funext fun a => Fin.ext ?_)
  match a with
  | ⟨0, _⟩ => show win4_1.index t (0 : Fin 2) * 5000 + 1 * p.val = r.val; omega
  | ⟨1, _⟩ => show win4_1.index t (1 : Fin 2) * 64 + 1 * k.val = k.val; omega

/-- The first weight half is fetched whole. -/
theorem whole_w1 (c : Dev nD) (t : Fin cfg4.N) : (iblk4 V c 2 t : Vec Ideal S64x64 .f32) = (V c main_v98 : S64x64.Idx → EReal) := by
  obtain ⟨-, -, ⟨e0, e1⟩, -⟩ := idx_facts t
  funext j
  unfold iblk4
  rw [View.read_apply]
  show V c main_v98 _ = V c main_v98 _
  refine congrArg _ (funext fun a => Fin.ext ?_)
  match a with
  | ⟨0, _⟩ => show win4_2.index t (0 : Fin 2) * 64 + 1 * (j 0).val = (j 0).val; omega
  | ⟨1, _⟩ => show win4_2.index t (1 : Fin 2) * 64 + 1 * (j 1).val = (j 1).val; omega

/-- The second weight half is fetched whole. -/
theorem whole_w2 (c : Dev nD) (t : Fin cfg4.N) : (iblk4 V c 3 t : Vec Ideal S64x64 .f32) = (V c main_v100 : S64x64.Idx → EReal) := by
  obtain ⟨-, -, -, ⟨e0, e1⟩, -⟩ := idx_facts t
  funext j
  unfold iblk4
  rw [View.read_apply]
  show V c main_v100 _ = V c main_v100 _
  refine congrArg _ (funext fun a => Fin.ext ?_)
  match a with
  | ⟨0, _⟩ => show win4_3.index t (0 : Fin 2) * 64 + 1 * (j 0).val = (j 0).val; omega
  | ⟨1, _⟩ => show win4_3.index t (1 : Fin 2) * 64 + 1 * (j 1).val = (j 1).val; omega

/-- The bias row is fetched whole. -/
theorem whole_b (c : Dev nD) (t : Fin cfg4.N) : (iblk4 V c 4 t : Vec Ideal S1x64 .f32) = (V c main_v103 : S1x64.Idx → EReal) := by
  obtain ⟨-, -, -, -, ⟨e0, e1⟩, -⟩ := idx_facts t
  funext j
  unfold iblk4
  rw [View.read_apply]
  show V c main_v103 _ = V c main_v103 _
  refine congrArg _ (funext fun a => Fin.ext ?_)
  match a with
  | ⟨0, _⟩ => show win4_4.index t (0 : Fin 2) * 1 + 1 * (j 0).val = (j 0).val; omega
  | ⟨1, _⟩ => show win4_4.index t (1 : Fin 2) * 64 + 1 * (j 1).val = (j 1).val; omega

/-- The layer of the whole arrays the launch finds. -/
abbrev whole (c : Dev nD) : S50000x64.Idx → EReal :=
  layer (V c main_v96 : S50000x64.Idx → EReal) (V c main_v84 : S50000x64.Idx → EReal) (V c main_v98 : S64x64.Idx → EReal)
    (V c main_v100 : S64x64.Idx → EReal) (V c main_v103 : S1x64.Idx → EReal)

/-- What point t writes back is block t of the layer of the whole arrays. -/
theorem flushed_eq (c : Dev nD) (t : Fin cfg4.N) :
    (dat4 V c).flushed 5 t = ((cfg4.win 5).blk t).view.read (Elt Ideal) (whole V c) := by
  show (cfg4.win 5).cut (grid4.coords t) ((dat4 V c).after 5 t) = _
  rw [after4_5]
  unfold out4_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg4.win 5).blk t).view.emb (ix2 p q) = (ix2 (⟨5000 * t.val + p.val, by omega⟩ : Fin 50000) q : S50000x64.Idx) :=
    funext fun a => Fin.ext (by
      match a with
      | ⟨0, _⟩ => show win4_5.index t (0 : Fin 2) * 5000 + 1 * p.val = 5000 * t.val + p.val; omega
      | ⟨1, _⟩ => show win4_5.index t (1 : Fin 2) * 64 + 1 * q.val = q.val; omega)
  show _ = layer (V c main_v96 : S50000x64.Idx → EReal) (V c main_v84 : S50000x64.Idx → EReal) (V c main_v98 : S64x64.Idx → EReal)
    (V c main_v100 : S64x64.Idx → EReal) (V c main_v103 : S1x64.Idx → EReal) (((cfg4.win 5).blk t).view.emb (ix2 p q))
  rw [hemb]
  refine (pay4_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg4.N, (cfg4.win 5).flush t = true ∧ i ∈ ((cfg4.win 5).blk t).view.set := by
  have hi0 : (i 0).val < 50000 := (i 0).isLt
  have hi1 : (i 1).val < 64 := (i 1).isLt
  have hN : grid4.N = 10 := N_4
  have ht0 : (i 0).val / 5000 < cfg4.N := by show (i 0).val / 5000 < grid4.N; omega
  obtain ⟨t, htv⟩ : ∃ t : Fin cfg4.N, t.val = (i 0).val / 5000 := ⟨⟨(i 0).val / 5000, ht0⟩, rfl⟩
  obtain ⟨-, -, -, -, -, ⟨e0, e1⟩, -⟩ := idx_facts t
  refine ⟨t, flush4_5 t, ?_⟩
  show i ∈ ((View.whole main_v104).slice (win4_5.rect t)).set
  rw [View.set_slice_whole, Rect.mem_set_unit]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 64 ≤ (i 1).val ∧ (i 1).val < win4_5.index t (1 : Fin 2) * 64 + 64
    omega

/-- The result array after the launch: the layer of the whole arrays it found. -/
theorem final (c : Dev nD) : (dat4 V c).arrAt 5 cfg4.N = whole V c :=
  (dat4 V c).arrAt_eq_of_cover 5 (whole V c) (fun t _ => flushed_eq V c t) (cover)

end Cert.KernelIdeal.Region4

end
-- ==== Proof.Region5.lean ====
/-
  Launch 5 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region5

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = t.val ∧ win5_5.index t (1 : Fin 2) = 0)
    ∧ t.val < 10 :=
  (by decide +kernel : ∀ t : Fin grid5.N, _)

/-- Row p of the aggregated-message block at point t is row 5000 t + p of the array. -/
theorem rows_agg (c : Dev nD) (t : Fin cfg5.N) (p : Fin 5000) (r : Fin 50000) (hr : r.val = 5000 * t.val + p.val) :
    row (iblk5 V c 0 t : Vec Ideal S5000x64 .f32) p = row (V c main_v116 : S50000x64.Idx → EReal) r := by
  obtain ⟨⟨e0, e1⟩, -⟩ := idx_facts t
  funext k
  unfold row iblk5
  rw [View.read_apply]
  show V c main_v116 _ = V c main_v116 _
  refine congrArg _ (funext fun a => Fin.ext ?_)
  match a with
  | ⟨0, _⟩ => show win5_0.index t (0 : Fin 2) * 5000 + 1 * p.val = r.val; omega
  | ⟨1, _⟩ => show win5_0.index t (1 : Fin 2) * 64 + 1 * k.val = k.val; omega

/-- Row p of the feature block at point t is row 5000 t + p of the array. -/
theorem rows_x (c : Dev nD) (t : Fin cfg5.N) (p : Fin 5000) (r : Fin 50000) (hr : r.val = 5000 * t.val + p.val) :
    row (iblk5 V c 1 t : Vec Ideal S5000x64 .f32) p = row (V c main_v104 : S50000x64.Idx → EReal) r := by
  obtain ⟨-, ⟨e0, e1⟩, -⟩ := idx_facts t
  funext k
  unfold row iblk5
  rw [View.read_apply]
  show V c main_v104 _ = V c main_v104 _
  refine congrArg _ (funext fun a => Fin.ext ?_)
  match a with
  | ⟨0, _⟩ => show win5_1.index t (0 : Fin 2) * 5000 + 1 * p.val = r.val; omega
  | ⟨1, _⟩ => show win5_1.index t (1 : Fin 2) * 64 + 1 * k.val = k.val; omega

/-- The first weight half is fetched whole. -/
theorem whole_w1 (c : Dev nD) (t : Fin cfg5.N) : (iblk5 V c 2 t : Vec Ideal S64x64 .f32) = (V c main_v118 : S64x64.Idx → EReal) := by
  obtain ⟨-, -, ⟨e0, e1⟩, -⟩ := idx_facts t
  funext j
  unfold iblk5
  rw [View.read_apply]
  show V c main_v118 _ = V c main_v118 _
  refine congrArg _ (funext fun a => Fin.ext ?_)
  match a with
  | ⟨0, _⟩ => show win5_2.index t (0 : Fin 2) * 64 + 1 * (j 0).val = (j 0).val; omega
  | ⟨1, _⟩ => show win5_2.index t (1 : Fin 2) * 64 + 1 * (j 1).val = (j 1).val; omega

/-- The second weight half is fetched whole. -/
theorem whole_w2 (c : Dev nD) (t : Fin cfg5.N) : (iblk5 V c 3 t : Vec Ideal S64x64 .f32) = (V c main_v120 : S64x64.Idx → EReal) := by
  obtain ⟨-, -, -, ⟨e0, e1⟩, -⟩ := idx_facts t
  funext j
  unfold iblk5
  rw [View.read_apply]
  show V c main_v120 _ = V c main_v120 _
  refine congrArg _ (funext fun a => Fin.ext ?_)
  match a with
  | ⟨0, _⟩ => show win5_3.index t (0 : Fin 2) * 64 + 1 * (j 0).val = (j 0).val; omega
  | ⟨1, _⟩ => show win5_3.index t (1 : Fin 2) * 64 + 1 * (j 1).val = (j 1).val; omega

/-- The bias row is fetched whole. -/
theorem whole_b (c : Dev nD) (t : Fin cfg5.N) : (iblk5 V c 4 t : Vec Ideal S1x64 .f32) = (V c main_v123 : S1x64.Idx → EReal) := by
  obtain ⟨-, -, -, -, ⟨e0, e1⟩, -⟩ := idx_facts t
  funext j
  unfold iblk5
  rw [View.read_apply]
  show V c main_v123 _ = V c main_v123 _
  refine congrArg _ (funext fun a => Fin.ext ?_)
  match a with
  | ⟨0, _⟩ => show win5_4.index t (0 : Fin 2) * 1 + 1 * (j 0).val = (j 0).val; omega
  | ⟨1, _⟩ => show win5_4.index t (1 : Fin 2) * 64 + 1 * (j 1).val = (j 1).val; omega

/-- The layer of the whole arrays the launch finds. -/
abbrev whole (c : Dev nD) : S50000x64.Idx → EReal :=
  layer (V c main_v116 : S50000x64.Idx → EReal) (V c main_v104 : S50000x64.Idx → EReal) (V c main_v118 : S64x64.Idx → EReal)
    (V c main_v120 : S64x64.Idx → EReal) (V c main_v123 : S1x64.Idx → EReal)

/-- What point t writes back is block t of the layer of the whole arrays. -/
theorem flushed_eq (c : Dev nD) (t : Fin cfg5.N) :
    (dat5 V c).flushed 5 t = ((cfg5.win 5).blk t).view.read (Elt Ideal) (whole V c) := by
  show (cfg5.win 5).cut (grid5.coords t) ((dat5 V c).after 5 t) = _
  rw [after5_5]
  unfold out5_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg5.win 5).blk t).view.emb (ix2 p q) = (ix2 (⟨5000 * t.val + p.val, by omega⟩ : Fin 50000) q : S50000x64.Idx) :=
    funext fun a => Fin.ext (by
      match a with
      | ⟨0, _⟩ => show win5_5.index t (0 : Fin 2) * 5000 + 1 * p.val = 5000 * t.val + p.val; omega
      | ⟨1, _⟩ => show win5_5.index t (1 : Fin 2) * 64 + 1 * q.val = q.val; omega)
  show _ = layer (V c main_v116 : S50000x64.Idx → EReal) (V c main_v104 : S50000x64.Idx → EReal) (V c main_v118 : S64x64.Idx → EReal)
    (V c main_v120 : S64x64.Idx → EReal) (V c main_v123 : S1x64.Idx → EReal) (((cfg5.win 5).blk t).view.emb (ix2 p q))
  rw [hemb]
  refine (pay5_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg5.N, (cfg5.win 5).flush t = true ∧ i ∈ ((cfg5.win 5).blk t).view.set := by
  have hi0 : (i 0).val < 50000 := (i 0).isLt
  have hi1 : (i 1).val < 64 := (i 1).isLt
  have hN : grid5.N = 10 := N_5
  have ht0 : (i 0).val / 5000 < cfg5.N := by show (i 0).val / 5000 < grid5.N; omega
  obtain ⟨t, htv⟩ : ∃ t : Fin cfg5.N, t.val = (i 0).val / 5000 := ⟨⟨(i 0).val / 5000, ht0⟩, rfl⟩
  obtain ⟨-, -, -, -, -, ⟨e0, e1⟩, -⟩ := idx_facts t
  refine ⟨t, flush5_5 t, ?_⟩
  show i ∈ ((View.whole main_v124).slice (win5_5.rect t)).set
  rw [View.set_slice_whole, Rect.mem_set_unit]
  intro a
  match a with
  | ⟨0, _⟩ =>
    show win5_5.index t (0 : Fin 2) * 5000 ≤ (i 0).val ∧ (i 0).val < win5_5.index t (0 : Fin 2) * 5000 + 5000
    omega
  | ⟨1, _⟩ =>
    show win5_5.index t (1 : Fin 2) * 64 ≤ (i 1).val ∧ (i 1).val < win5_5.index t (1 : Fin 2) * 64 + 64
    omega

/-- The result array after the launch: the layer of the whole arrays it found. -/
theorem final (c : Dev nD) : (dat5 V c).arrAt 5 cfg5.N = whole V c :=
  (dat5 V c).arrAt_eq_of_cover 5 (whole V c) (fun t _ => flushed_eq V c t) (cover)

end Cert.KernelIdeal.Region5

end
-- ==== Proof.Region6.lean ====
/-
  Launch 6 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region6

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = t.val ∧ win6_5.index t (1 : Fin 2) = 0)
    ∧ t.val < 10 :=
  (by decide +kernel : ∀ t : Fin grid6.N, _)

/-- Row p of the aggregated-message block at point t is row 5000 t + p of the array. -/
theorem rows_agg (c : Dev nD) (t : Fin cfg6.N) (p : Fin 5000) (r : Fin 50000) (hr : r.val = 5000 * t.val + p.val) :
    row (iblk6 V c 0 t : Vec Ideal S5000x64 .f32) p = row (V c main_v136 : S50000x64.Idx → EReal) r := by
  obtain ⟨⟨e0, e1⟩, -⟩ := idx_facts t
  funext k
  unfold row iblk6
  rw [View.read_apply]
  show V c main_v136 _ = V c main_v136 _
  refine congrArg _ (funext fun a => Fin.ext ?_)
  match a with
  | ⟨0, _⟩ => show win6_0.index t (0 : Fin 2) * 5000 + 1 * p.val = r.val; omega
  | ⟨1, _⟩ => show win6_0.index t (1 : Fin 2) * 64 + 1 * k.val = k.val; omega

/-- Row p of the feature block at point t is row 5000 t + p of the array. -/
theorem rows_x (c : Dev nD) (t : Fin cfg6.N) (p : Fin 5000) (r : Fin 50000) (hr : r.val = 5000 * t.val + p.val) :
    row (iblk6 V c 1 t : Vec Ideal S5000x64 .f32) p = row (V c main_v124 : S50000x64.Idx → EReal) r := by
  obtain ⟨-, ⟨e0, e1⟩, -⟩ := idx_facts t
  funext k
  unfold row iblk6
  rw [View.read_apply]
  show V c main_v124 _ = V c main_v124 _
  refine congrArg _ (funext fun a => Fin.ext ?_)
  match a with
  | ⟨0, _⟩ => show win6_1.index t (0 : Fin 2) * 5000 + 1 * p.val = r.val; omega
  | ⟨1, _⟩ => show win6_1.index t (1 : Fin 2) * 64 + 1 * k.val = k.val; omega

/-- The first weight half is fetched whole. -/
theorem whole_w1 (c : Dev nD) (t : Fin cfg6.N) : (iblk6 V c 2 t : Vec Ideal S64x64 .f32) = (V c main_v138 : S64x64.Idx → EReal) := by
  obtain ⟨-, -, ⟨e0, e1⟩, -⟩ := idx_facts t
  funext j
  unfold iblk6
  rw [View.read_apply]
  show V c main_v138 _ = V c main_v138 _
  refine congrArg _ (funext fun a => Fin.ext ?_)
  match a with
  | ⟨0, _⟩ => show win6_2.index t (0 : Fin 2) * 64 + 1 * (j 0).val = (j 0).val; omega
  | ⟨1, _⟩ => show win6_2.index t (1 : Fin 2) * 64 + 1 * (j 1).val = (j 1).val; omega

/-- The second weight half is fetched whole. -/
theorem whole_w2 (c : Dev nD) (t : Fin cfg6.N) : (iblk6 V c 3 t : Vec Ideal S64x64 .f32) = (V c main_v140 : S64x64.Idx → EReal) := by
  obtain ⟨-, -, -, ⟨e0, e1⟩, -⟩ := idx_facts t
  funext j
  unfold iblk6
  rw [View.read_apply]
  show V c main_v140 _ = V c main_v140 _
  refine congrArg _ (funext fun a => Fin.ext ?_)
  match a with
  | ⟨0, _⟩ => show win6_3.index t (0 : Fin 2) * 64 + 1 * (j 0).val = (j 0).val; omega
  | ⟨1, _⟩ => show win6_3.index t (1 : Fin 2) * 64 + 1 * (j 1).val = (j 1).val; omega

/-- The bias row is fetched whole. -/
theorem whole_b (c : Dev nD) (t : Fin cfg6.N) : (iblk6 V c 4 t : Vec Ideal S1x64 .f32) = (V c main_v143 : S1x64.Idx → EReal) := by
  obtain ⟨-, -, -, -, ⟨e0, e1⟩, -⟩ := idx_facts t
  funext j
  unfold iblk6
  rw [View.read_apply]
  show V c main_v143 _ = V c main_v143 _
  refine congrArg _ (funext fun a => Fin.ext ?_)
  match a with
  | ⟨0, _⟩ => show win6_4.index t (0 : Fin 2) * 1 + 1 * (j 0).val = (j 0).val; omega
  | ⟨1, _⟩ => show win6_4.index t (1 : Fin 2) * 64 + 1 * (j 1).val = (j 1).val; omega

/-- The layer of the whole arrays the launch finds. -/
abbrev whole (c : Dev nD) : S50000x64.Idx → EReal :=
  layer (V c main_v136 : S50000x64.Idx → EReal) (V c main_v124 : S50000x64.Idx → EReal) (V c main_v138 : S64x64.Idx → EReal)
    (V c main_v140 : S64x64.Idx → EReal) (V c main_v143 : S1x64.Idx → EReal)

/-- What point t writes back is block t of the layer of the whole arrays. -/
theorem flushed_eq (c : Dev nD) (t : Fin cfg6.N) :
    (dat6 V c).flushed 5 t = ((cfg6.win 5).blk t).view.read (Elt Ideal) (whole V c) := by
  show (cfg6.win 5).cut (grid6.coords t) ((dat6 V c).after 5 t) = _
  rw [after6_5]
  unfold out6_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg6.win 5).blk t).view.emb (ix2 p q) = (ix2 (⟨5000 * t.val + p.val, by omega⟩ : Fin 50000) q : S50000x64.Idx) :=
    funext fun a => Fin.ext (by
      match a with
      | ⟨0, _⟩ => show win6_5.index t (0 : Fin 2) * 5000 + 1 * p.val = 5000 * t.val + p.val; omega
      | ⟨1, _⟩ => show win6_5.index t (1 : Fin 2) * 64 + 1 * q.val = q.val; omega)
  show _ = layer (V c main_v136 : S50000x64.Idx → EReal) (V c main_v124 : S50000x64.Idx → EReal) (V c main_v138 : S64x64.Idx → EReal)
    (V c main_v140 : S64x64.Idx → EReal) (V c main_v143 : S1x64.Idx → EReal) (((cfg6.win 5).blk t).view.emb (ix2 p q))
  rw [hemb]
  refine (pay6_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg6.N, (cfg6.win 5).flush t = true ∧ i ∈ ((cfg6.win 5).blk t).view.set := by
  have hi0 : (i 0).val < 50000 := (i 0).isLt
  have hi1 : (i 1).val < 64 := (i 1).isLt
  have hN : grid6.N = 10 := N_6
  have ht0 : (i 0).val / 5000 < cfg6.N := by show (i 0).val / 5000 < grid6.N; omega
  obtain ⟨t, htv⟩ : ∃ t : Fin cfg6.N, t.val = (i 0).val / 5000 := ⟨⟨(i 0).val / 5000, ht0⟩, rfl⟩
  obtain ⟨-, -, -, -, -, ⟨e0, e1⟩, -⟩ := idx_facts t
  refine ⟨t, flush6_5 t, ?_⟩
  show i ∈ ((View.whole main_v144).slice (win6_5.rect t)).set
  rw [View.set_slice_whole, Rect.mem_set_unit]
  intro a
  match a with
  | ⟨0, _⟩ =>
    show win6_5.index t (0 : Fin 2) * 5000 ≤ (i 0).val ∧ (i 0).val < win6_5.index t (0 : Fin 2) * 5000 + 5000
    omega
  | ⟨1, _⟩ =>
    show win6_5.index t (1 : Fin 2) * 64 ≤ (i 1).val ∧ (i 1).val < win6_5.index t (1 : Fin 2) * 64 + 64
    omega

/-- The result array after the launch: the layer of the whole arrays it found. -/
theorem final (c : Dev nD) : (dat6 V c).arrAt 5 cfg6.N = whole V c :=
  (dat6 V c).arrAt_eq_of_cover 5 (whole V c) (fun t _ => flushed_eq V c t) (cover)

end Cert.KernelIdeal.Region6

end
-- ==== Proof.Region7.lean ====
/-
  Launch 7 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region7

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = 0 ∧ win7_2.index t (1 : Fin 2) = 0)
    ∧ (win7_3.index t (0 : Fin 2) = 0 ∧ win7_3.index t (1 : Fin 2) = 0)
    ∧ (win7_4.index t (0 : Fin 2) = 0 ∧ win7_4.index t (1 : Fin 2) = 0)
    ∧ (win7_5.index t (0 : Fin 2) = t.val ∧ win7_5.index t (1 : Fin 2) = 0)
    ∧ t.val < 10 :=
  (by decide +kernel : ∀ t : Fin grid7.N, _)

/-- Row p of the aggregated-message block at point t is row 5000 t + p of the array. -/
theorem rows_agg (c : Dev nD) (t : Fin cfg7.N) (p : Fin 5000) (r : Fin 50000) (hr : r.val = 5000 * t.val + p.val) :
    row (iblk7 V c 0 t : Vec Ideal S5000x64 .f32) p = row (V c main_v156 : S50000x64.Idx → EReal) r := by
  obtain ⟨⟨e0, e1⟩, -⟩ := idx_facts t
  funext k
  unfold row iblk7
  rw [View.read_apply]
  show V c main_v156 _ = V c main_v156 _
  refine congrArg _ (funext fun a => Fin.ext ?_)
  match a with
  | ⟨0, _⟩ => show win7_0.index t (0 : Fin 2) * 5000 + 1 * p.val = r.val; omega
  | ⟨1, _⟩ => show win7_0.index t (1 : Fin 2) * 64 + 1 * k.val = k.val; omega

/-- Row p of the feature block at point t is row 5000 t + p of the array. -/
theorem rows_x (c : Dev nD) (t : Fin cfg7.N) (p : Fin 5000) (r : Fin 50000) (hr : r.val = 5000 * t.val + p.val) :
    row (iblk7 V c 1 t : Vec Ideal S5000x64 .f32) p = row (V c main_v144 : S50000x64.Idx → EReal) r := by
  obtain ⟨-, ⟨e0, e1⟩, -⟩ := idx_facts t
  funext k
  unfold row iblk7
  rw [View.read_apply]
  show V c main_v144 _ = V c main_v144 _
  refine congrArg _ (funext fun a => Fin.ext ?_)
  match a with
  | ⟨0, _⟩ => show win7_1.index t (0 : Fin 2) * 5000 + 1 * p.val = r.val; omega
  | ⟨1, _⟩ => show win7_1.index t (1 : Fin 2) * 64 + 1 * k.val = k.val; omega

/-- The first weight half is fetched whole. -/
theorem whole_w1 (c : Dev nD) (t : Fin cfg7.N) : (iblk7 V c 2 t : Vec Ideal S64x64 .f32) = (V c main_v158 : S64x64.Idx → EReal) := by
  obtain ⟨-, -, ⟨e0, e1⟩, -⟩ := idx_facts t
  funext j
  unfold iblk7
  rw [View.read_apply]
  show V c main_v158 _ = V c main_v158 _
  refine congrArg _ (funext fun a => Fin.ext ?_)
  match a with
  | ⟨0, _⟩ => show win7_2.index t (0 : Fin 2) * 64 + 1 * (j 0).val = (j 0).val; omega
  | ⟨1, _⟩ => show win7_2.index t (1 : Fin 2) * 64 + 1 * (j 1).val = (j 1).val; omega

/-- The second weight half is fetched whole. -/
theorem whole_w2 (c : Dev nD) (t : Fin cfg7.N) : (iblk7 V c 3 t : Vec Ideal S64x64 .f32) = (V c main_v160 : S64x64.Idx → EReal) := by
  obtain ⟨-, -, -, ⟨e0, e1⟩, -⟩ := idx_facts t
  funext j
  unfold iblk7
  rw [View.read_apply]
  show V c main_v160 _ = V c main_v160 _
  refine congrArg _ (funext fun a => Fin.ext ?_)
  match a with
  | ⟨0, _⟩ => show win7_3.index t (0 : Fin 2) * 64 + 1 * (j 0).val = (j 0).val; omega
  | ⟨1, _⟩ => show win7_3.index t (1 : Fin 2) * 64 + 1 * (j 1).val = (j 1).val; omega

/-- The bias row is fetched whole. -/
theorem whole_b (c : Dev nD) (t : Fin cfg7.N) : (iblk7 V c 4 t : Vec Ideal S1x64 .f32) = (V c main_v163 : S1x64.Idx → EReal) := by
  obtain ⟨-, -, -, -, ⟨e0, e1⟩, -⟩ := idx_facts t
  funext j
  unfold iblk7
  rw [View.read_apply]
  show V c main_v163 _ = V c main_v163 _
  refine congrArg _ (funext fun a => Fin.ext ?_)
  match a with
  | ⟨0, _⟩ => show win7_4.index t (0 : Fin 2) * 1 + 1 * (j 0).val = (j 0).val; omega
  | ⟨1, _⟩ => show win7_4.index t (1 : Fin 2) * 64 + 1 * (j 1).val = (j 1).val; omega

/-- The layer of the whole arrays the launch finds. -/
abbrev whole (c : Dev nD) : S50000x64.Idx → EReal :=
  layer (V c main_v156 : S50000x64.Idx → EReal) (V c main_v144 : S50000x64.Idx → EReal) (V c main_v158 : S64x64.Idx → EReal)
    (V c main_v160 : S64x64.Idx → EReal) (V c main_v163 : S1x64.Idx → EReal)

/-- What point t writes back is block t of the layer of the whole arrays. -/
theorem flushed_eq (c : Dev nD) (t : Fin cfg7.N) :
    (dat7 V c).flushed 5 t = ((cfg7.win 5).blk t).view.read (Elt Ideal) (whole V c) := by
  show (cfg7.win 5).cut (grid7.coords t) ((dat7 V c).after 5 t) = _
  rw [after7_5]
  unfold out7_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg7.win 5).blk t).view.emb (ix2 p q) = (ix2 (⟨5000 * t.val + p.val, by omega⟩ : Fin 50000) q : S50000x64.Idx) :=
    funext fun a => Fin.ext (by
      match a with
      | ⟨0, _⟩ => show win7_5.index t (0 : Fin 2) * 5000 + 1 * p.val = 5000 * t.val + p.val; omega
      | ⟨1, _⟩ => show win7_5.index t (1 : Fin 2) * 64 + 1 * q.val = q.val; omega)
  show _ = layer (V c main_v156 : S50000x64.Idx → EReal) (V c main_v144 : S50000x64.Idx → EReal) (V c main_v158 : S64x64.Idx → EReal)
    (V c main_v160 : S64x64.Idx → EReal) (V c main_v163 : S1x64.Idx → EReal) (((cfg7.win 5).blk t).view.emb (ix2 p q))
  rw [hemb]
  refine (pay7_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg7.N, (cfg7.win 5).flush t = true ∧ i ∈ ((cfg7.win 5).blk t).view.set := by
  have hi0 : (i 0).val < 50000 := (i 0).isLt
  have hi1 : (i 1).val < 64 := (i 1).isLt
  have hN : grid7.N = 10 := N_7
  have ht0 : (i 0).val / 5000 < cfg7.N := by show (i 0).val / 5000 < grid7.N; omega
  obtain ⟨t, htv⟩ : ∃ t : Fin cfg7.N, t.val = (i 0).val / 5000 := ⟨⟨(i 0).val / 5000, ht0⟩, rfl⟩
  obtain ⟨-, -, -, -, -, ⟨e0, e1⟩, -⟩ := idx_facts t
  refine ⟨t, flush7_5 t, ?_⟩
  show i ∈ ((View.whole main_v164).slice (win7_5.rect t)).set
  rw [View.set_slice_whole, Rect.mem_set_unit]
  intro a
  match a with
  | ⟨0, _⟩ =>
    show win7_5.index t (0 : Fin 2) * 5000 ≤ (i 0).val ∧ (i 0).val < win7_5.index t (0 : Fin 2) * 5000 + 5000
    omega
  | ⟨1, _⟩ =>
    show win7_5.index t (1 : Fin 2) * 64 ≤ (i 1).val ∧ (i 1).val < win7_5.index t (1 : Fin 2) * 64 + 64
    omega

/-- The result array after the launch: the layer of the whole arrays it found. -/
theorem final (c : Dev nD) : (dat7 V c).arrAt 5 cfg7.N = whole V c :=
  (dat7 V c).arrAt_eq_of_cover 5 (whole V c) (fun t _ => flushed_eq V c t) (cover)

end Cert.KernelIdeal.Region7

end
-- ==== Proof.Region8.lean ====
/-
  Launch 8 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region8

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = t.val ∧ win8_5.index t (1 : Fin 2) = 0)
    ∧ t.val < 10 :=
  (by decide +kernel : ∀ t : Fin grid8.N, _)

/-- Row p of the aggregated-message block at point t is row 5000 t + p of the array. -/
theorem rows_agg (c : Dev nD) (t : Fin cfg8.N) (p : Fin 5000) (r : Fin 50000) (hr : r.val = 5000 * t.val + p.val) :
    row (iblk8 V c 0 t : Vec Ideal S5000x64 .f32) p = row (V c main_v176 : S50000x64.Idx → EReal) r := by
  obtain ⟨⟨e0, e1⟩, -⟩ := idx_facts t
  funext k
  unfold row iblk8
  rw [View.read_apply]
  show V c main_v176 _ = V c main_v176 _
  refine congrArg _ (funext fun a => Fin.ext ?_)
  match a with
  | ⟨0, _⟩ => show win8_0.index t (0 : Fin 2) * 5000 + 1 * p.val = r.val; omega
  | ⟨1, _⟩ => show win8_0.index t (1 : Fin 2) * 64 + 1 * k.val = k.val; omega

/-- Row p of the feature block at point t is row 5000 t + p of the array. -/
theorem rows_x (c : Dev nD) (t : Fin cfg8.N) (p : Fin 5000) (r : Fin 50000) (hr : r.val = 5000 * t.val + p.val) :
    row (iblk8 V c 1 t : Vec Ideal S5000x64 .f32) p = row (V c main_v164 : S50000x64.Idx → EReal) r := by
  obtain ⟨-, ⟨e0, e1⟩, -⟩ := idx_facts t
  funext k
  unfold row iblk8
  rw [View.read_apply]
  show V c main_v164 _ = V c main_v164 _
  refine congrArg _ (funext fun a => Fin.ext ?_)
  match a with
  | ⟨0, _⟩ => show win8_1.index t (0 : Fin 2) * 5000 + 1 * p.val = r.val; omega
  | ⟨1, _⟩ => show win8_1.index t (1 : Fin 2) * 64 + 1 * k.val = k.val; omega

/-- The first weight half is fetched whole. -/
theorem whole_w1 (c : Dev nD) (t : Fin cfg8.N) : (iblk8 V c 2 t : Vec Ideal S64x64 .f32) = (V c main_v178 : S64x64.Idx → EReal) := by
  obtain ⟨-, -, ⟨e0, e1⟩, -⟩ := idx_facts t
  funext j
  unfold iblk8
  rw [View.read_apply]
  show V c main_v178 _ = V c main_v178 _
  refine congrArg _ (funext fun a => Fin.ext ?_)
  match a with
  | ⟨0, _⟩ => show win8_2.index t (0 : Fin 2) * 64 + 1 * (j 0).val = (j 0).val; omega
  | ⟨1, _⟩ => show win8_2.index t (1 : Fin 2) * 64 + 1 * (j 1).val = (j 1).val; omega

/-- The second weight half is fetched whole. -/
theorem whole_w2 (c : Dev nD) (t : Fin cfg8.N) : (iblk8 V c 3 t : Vec Ideal S64x64 .f32) = (V c main_v180 : S64x64.Idx → EReal) := by
  obtain ⟨-, -, -, ⟨e0, e1⟩, -⟩ := idx_facts t
  funext j
  unfold iblk8
  rw [View.read_apply]
  show V c main_v180 _ = V c main_v180 _
  refine congrArg _ (funext fun a => Fin.ext ?_)
  match a with
  | ⟨0, _⟩ => show win8_3.index t (0 : Fin 2) * 64 + 1 * (j 0).val = (j 0).val; omega
  | ⟨1, _⟩ => show win8_3.index t (1 : Fin 2) * 64 + 1 * (j 1).val = (j 1).val; omega

/-- The bias row is fetched whole. -/
theorem whole_b (c : Dev nD) (t : Fin cfg8.N) : (iblk8 V c 4 t : Vec Ideal S1x64 .f32) = (V c main_v183 : S1x64.Idx → EReal) := by
  obtain ⟨-, -, -, -, ⟨e0, e1⟩, -⟩ := idx_facts t
  funext j
  unfold iblk8
  rw [View.read_apply]
  show V c main_v183 _ = V c main_v183 _
  refine congrArg _ (funext fun a => Fin.ext ?_)
  match a with
  | ⟨0, _⟩ => show win8_4.index t (0 : Fin 2) * 1 + 1 * (j 0).val = (j 0).val; omega
  | ⟨1, _⟩ => show win8_4.index t (1 : Fin 2) * 64 + 1 * (j 1).val = (j 1).val; omega

/-- The layer of the whole arrays the launch finds. -/
abbrev whole (c : Dev nD) : S50000x64.Idx → EReal :=
  layer (V c main_v176 : S50000x64.Idx → EReal) (V c main_v164 : S50000x64.Idx → EReal) (V c main_v178 : S64x64.Idx → EReal)
    (V c main_v180 : S64x64.Idx → EReal) (V c main_v183 : S1x64.Idx → EReal)

/-- What point t writes back is block t of the layer of the whole arrays. -/
theorem flushed_eq (c : Dev nD) (t : Fin cfg8.N) :
    (dat8 V c).flushed 5 t = ((cfg8.win 5).blk t).view.read (Elt Ideal) (whole V c) := by
  show (cfg8.win 5).cut (grid8.coords t) ((dat8 V c).after 5 t) = _
  rw [after8_5]
  unfold out8_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg8.win 5).blk t).view.emb (ix2 p q) = (ix2 (⟨5000 * t.val + p.val, by omega⟩ : Fin 50000) q : S50000x64.Idx) :=
    funext fun a => Fin.ext (by
      match a with
      | ⟨0, _⟩ => show win8_5.index t (0 : Fin 2) * 5000 + 1 * p.val = 5000 * t.val + p.val; omega
      | ⟨1, _⟩ => show win8_5.index t (1 : Fin 2) * 64 + 1 * q.val = q.val; omega)
  show _ = layer (V c main_v176 : S50000x64.Idx → EReal) (V c main_v164 : S50000x64.Idx → EReal) (V c main_v178 : S64x64.Idx → EReal)
    (V c main_v180 : S64x64.Idx → EReal) (V c main_v183 : S1x64.Idx → EReal) (((cfg8.win 5).blk t).view.emb (ix2 p q))
  rw [hemb]
  refine (pay8_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg8.N, (cfg8.win 5).flush t = true ∧ i ∈ ((cfg8.win 5).blk t).view.set := by
  have hi0 : (i 0).val < 50000 := (i 0).isLt
  have hi1 : (i 1).val < 64 := (i 1).isLt
  have hN : grid8.N = 10 := N_8
  have ht0 : (i 0).val / 5000 < cfg8.N := by show (i 0).val / 5000 < grid8.N; omega
  obtain ⟨t, htv⟩ : ∃ t : Fin cfg8.N, t.val = (i 0).val / 5000 := ⟨⟨(i 0).val / 5000, ht0⟩, rfl⟩
  obtain ⟨-, -, -, -, -, ⟨e0, e1⟩, -⟩ := idx_facts t
  refine ⟨t, flush8_5 t, ?_⟩
  show i ∈ ((View.whole main_v184).slice (win8_5.rect t)).set
  rw [View.set_slice_whole, Rect.mem_set_unit]
  intro a
  match a with
  | ⟨0, _⟩ =>
    show win8_5.index t (0 : Fin 2) * 5000 ≤ (i 0).val ∧ (i 0).val < win8_5.index t (0 : Fin 2) * 5000 + 5000
    omega
  | ⟨1, _⟩ =>
    show win8_5.index t (1 : Fin 2) * 64 ≤ (i 1).val ∧ (i 1).val < win8_5.index t (1 : Fin 2) * 64 + 64
    omega

/-- The result array after the launch: the layer of the whole arrays it found. -/
theorem final (c : Dev nD) : (dat8 V c).arrAt 5 cfg8.N = whole V c :=
  (dat8 V c).arrAt_eq_of_cover 5 (whole V c) (fun t _ => flushed_eq V c t) (cover)

end Cert.KernelIdeal.Region8

end
-- ==== Proof.Region9.lean ====
/-
  Launch 9 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region9

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg9.N,
    (win9_0.index t (0 : Fin 2) = t.val ∧ win9_0.index t (1 : Fin 2) = 0)
    ∧ (win9_1.index t (0 : Fin 2) = t.val ∧ win9_1.index t (1 : Fin 2) = 0)
    ∧ (win9_2.index t (0 : Fin 2) = 0 ∧ win9_2.index t (1 : Fin 2) = 0)
    ∧ (win9_3.index t (0 : Fin 2) = 0 ∧ win9_3.index t (1 : Fin 2) = 0)
    ∧ (win9_4.index t (0 : Fin 2) = 0 ∧ win9_4.index t (1 : Fin 2) = 0)
    ∧ (win9_5.index t (0 : Fin 2) = t.val ∧ win9_5.index t (1 : Fin 2) = 0)
    ∧ t.val < 10 :=
  (by decide +kernel : ∀ t : Fin grid9.N, _)

/-- Row p of the aggregated-message block at point t is row 5000 t + p of the array. -/
theorem rows_agg (c : Dev nD) (t : Fin cfg9.N) (p : Fin 5000) (r : Fin 50000) (hr : r.val = 5000 * t.val + p.val) :
    row (iblk9 V c 0 t : Vec Ideal S5000x64 .f32) p = row (V c main_v196 : S50000x64.Idx → EReal) r := by
  obtain ⟨⟨e0, e1⟩, -⟩ := idx_facts t
  funext k
  unfold row iblk9
  rw [View.read_apply]
  show V c main_v196 _ = V c main_v196 _
  refine congrArg _ (funext fun a => Fin.ext ?_)
  match a with
  | ⟨0, _⟩ => show win9_0.index t (0 : Fin 2) * 5000 + 1 * p.val = r.val; omega
  | ⟨1, _⟩ => show win9_0.index t (1 : Fin 2) * 64 + 1 * k.val = k.val; omega

/-- Row p of the feature block at point t is row 5000 t + p of the array. -/
theorem rows_x (c : Dev nD) (t : Fin cfg9.N) (p : Fin 5000) (r : Fin 50000) (hr : r.val = 5000 * t.val + p.val) :
    row (iblk9 V c 1 t : Vec Ideal S5000x64 .f32) p = row (V c main_v184 : S50000x64.Idx → EReal) r := by
  obtain ⟨-, ⟨e0, e1⟩, -⟩ := idx_facts t
  funext k
  unfold row iblk9
  rw [View.read_apply]
  show V c main_v184 _ = V c main_v184 _
  refine congrArg _ (funext fun a => Fin.ext ?_)
  match a with
  | ⟨0, _⟩ => show win9_1.index t (0 : Fin 2) * 5000 + 1 * p.val = r.val; omega
  | ⟨1, _⟩ => show win9_1.index t (1 : Fin 2) * 64 + 1 * k.val = k.val; omega

/-- The first weight half is fetched whole. -/
theorem whole_w1 (c : Dev nD) (t : Fin cfg9.N) : (iblk9 V c 2 t : Vec Ideal S64x64 .f32) = (V c main_v198 : S64x64.Idx → EReal) := by
  obtain ⟨-, -, ⟨e0, e1⟩, -⟩ := idx_facts t
  funext j
  unfold iblk9
  rw [View.read_apply]
  show V c main_v198 _ = V c main_v198 _
  refine congrArg _ (funext fun a => Fin.ext ?_)
  match a with
  | ⟨0, _⟩ => show win9_2.index t (0 : Fin 2) * 64 + 1 * (j 0).val = (j 0).val; omega
  | ⟨1, _⟩ => show win9_2.index t (1 : Fin 2) * 64 + 1 * (j 1).val = (j 1).val; omega

/-- The second weight half is fetched whole. -/
theorem whole_w2 (c : Dev nD) (t : Fin cfg9.N) : (iblk9 V c 3 t : Vec Ideal S64x64 .f32) = (V c main_v200 : S64x64.Idx → EReal) := by
  obtain ⟨-, -, -, ⟨e0, e1⟩, -⟩ := idx_facts t
  funext j
  unfold iblk9
  rw [View.read_apply]
  show V c main_v200 _ = V c main_v200 _
  refine congrArg _ (funext fun a => Fin.ext ?_)
  match a with
  | ⟨0, _⟩ => show win9_3.index t (0 : Fin 2) * 64 + 1 * (j 0).val = (j 0).val; omega
  | ⟨1, _⟩ => show win9_3.index t (1 : Fin 2) * 64 + 1 * (j 1).val = (j 1).val; omega

/-- The bias row is fetched whole. -/
theorem whole_b (c : Dev nD) (t : Fin cfg9.N) : (iblk9 V c 4 t : Vec Ideal S1x64 .f32) = (V c main_v203 : S1x64.Idx → EReal) := by
  obtain ⟨-, -, -, -, ⟨e0, e1⟩, -⟩ := idx_facts t
  funext j
  unfold iblk9
  rw [View.read_apply]
  show V c main_v203 _ = V c main_v203 _
  refine congrArg _ (funext fun a => Fin.ext ?_)
  match a with
  | ⟨0, _⟩ => show win9_4.index t (0 : Fin 2) * 1 + 1 * (j 0).val = (j 0).val; omega
  | ⟨1, _⟩ => show win9_4.index t (1 : Fin 2) * 64 + 1 * (j 1).val = (j 1).val; omega

/-- The layer of the whole arrays the launch finds. -/
abbrev whole (c : Dev nD) : S50000x64.Idx → EReal :=
  layer (V c main_v196 : S50000x64.Idx → EReal) (V c main_v184 : S50000x64.Idx → EReal) (V c main_v198 : S64x64.Idx → EReal)
    (V c main_v200 : S64x64.Idx → EReal) (V c main_v203 : S1x64.Idx → EReal)

/-- What point t writes back is block t of the layer of the whole arrays. -/
theorem flushed_eq (c : Dev nD) (t : Fin cfg9.N) :
    (dat9 V c).flushed 5 t = ((cfg9.win 5).blk t).view.read (Elt Ideal) (whole V c) := by
  show (cfg9.win 5).cut (grid9.coords t) ((dat9 V c).after 5 t) = _
  rw [after9_5]
  unfold out9_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg9.win 5).blk t).view.emb (ix2 p q) = (ix2 (⟨5000 * t.val + p.val, by omega⟩ : Fin 50000) q : S50000x64.Idx) :=
    funext fun a => Fin.ext (by
      match a with
      | ⟨0, _⟩ => show win9_5.index t (0 : Fin 2) * 5000 + 1 * p.val = 5000 * t.val + p.val; omega
      | ⟨1, _⟩ => show win9_5.index t (1 : Fin 2) * 64 + 1 * q.val = q.val; omega)
  show _ = layer (V c main_v196 : S50000x64.Idx → EReal) (V c main_v184 : S50000x64.Idx → EReal) (V c main_v198 : S64x64.Idx → EReal)
    (V c main_v200 : S64x64.Idx → EReal) (V c main_v203 : S1x64.Idx → EReal) (((cfg9.win 5).blk t).view.emb (ix2 p q))
  rw [hemb]
  refine (pay9_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg9.N, (cfg9.win 5).flush t = true ∧ i ∈ ((cfg9.win 5).blk t).view.set := by
  have hi0 : (i 0).val < 50000 := (i 0).isLt
  have hi1 : (i 1).val < 64 := (i 1).isLt
  have hN : grid9.N = 10 := N_9
  have ht0 : (i 0).val / 5000 < cfg9.N := by show (i 0).val / 5000 < grid9.N; omega
  obtain ⟨t, htv⟩ : ∃ t : Fin cfg9.N, t.val = (i 0).val / 5000 := ⟨⟨(i 0).val / 5000, ht0⟩, rfl⟩
  obtain ⟨-, -, -, -, -, ⟨e0, e1⟩, -⟩ := idx_facts t
  refine ⟨t, flush9_5 t, ?_⟩
  show i ∈ ((View.whole main_v204).slice (win9_5.rect t)).set
  rw [View.set_slice_whole, Rect.mem_set_unit]
  intro a
  match a with
  | ⟨0, _⟩ =>
    show win9_5.index t (0 : Fin 2) * 5000 ≤ (i 0).val ∧ (i 0).val < win9_5.index t (0 : Fin 2) * 5000 + 5000
    omega
  | ⟨1, _⟩ =>
    show win9_5.index t (1 : Fin 2) * 64 ≤ (i 1).val ∧ (i 1).val < win9_5.index t (1 : Fin 2) * 64 + 64
    omega

/-- The result array after the launch: the layer of the whole arrays it found. -/
theorem final (c : Dev nD) : (dat9 V c).arrAt 5 cfg9.N = whole V c :=
  (dat9 V c).arrAt_eq_of_cover 5 (whole V c) (fun t _ => flushed_eq V c t) (cover)

end Cert.KernelIdeal.Region9

end
-- ==== Proof.Region10.lean ====
/-
  Launch 10 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region10

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg10.N,
    (win10_0.index t (0 : Fin 2) = t.val ∧ win10_0.index t (1 : Fin 2) = 0)
    ∧ (win10_1.index t (0 : Fin 2) = t.val ∧ win10_1.index t (1 : Fin 2) = 0)
    ∧ (win10_2.index t (0 : Fin 2) = 0 ∧ win10_2.index t (1 : Fin 2) = 0)
    ∧ (win10_3.index t (0 : Fin 2) = 0 ∧ win10_3.index t (1 : Fin 2) = 0)
    ∧ (win10_4.index t (0 : Fin 2) = 0 ∧ win10_4.index t (1 : Fin 2) = 0)
    ∧ (win10_5.index t (0 : Fin 2) = t.val ∧ win10_5.index t (1 : Fin 2) = 0)
    ∧ t.val < 10 :=
  (by decide +kernel : ∀ t : Fin grid10.N, _)

/-- Row p of the aggregated-message block at point t is row 5000 t + p of the array. -/
theorem rows_agg (c : Dev nD) (t : Fin cfg10.N) (p : Fin 5000) (r : Fin 50000) (hr : r.val = 5000 * t.val + p.val) :
    row (iblk10 V c 0 t : Vec Ideal S5000x64 .f32) p = row (V c main_v216 : S50000x64.Idx → EReal) r := by
  obtain ⟨⟨e0, e1⟩, -⟩ := idx_facts t
  funext k
  unfold row iblk10
  rw [View.read_apply]
  show V c main_v216 _ = V c main_v216 _
  refine congrArg _ (funext fun a => Fin.ext ?_)
  match a with
  | ⟨0, _⟩ => show win10_0.index t (0 : Fin 2) * 5000 + 1 * p.val = r.val; omega
  | ⟨1, _⟩ => show win10_0.index t (1 : Fin 2) * 64 + 1 * k.val = k.val; omega

/-- Row p of the feature block at point t is row 5000 t + p of the array. -/
theorem rows_x (c : Dev nD) (t : Fin cfg10.N) (p : Fin 5000) (r : Fin 50000) (hr : r.val = 5000 * t.val + p.val) :
    row (iblk10 V c 1 t : Vec Ideal S5000x64 .f32) p = row (V c main_v204 : S50000x64.Idx → EReal) r := by
  obtain ⟨-, ⟨e0, e1⟩, -⟩ := idx_facts t
  funext k
  unfold row iblk10
  rw [View.read_apply]
  show V c main_v204 _ = V c main_v204 _
  refine congrArg _ (funext fun a => Fin.ext ?_)
  match a with
  | ⟨0, _⟩ => show win10_1.index t (0 : Fin 2) * 5000 + 1 * p.val = r.val; omega
  | ⟨1, _⟩ => show win10_1.index t (1 : Fin 2) * 64 + 1 * k.val = k.val; omega

/-- The first weight half is fetched whole. -/
theorem whole_w1 (c : Dev nD) (t : Fin cfg10.N) : (iblk10 V c 2 t : Vec Ideal S64x64 .f32) = (V c main_v218 : S64x64.Idx → EReal) := by
  obtain ⟨-, -, ⟨e0, e1⟩, -⟩ := idx_facts t
  funext j
  unfold iblk10
  rw [View.read_apply]
  show V c main_v218 _ = V c main_v218 _
  refine congrArg _ (funext fun a => Fin.ext ?_)
  match a with
  | ⟨0, _⟩ => show win10_2.index t (0 : Fin 2) * 64 + 1 * (j 0).val = (j 0).val; omega
  | ⟨1, _⟩ => show win10_2.index t (1 : Fin 2) * 64 + 1 * (j 1).val = (j 1).val; omega

/-- The second weight half is fetched whole. -/
theorem whole_w2 (c : Dev nD) (t : Fin cfg10.N) : (iblk10 V c 3 t : Vec Ideal S64x64 .f32) = (V c main_v220 : S64x64.Idx → EReal) := by
  obtain ⟨-, -, -, ⟨e0, e1⟩, -⟩ := idx_facts t
  funext j
  unfold iblk10
  rw [View.read_apply]
  show V c main_v220 _ = V c main_v220 _
  refine congrArg _ (funext fun a => Fin.ext ?_)
  match a with
  | ⟨0, _⟩ => show win10_3.index t (0 : Fin 2) * 64 + 1 * (j 0).val = (j 0).val; omega
  | ⟨1, _⟩ => show win10_3.index t (1 : Fin 2) * 64 + 1 * (j 1).val = (j 1).val; omega

/-- The bias row is fetched whole. -/
theorem whole_b (c : Dev nD) (t : Fin cfg10.N) : (iblk10 V c 4 t : Vec Ideal S1x64 .f32) = (V c main_v223 : S1x64.Idx → EReal) := by
  obtain ⟨-, -, -, -, ⟨e0, e1⟩, -⟩ := idx_facts t
  funext j
  unfold iblk10
  rw [View.read_apply]
  show V c main_v223 _ = V c main_v223 _
  refine congrArg _ (funext fun a => Fin.ext ?_)
  match a with
  | ⟨0, _⟩ => show win10_4.index t (0 : Fin 2) * 1 + 1 * (j 0).val = (j 0).val; omega
  | ⟨1, _⟩ => show win10_4.index t (1 : Fin 2) * 64 + 1 * (j 1).val = (j 1).val; omega

/-- The layer of the whole arrays the launch finds. -/
abbrev whole (c : Dev nD) : S50000x64.Idx → EReal :=
  layer (V c main_v216 : S50000x64.Idx → EReal) (V c main_v204 : S50000x64.Idx → EReal) (V c main_v218 : S64x64.Idx → EReal)
    (V c main_v220 : S64x64.Idx → EReal) (V c main_v223 : S1x64.Idx → EReal)

/-- What point t writes back is block t of the layer of the whole arrays. -/
theorem flushed_eq (c : Dev nD) (t : Fin cfg10.N) :
    (dat10 V c).flushed 5 t = ((cfg10.win 5).blk t).view.read (Elt Ideal) (whole V c) := by
  show (cfg10.win 5).cut (grid10.coords t) ((dat10 V c).after 5 t) = _
  rw [after10_5]
  unfold out10_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg10.win 5).blk t).view.emb (ix2 p q) = (ix2 (⟨5000 * t.val + p.val, by omega⟩ : Fin 50000) q : S50000x64.Idx) :=
    funext fun a => Fin.ext (by
      match a with
      | ⟨0, _⟩ => show win10_5.index t (0 : Fin 2) * 5000 + 1 * p.val = 5000 * t.val + p.val; omega
      | ⟨1, _⟩ => show win10_5.index t (1 : Fin 2) * 64 + 1 * q.val = q.val; omega)
  show _ = layer (V c main_v216 : S50000x64.Idx → EReal) (V c main_v204 : S50000x64.Idx → EReal) (V c main_v218 : S64x64.Idx → EReal)
    (V c main_v220 : S64x64.Idx → EReal) (V c main_v223 : S1x64.Idx → EReal) (((cfg10.win 5).blk t).view.emb (ix2 p q))
  rw [hemb]
  refine (pay10_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg10.N, (cfg10.win 5).flush t = true ∧ i ∈ ((cfg10.win 5).blk t).view.set := by
  have hi0 : (i 0).val < 50000 := (i 0).isLt
  have hi1 : (i 1).val < 64 := (i 1).isLt
  have hN : grid10.N = 10 := N_10
  have ht0 : (i 0).val / 5000 < cfg10.N := by show (i 0).val / 5000 < grid10.N; omega
  obtain ⟨t, htv⟩ : ∃ t : Fin cfg10.N, t.val = (i 0).val / 5000 := ⟨⟨(i 0).val / 5000, ht0⟩, rfl⟩
  obtain ⟨-, -, -, -, -, ⟨e0, e1⟩, -⟩ := idx_facts t
  refine ⟨t, flush10_5 t, ?_⟩
  show i ∈ ((View.whole main_v224).slice (win10_5.rect t)).set
  rw [View.set_slice_whole, Rect.mem_set_unit]
  intro a
  match a with
  | ⟨0, _⟩ =>
    show win10_5.index t (0 : Fin 2) * 5000 ≤ (i 0).val ∧ (i 0).val < win10_5.index t (0 : Fin 2) * 5000 + 5000
    omega
  | ⟨1, _⟩ =>
    show win10_5.index t (1 : Fin 2) * 64 ≤ (i 1).val ∧ (i 1).val < win10_5.index t (1 : Fin 2) * 64 + 64
    omega

/-- The result array after the launch: the layer of the whole arrays it found. -/
theorem final (c : Dev nD) : (dat10 V c).arrAt 5 cfg10.N = whole V c :=
  (dat10 V c).arrAt_eq_of_cover 5 (whole V c) (fun t _ => flushed_eq V c t) (cover)

end Cert.KernelIdeal.Region10

end
-- ==== Proof.Region11.lean ====
/-
  Launch 11 of the layer kernel, read as one function of the arrays it finds. The grid has ten points; point t
  fetches rows 5000 t … 5000 t + 4999 of the aggregated messages and of the node features, the two weight halves and
  the bias row whole, and writes back the same rows of the result. A block of the layer is the layer of the block
  (each output row reads its own input row only), so what point t writes back is block t of the layer of the whole
  arrays; the ten blocks tile the result array, which therefore ends at the layer of the whole arrays.
-/
import proofs.«122515_j23313082483149_1_alg».proof.Proof.Gen.KernelIdeal.Frame
import proofs.«122515_j23313082483149_1_alg».proof.Proof.RowLayer
import proofs.«122515_j23313082483149_1_alg».proof.Proof.BodyAt
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region11

open Cert.KernelIdeal Cert.KernelIdeal.Gen Cert.KernelIdeal.BodyAt Cert.Gnn Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row windows sit at block (t, 0), the three whole windows at (0, 0). -/
theorem idx_facts : ∀ t : Fin cfg11.N,
    (win11_0.index t (0 : Fin 2) = t.val ∧ win11_0.index t (1 : Fin 2) = 0)
    ∧ (win11_1.index t (0 : Fin 2) = t.val ∧ win11_1.index t (1 : Fin 2) = 0)
    ∧ (win11_2.index t (0 : Fin 2) = 0 ∧ win11_2.index t (1 : Fin 2) = 0)
    ∧ (win11_3.index t (0 : Fin 2) = 0 ∧ win11_3.index t (1 : Fin 2) = 0)
    ∧ (win11_4.index t (0 : Fin 2) = 0 ∧ win11_4.index t (1 : Fin 2) = 0)
    ∧ (win11_5.index t (0 : Fin 2) = t.val ∧ win11_5.index t (1 : Fin 2) = 0)
    ∧ t.val < 10 :=
  (by decide +kernel : ∀ t : Fin grid11.N, _)

/-- Row p of the aggregated-message block at point t is row 5000 t + p of the array. -/
theorem rows_agg (c : Dev nD) (t : Fin cfg11.N) (p : Fin 5000) (r : Fin 50000) (hr : r.val = 5000 * t.val + p.val) :
    row (iblk11 V c 0 t : Vec Ideal S5000x64 .f32) p = row (V c main_v236 : S50000x64.Idx → EReal) r := by
  obtain ⟨⟨e0, e1⟩, -⟩ := idx_facts t
  funext k
  unfold row iblk11
  rw [View.read_apply]
  show V c main_v236 _ = V c main_v236 _
  refine congrArg _ (funext fun a => Fin.ext ?_)
  match a with
  | ⟨0, _⟩ => show win11_0.index t (0 : Fin 2) * 5000 + 1 * p.val = r.val; omega
  | ⟨1, _⟩ => show win11_0.index t (1 : Fin 2) * 64 + 1 * k.val = k.val; omega

/-- Row p of the feature block at point t is row 5000 t + p of the array. -/
theorem rows_x (c : Dev nD) (t : Fin cfg11.N) (p : Fin 5000) (r : Fin 50000) (hr : r.val = 5000 * t.val + p.val) :
    row (iblk11 V c 1 t : Vec Ideal S5000x64 .f32) p = row (V c main_v224 : S50000x64.Idx → EReal) r := by
  obtain ⟨-, ⟨e0, e1⟩, -⟩ := idx_facts t
  funext k
  unfold row iblk11
  rw [View.read_apply]
  show V c main_v224 _ = V c main_v224 _
  refine congrArg _ (funext fun a => Fin.ext ?_)
  match a with
  | ⟨0, _⟩ => show win11_1.index t (0 : Fin 2) * 5000 + 1 * p.val = r.val; omega
  | ⟨1, _⟩ => show win11_1.index t (1 : Fin 2) * 64 + 1 * k.val = k.val; omega

/-- The first weight half is fetched whole. -/
theorem whole_w1 (c : Dev nD) (t : Fin cfg11.N) : (iblk11 V c 2 t : Vec Ideal S64x64 .f32) = (V c main_v238 : S64x64.Idx → EReal) := by
  obtain ⟨-, -, ⟨e0, e1⟩, -⟩ := idx_facts t
  funext j
  unfold iblk11
  rw [View.read_apply]
  show V c main_v238 _ = V c main_v238 _
  refine congrArg _ (funext fun a => Fin.ext ?_)
  match a with
  | ⟨0, _⟩ => show win11_2.index t (0 : Fin 2) * 64 + 1 * (j 0).val = (j 0).val; omega
  | ⟨1, _⟩ => show win11_2.index t (1 : Fin 2) * 64 + 1 * (j 1).val = (j 1).val; omega

/-- The second weight half is fetched whole. -/
theorem whole_w2 (c : Dev nD) (t : Fin cfg11.N) : (iblk11 V c 3 t : Vec Ideal S64x64 .f32) = (V c main_v240 : S64x64.Idx → EReal) := by
  obtain ⟨-, -, -, ⟨e0, e1⟩, -⟩ := idx_facts t
  funext j
  unfold iblk11
  rw [View.read_apply]
  show V c main_v240 _ = V c main_v240 _
  refine congrArg _ (funext fun a => Fin.ext ?_)
  match a with
  | ⟨0, _⟩ => show win11_3.index t (0 : Fin 2) * 64 + 1 * (j 0).val = (j 0).val; omega
  | ⟨1, _⟩ => show win11_3.index t (1 : Fin 2) * 64 + 1 * (j 1).val = (j 1).val; omega

/-- The bias row is fetched whole. -/
theorem whole_b (c : Dev nD) (t : Fin cfg11.N) : (iblk11 V c 4 t : Vec Ideal S1x64 .f32) = (V c main_v243 : S1x64.Idx → EReal) := by
  obtain ⟨-, -, -, -, ⟨e0, e1⟩, -⟩ := idx_facts t
  funext j
  unfold iblk11
  rw [View.read_apply]
  show V c main_v243 _ = V c main_v243 _
  refine congrArg _ (funext fun a => Fin.ext ?_)
  match a with
  | ⟨0, _⟩ => show win11_4.index t (0 : Fin 2) * 1 + 1 * (j 0).val = (j 0).val; omega
  | ⟨1, _⟩ => show win11_4.index t (1 : Fin 2) * 64 + 1 * (j 1).val = (j 1).val; omega

/-- The layer of the whole arrays the launch finds. -/
abbrev whole (c : Dev nD) : S50000x64.Idx → EReal :=
  layer (V c main_v236 : S50000x64.Idx → EReal) (V c main_v224 : S50000x64.Idx → EReal) (V c main_v238 : S64x64.Idx → EReal)
    (V c main_v240 : S64x64.Idx → EReal) (V c main_v243 : S1x64.Idx → EReal)

/-- What point t writes back is block t of the layer of the whole arrays. -/
theorem flushed_eq (c : Dev nD) (t : Fin cfg11.N) :
    (dat11 V c).flushed 5 t = ((cfg11.win 5).blk t).view.read (Elt Ideal) (whole V c) := by
  show (cfg11.win 5).cut (grid11.coords t) ((dat11 V c).after 5 t) = _
  rw [after11_5]
  unfold out11_5
  rw [View.canon_unit_zero hz]
  simp only [View.ld_unit_zero (S := S5000x64) hz, View.ld_unit_zero (S := S64x64) hz, View.ld_unit_zero (S := S1x64) hz]
  obtain ⟨-, -, -, -, -, ⟨e0, e1⟩, ht⟩ := idx_facts t
  funext j
  obtain ⟨p, q, rfl⟩ : ∃ (p : Fin 5000) (q : Fin 64), j = ix2 p q := ⟨j 0, j 1, eq_ix2 j⟩
  rw [View.read_apply]
  have hemb : ((cfg11.win 5).blk t).view.emb (ix2 p q) = (ix2 (⟨5000 * t.val + p.val, by omega⟩ : Fin 50000) q : S50000x64.Idx) :=
    funext fun a => Fin.ext (by
      match a with
      | ⟨0, _⟩ => show win11_5.index t (0 : Fin 2) * 5000 + 1 * p.val = 5000 * t.val + p.val; omega
      | ⟨1, _⟩ => show win11_5.index t (1 : Fin 2) * 64 + 1 * q.val = q.val; omega)
  show _ = layer (V c main_v236 : S50000x64.Idx → EReal) (V c main_v224 : S50000x64.Idx → EReal) (V c main_v238 : S64x64.Idx → EReal)
    (V c main_v240 : S64x64.Idx → EReal) (V c main_v243 : S1x64.Idx → EReal) (((cfg11.win 5).blk t).view.emb (ix2 p q))
  rw [hemb]
  refine (pay11_at _ _ _ _ _ p q).trans ?_
  rw [layer_ix2, rows_agg V c t p ⟨5000 * t.val + p.val, by omega⟩ rfl, rows_x V c t p ⟨5000 * t.val + p.val, by omega⟩ rfl,
    whole_w1 V c t, whole_w2 V c t, whole_b V c t]

/-- Every index of the result array is in the block of the point that owns its row. -/
theorem cover (i : S50000x64.Idx) : ∃ t : Fin cfg11.N, (cfg11.win 5).flush t = true ∧ i ∈ ((cfg11.win 5).blk t).view.set := by
  have hi0 : (i 0).val < 50000 := (i 0).isLt
  have hi1 : (i 1).val < 64 := (i 1).isLt
  have hN : grid11.N = 10 := N_11
  have ht0 : (i 0).val / 5000 < cfg11.N := by show (i 0).val / 5000 < grid11.N; omega
  obtain ⟨t, htv⟩ : ∃ t : Fin cfg11.N, t.val = (i 0).val / 5000 := ⟨⟨(i 0).val / 5000, ht0⟩, rfl⟩
  obtain ⟨-, -, -, -, -, ⟨e0, e1⟩, -⟩ := idx_facts t
  refine ⟨t, flush11_5 t, ?_⟩
  show i ∈ ((View.whole main_v244).slice (win11_5.rect t)).set
  rw [View.set_slice_whole, Rect.mem_set_unit]
  intro a
  match a with
  | ⟨0, _⟩ =>
    show win11_5.index t (0 : Fin 2) * 5000 ≤ (i 0).val ∧ (i 0).val < win11_5.index t (0 : Fin 2) * 5000 + 5000
    omega
  | ⟨1, _⟩ =>
    show win11_5.index t (1 : Fin 2) * 64 ≤ (i 1).val ∧ (i 1).val < win11_5.index t (1 : Fin 2) * 64 + 64
    omega

/-- The result array after the launch: the layer of the whole arrays it found. -/
theorem final (c : Dev nD) : (dat11 V c).arrAt 5 cfg11.N = whole V c :=
  (dat11 V c).arrAt_eq_of_cover 5 (whole V c) (fun t _ => flushed_eq V c t) (cover)

end Cert.KernelIdeal.Region11

end
-- ==== Proof.KernelFold.lean ====
/-
  The idealized kernel's result as twelve steps from the arguments.

  The buffer contents at the boundaries of the program form a fold from the launch memory: a stretch of host
  operations applies them, a launch of the layer kernel replaces its result array by the layer of the arrays it found
  (the modules Region0 … Region11). The first stretch reads the source ids, the destination ids and the edge weights
  off the arguments; no later stretch and no launch writes them or the weight and bias arguments, so they are the
  same at every boundary. At launch K the aggregated messages are the shared gather, scaling and summation of the
  previous result (the features argument for K = 0), the two weight halves and the bias row are slices of layer K's
  weight and bias: the result after launch K is step K of the result before. By induction along the program the
  last result is the twelve steps applied to the features argument.
-/
import proofs.«122515_j23313082483149_1_alg».proof.Proof.Gen.KernelIdeal.Frame
import proofs.«122515_j23313082483149_1_alg».proof.Proof.Chain
import proofs.«122515_j23313082483149_1_alg».proof.Proof.Region0
import proofs.«122515_j23313082483149_1_alg».proof.Proof.Region1
import proofs.«122515_j23313082483149_1_alg».proof.Proof.Region2
import proofs.«122515_j23313082483149_1_alg».proof.Proof.Region3
import proofs.«122515_j23313082483149_1_alg».proof.Proof.Region4
import proofs.«122515_j23313082483149_1_alg».proof.Proof.Region5
import proofs.«122515_j23313082483149_1_alg».proof.Proof.Region6
import proofs.«122515_j23313082483149_1_alg».proof.Proof.Region7
import proofs.«122515_j23313082483149_1_alg».proof.Proof.Region8
import proofs.«122515_j23313082483149_1_alg».proof.Proof.Region9
import proofs.«122515_j23313082483149_1_alg».proof.Proof.Region10
import proofs.«122515_j23313082483149_1_alg».proof.Proof.Region11
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Cert.Chain Cert.Gnn

variable (m : (ℓ : Loc nD τ sig) → Buf (Elt Ideal) ℓ) (ρ : Dev nD → PrngReg)

/-- The source ids, read off the edge-list argument. -/
abbrev src (c : Dev nD) : Ids := srcOf (m ((c : Thread nD τ).loc main_arg1))
/-- The destination ids. -/
abbrev dst (c : Dev nD) : Ids := dstOf (m ((c : Thread nD τ).loc main_arg1))
/-- The edge weights as a column. -/
abbrev ew (c : Dev nD) : EdgeW := ewOf (m ((c : Thread nD τ).loc main_arg2))
/-- The features after the first n steps. -/
abbrev feat (c : Dev nD) (n : Nat) (h : n ≤ 12) : Arr :=
  iter (stepK (src m c) (dst m c) (ew m c) (m ((c : Thread nD τ).loc main_arg3)) (m ((c : Thread nD τ).loc main_arg4)))
    (m ((c : Thread nD τ).loc main_arg0)) n h

/-- A buffer that none of a stretch's operations writes keeps its contents through the stretch. -/
macro "stretch_keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A buffer's contents after a stretch, read off the stretch's operations. -/
macro "stretch_reads " ops:ident : tactic => `(tactic| (simp only [$ops:ident]; after_results_simp; rfl))

/-! ## The first stretch and launch 0 -/

theorem start_src (c : Dev nD) : W1 m ρ c (Proc.devRef .tc main_v1) = src m c := by
  show StableHlo.after hostOps0 (W0 m ρ c) (Proc.devRef .tc main_v1) = _
  stretch_reads hostOps0

theorem start_dst (c : Dev nD) : W1 m ρ c (Proc.devRef .tc main_v3) = dst m c := by
  show StableHlo.after hostOps0 (W0 m ρ c) (Proc.devRef .tc main_v3) = _
  stretch_reads hostOps0

theorem start_ew (c : Dev nD) : W1 m ρ c (Proc.devRef .tc main_v4) = ew m c := by
  show StableHlo.after hostOps0 (W0 m ρ c) (Proc.devRef .tc main_v4) = _
  stretch_reads hostOps0

set_option maxHeartbeats 4000000 in
theorem entry0_agg (c : Dev nD) :
    V1 m ρ c main_v16 = aggK (src m c) (dst m c) (ew m c) (m ((c : Thread nD τ).loc main_arg0)) := by
  show StableHlo.after hostOps0 (W0 m ρ c) (Proc.devRef .tc main_v16) = _
  stretch_reads hostOps0

theorem entry0_x (c : Dev nD) : V1 m ρ c main_arg0 = m ((c : Thread nD τ).loc main_arg0) := by
  show StableHlo.after hostOps0 (W0 m ρ c) (Proc.devRef .tc main_arg0) = _
  stretch_keeps hostOps0

theorem entry0_w1 (c : Dev nD) : V1 m ρ c main_v18 = w1K ⟨0, by decide⟩ (m ((c : Thread nD τ).loc main_arg3)) := by
  show StableHlo.after hostOps0 (W0 m ρ c) (Proc.devRef .tc main_v18) = _
  stretch_reads hostOps0

theorem entry0_w2 (c : Dev nD) : V1 m ρ c main_v20 = w2K ⟨0, by decide⟩ (m ((c : Thread nD τ).loc main_arg3)) := by
  show StableHlo.after hostOps0 (W0 m ρ c) (Proc.devRef .tc main_v20) = _
  stretch_reads hostOps0

theorem entry0_b (c : Dev nD) : V1 m ρ c main_v23 = bK ⟨0, by decide⟩ (m ((c : Thread nD τ).loc main_arg4)) := by
  show StableHlo.after hostOps0 (W0 m ρ c) (Proc.devRef .tc main_v23) = _
  stretch_reads hostOps0

/-- After launch 0 the result holds the first step. -/
theorem out0 (c : Dev nD) : W2 m ρ c (Proc.devRef .tc main_v24) = feat m c 1 (by decide) := by
  refine (W2_arr m ρ c 5).trans ?_
  rw [Region0.final]
  show layer (V1 m ρ c main_v16) (V1 m ρ c main_arg0) (V1 m ρ c main_v18) (V1 m ρ c main_v20) (V1 m ρ c main_v23) = _
  rw [entry0_agg, entry0_x, entry0_w1, entry0_w2, entry0_b]
  rfl

/-- The edge data and the weight and bias arguments at the boundary after launch 0. -/
theorem at1 (c : Dev nD) :
    W2 m ρ c (Proc.devRef .tc main_v1) = src m c ∧ W2 m ρ c (Proc.devRef .tc main_v3) = dst m c
    ∧ W2 m ρ c (Proc.devRef .tc main_v4) = ew m c
    ∧ W2 m ρ c (Proc.devRef .tc main_arg3) = m ((c : Thread nD τ).loc main_arg3)
    ∧ W2 m ρ c (Proc.devRef .tc main_arg4) = m ((c : Thread nD τ).loc main_arg4) :=
  ⟨(W2_of_ne m ρ c main_v1 (by decide)).trans (start_src m ρ c),
   (W2_of_ne m ρ c main_v3 (by decide)).trans (start_dst m ρ c),
   (W2_of_ne m ρ c main_v4 (by decide)).trans (start_ew m ρ c),
   (W2_of_ne m ρ c main_arg3 (by decide)).trans (by
      show StableHlo.after hostOps0 (W0 m ρ c) (Proc.devRef .tc main_arg3) = _
      stretch_keeps hostOps0),
   (W2_of_ne m ρ c main_arg4 (by decide)).trans (by
      show StableHlo.after hostOps0 (W0 m ρ c) (Proc.devRef .tc main_arg4) = _
      stretch_keeps hostOps0)⟩

/-! ## Stretch 1 and launch 1 -/

set_option maxHeartbeats 4000000 in
theorem entry1_agg (c : Dev nD) :
    V3 m ρ c main_v36 = aggK (W2 m ρ c (Proc.devRef .tc main_v1)) (W2 m ρ c (Proc.devRef .tc main_v3))
      (W2 m ρ c (Proc.devRef .tc main_v4)) (W2 m ρ c (Proc.devRef .tc main_v24)) := by
  show StableHlo.after hostOps1 (W2 m ρ c) (Proc.devRef .tc main_v36) = _
  stretch_reads hostOps1

theorem entry1_x (c : Dev nD) : V3 m ρ c main_v24 = W2 m ρ c (Proc.devRef .tc main_v24) := by
  show StableHlo.after hostOps1 (W2 m ρ c) (Proc.devRef .tc main_v24) = _
  stretch_keeps hostOps1

theorem entry1_w1 (c : Dev nD) : V3 m ρ c main_v38 = w1K ⟨1, by decide⟩ (W2 m ρ c (Proc.devRef .tc main_arg3)) := by
  show StableHlo.after hostOps1 (W2 m ρ c) (Proc.devRef .tc main_v38) = _
  stretch_reads hostOps1

theorem entry1_w2 (c : Dev nD) : V3 m ρ c main_v40 = w2K ⟨1, by decide⟩ (W2 m ρ c (Proc.devRef .tc main_arg3)) := by
  show StableHlo.after hostOps1 (W2 m ρ c) (Proc.devRef .tc main_v40) = _
  stretch_reads hostOps1

theorem entry1_b (c : Dev nD) : V3 m ρ c main_v43 = bK ⟨1, by decide⟩ (W2 m ρ c (Proc.devRef .tc main_arg4)) := by
  show StableHlo.after hostOps1 (W2 m ρ c) (Proc.devRef .tc main_v43) = _
  stretch_reads hostOps1

/-- After launch 1 the result holds 2 steps. -/
theorem out1 (c : Dev nD) : W4 m ρ c (Proc.devRef .tc main_v44) = feat m c 2 (by decide) := by
  obtain ⟨hs, hd, hw, h3, h4⟩ := at1 m ρ c
  refine (W4_arr m ρ c 5).trans ?_
  rw [Region1.final]
  show layer (V3 m ρ c main_v36) (V3 m ρ c main_v24) (V3 m ρ c main_v38) (V3 m ρ c main_v40) (V3 m ρ c main_v43) = _
  rw [entry1_agg, entry1_x, entry1_w1, entry1_w2, entry1_b, hs, hd, hw, h3, h4, out0 m ρ c]
  rfl

/-- The edge data and the weight and bias arguments at the boundary after launch 1. -/
theorem at2 (c : Dev nD) :
    W4 m ρ c (Proc.devRef .tc main_v1) = src m c ∧ W4 m ρ c (Proc.devRef .tc main_v3) = dst m c
    ∧ W4 m ρ c (Proc.devRef .tc main_v4) = ew m c
    ∧ W4 m ρ c (Proc.devRef .tc main_arg3) = m ((c : Thread nD τ).loc main_arg3)
    ∧ W4 m ρ c (Proc.devRef .tc main_arg4) = m ((c : Thread nD τ).loc main_arg4) := by
  obtain ⟨hs, hd, hw, h3, h4⟩ := at1 m ρ c
  refine ⟨((W4_of_ne m ρ c main_v1 (by decide)).trans ?_).trans hs, ((W4_of_ne m ρ c main_v3 (by decide)).trans ?_).trans hd,
    ((W4_of_ne m ρ c main_v4 (by decide)).trans ?_).trans hw, ((W4_of_ne m ρ c main_arg3 (by decide)).trans ?_).trans h3,
    ((W4_of_ne m ρ c main_arg4 (by decide)).trans ?_).trans h4⟩
  · show StableHlo.after hostOps1 (W2 m ρ c) (Proc.devRef .tc main_v1) = _
    stretch_keeps hostOps1
  · show StableHlo.after hostOps1 (W2 m ρ c) (Proc.devRef .tc main_v3) = _
    stretch_keeps hostOps1
  · show StableHlo.after hostOps1 (W2 m ρ c) (Proc.devRef .tc main_v4) = _
    stretch_keeps hostOps1
  · show StableHlo.after hostOps1 (W2 m ρ c) (Proc.devRef .tc main_arg3) = _
    stretch_keeps hostOps1
  · show StableHlo.after hostOps1 (W2 m ρ c) (Proc.devRef .tc main_arg4) = _
    stretch_keeps hostOps1

/-! ## Stretch 2 and launch 2 -/

set_option maxHeartbeats 4000000 in
theorem entry2_agg (c : Dev nD) :
    V5 m ρ c main_v56 = aggK (W4 m ρ c (Proc.devRef .tc main_v1)) (W4 m ρ c (Proc.devRef .tc main_v3))
      (W4 m ρ c (Proc.devRef .tc main_v4)) (W4 m ρ c (Proc.devRef .tc main_v44)) := by
  show StableHlo.after hostOps2 (W4 m ρ c) (Proc.devRef .tc main_v56) = _
  stretch_reads hostOps2

theorem entry2_x (c : Dev nD) : V5 m ρ c main_v44 = W4 m ρ c (Proc.devRef .tc main_v44) := by
  show StableHlo.after hostOps2 (W4 m ρ c) (Proc.devRef .tc main_v44) = _
  stretch_keeps hostOps2

theorem entry2_w1 (c : Dev nD) : V5 m ρ c main_v58 = w1K ⟨2, by decide⟩ (W4 m ρ c (Proc.devRef .tc main_arg3)) := by
  show StableHlo.after hostOps2 (W4 m ρ c) (Proc.devRef .tc main_v58) = _
  stretch_reads hostOps2

theorem entry2_w2 (c : Dev nD) : V5 m ρ c main_v60 = w2K ⟨2, by decide⟩ (W4 m ρ c (Proc.devRef .tc main_arg3)) := by
  show StableHlo.after hostOps2 (W4 m ρ c) (Proc.devRef .tc main_v60) = _
  stretch_reads hostOps2

theorem entry2_b (c : Dev nD) : V5 m ρ c main_v63 = bK ⟨2, by decide⟩ (W4 m ρ c (Proc.devRef .tc main_arg4)) := by
  show StableHlo.after hostOps2 (W4 m ρ c) (Proc.devRef .tc main_v63) = _
  stretch_reads hostOps2

/-- After launch 2 the result holds 3 steps. -/
theorem out2 (c : Dev nD) : W6 m ρ c (Proc.devRef .tc main_v64) = feat m c 3 (by decide) := by
  obtain ⟨hs, hd, hw, h3, h4⟩ := at2 m ρ c
  refine (W6_arr m ρ c 5).trans ?_
  rw [Region2.final]
  show layer (V5 m ρ c main_v56) (V5 m ρ c main_v44) (V5 m ρ c main_v58) (V5 m ρ c main_v60) (V5 m ρ c main_v63) = _
  rw [entry2_agg, entry2_x, entry2_w1, entry2_w2, entry2_b, hs, hd, hw, h3, h4, out1 m ρ c]
  rfl

/-- The edge data and the weight and bias arguments at the boundary after launch 2. -/
theorem at3 (c : Dev nD) :
    W6 m ρ c (Proc.devRef .tc main_v1) = src m c ∧ W6 m ρ c (Proc.devRef .tc main_v3) = dst m c
    ∧ W6 m ρ c (Proc.devRef .tc main_v4) = ew m c
    ∧ W6 m ρ c (Proc.devRef .tc main_arg3) = m ((c : Thread nD τ).loc main_arg3)
    ∧ W6 m ρ c (Proc.devRef .tc main_arg4) = m ((c : Thread nD τ).loc main_arg4) := by
  obtain ⟨hs, hd, hw, h3, h4⟩ := at2 m ρ c
  refine ⟨((W6_of_ne m ρ c main_v1 (by decide)).trans ?_).trans hs, ((W6_of_ne m ρ c main_v3 (by decide)).trans ?_).trans hd,
    ((W6_of_ne m ρ c main_v4 (by decide)).trans ?_).trans hw, ((W6_of_ne m ρ c main_arg3 (by decide)).trans ?_).trans h3,
    ((W6_of_ne m ρ c main_arg4 (by decide)).trans ?_).trans h4⟩
  · show StableHlo.after hostOps2 (W4 m ρ c) (Proc.devRef .tc main_v1) = _
    stretch_keeps hostOps2
  · show StableHlo.after hostOps2 (W4 m ρ c) (Proc.devRef .tc main_v3) = _
    stretch_keeps hostOps2
  · show StableHlo.after hostOps2 (W4 m ρ c) (Proc.devRef .tc main_v4) = _
    stretch_keeps hostOps2
  · show StableHlo.after hostOps2 (W4 m ρ c) (Proc.devRef .tc main_arg3) = _
    stretch_keeps hostOps2
  · show StableHlo.after hostOps2 (W4 m ρ c) (Proc.devRef .tc main_arg4) = _
    stretch_keeps hostOps2

/-! ## Stretch 3 and launch 3 -/

set_option maxHeartbeats 4000000 in
theorem entry3_agg (c : Dev nD) :
    V7 m ρ c main_v76 = aggK (W6 m ρ c (Proc.devRef .tc main_v1)) (W6 m ρ c (Proc.devRef .tc main_v3))
      (W6 m ρ c (Proc.devRef .tc main_v4)) (W6 m ρ c (Proc.devRef .tc main_v64)) := by
  show StableHlo.after hostOps3 (W6 m ρ c) (Proc.devRef .tc main_v76) = _
  stretch_reads hostOps3

theorem entry3_x (c : Dev nD) : V7 m ρ c main_v64 = W6 m ρ c (Proc.devRef .tc main_v64) := by
  show StableHlo.after hostOps3 (W6 m ρ c) (Proc.devRef .tc main_v64) = _
  stretch_keeps hostOps3

theorem entry3_w1 (c : Dev nD) : V7 m ρ c main_v78 = w1K ⟨3, by decide⟩ (W6 m ρ c (Proc.devRef .tc main_arg3)) := by
  show StableHlo.after hostOps3 (W6 m ρ c) (Proc.devRef .tc main_v78) = _
  stretch_reads hostOps3

theorem entry3_w2 (c : Dev nD) : V7 m ρ c main_v80 = w2K ⟨3, by decide⟩ (W6 m ρ c (Proc.devRef .tc main_arg3)) := by
  show StableHlo.after hostOps3 (W6 m ρ c) (Proc.devRef .tc main_v80) = _
  stretch_reads hostOps3

theorem entry3_b (c : Dev nD) : V7 m ρ c main_v83 = bK ⟨3, by decide⟩ (W6 m ρ c (Proc.devRef .tc main_arg4)) := by
  show StableHlo.after hostOps3 (W6 m ρ c) (Proc.devRef .tc main_v83) = _
  stretch_reads hostOps3

/-- After launch 3 the result holds 4 steps. -/
theorem out3 (c : Dev nD) : W8 m ρ c (Proc.devRef .tc main_v84) = feat m c 4 (by decide) := by
  obtain ⟨hs, hd, hw, h3, h4⟩ := at3 m ρ c
  refine (W8_arr m ρ c 5).trans ?_
  rw [Region3.final]
  show layer (V7 m ρ c main_v76) (V7 m ρ c main_v64) (V7 m ρ c main_v78) (V7 m ρ c main_v80) (V7 m ρ c main_v83) = _
  rw [entry3_agg, entry3_x, entry3_w1, entry3_w2, entry3_b, hs, hd, hw, h3, h4, out2 m ρ c]
  rfl

/-- The edge data and the weight and bias arguments at the boundary after launch 3. -/
theorem at4 (c : Dev nD) :
    W8 m ρ c (Proc.devRef .tc main_v1) = src m c ∧ W8 m ρ c (Proc.devRef .tc main_v3) = dst m c
    ∧ W8 m ρ c (Proc.devRef .tc main_v4) = ew m c
    ∧ W8 m ρ c (Proc.devRef .tc main_arg3) = m ((c : Thread nD τ).loc main_arg3)
    ∧ W8 m ρ c (Proc.devRef .tc main_arg4) = m ((c : Thread nD τ).loc main_arg4) := by
  obtain ⟨hs, hd, hw, h3, h4⟩ := at3 m ρ c
  refine ⟨((W8_of_ne m ρ c main_v1 (by decide)).trans ?_).trans hs, ((W8_of_ne m ρ c main_v3 (by decide)).trans ?_).trans hd,
    ((W8_of_ne m ρ c main_v4 (by decide)).trans ?_).trans hw, ((W8_of_ne m ρ c main_arg3 (by decide)).trans ?_).trans h3,
    ((W8_of_ne m ρ c main_arg4 (by decide)).trans ?_).trans h4⟩
  · show StableHlo.after hostOps3 (W6 m ρ c) (Proc.devRef .tc main_v1) = _
    stretch_keeps hostOps3
  · show StableHlo.after hostOps3 (W6 m ρ c) (Proc.devRef .tc main_v3) = _
    stretch_keeps hostOps3
  · show StableHlo.after hostOps3 (W6 m ρ c) (Proc.devRef .tc main_v4) = _
    stretch_keeps hostOps3
  · show StableHlo.after hostOps3 (W6 m ρ c) (Proc.devRef .tc main_arg3) = _
    stretch_keeps hostOps3
  · show StableHlo.after hostOps3 (W6 m ρ c) (Proc.devRef .tc main_arg4) = _
    stretch_keeps hostOps3

/-! ## Stretch 4 and launch 4 -/

set_option maxHeartbeats 4000000 in
theorem entry4_agg (c : Dev nD) :
    V9 m ρ c main_v96 = aggK (W8 m ρ c (Proc.devRef .tc main_v1)) (W8 m ρ c (Proc.devRef .tc main_v3))
      (W8 m ρ c (Proc.devRef .tc main_v4)) (W8 m ρ c (Proc.devRef .tc main_v84)) := by
  show StableHlo.after hostOps4 (W8 m ρ c) (Proc.devRef .tc main_v96) = _
  stretch_reads hostOps4

theorem entry4_x (c : Dev nD) : V9 m ρ c main_v84 = W8 m ρ c (Proc.devRef .tc main_v84) := by
  show StableHlo.after hostOps4 (W8 m ρ c) (Proc.devRef .tc main_v84) = _
  stretch_keeps hostOps4

theorem entry4_w1 (c : Dev nD) : V9 m ρ c main_v98 = w1K ⟨4, by decide⟩ (W8 m ρ c (Proc.devRef .tc main_arg3)) := by
  show StableHlo.after hostOps4 (W8 m ρ c) (Proc.devRef .tc main_v98) = _
  stretch_reads hostOps4

theorem entry4_w2 (c : Dev nD) : V9 m ρ c main_v100 = w2K ⟨4, by decide⟩ (W8 m ρ c (Proc.devRef .tc main_arg3)) := by
  show StableHlo.after hostOps4 (W8 m ρ c) (Proc.devRef .tc main_v100) = _
  stretch_reads hostOps4

theorem entry4_b (c : Dev nD) : V9 m ρ c main_v103 = bK ⟨4, by decide⟩ (W8 m ρ c (Proc.devRef .tc main_arg4)) := by
  show StableHlo.after hostOps4 (W8 m ρ c) (Proc.devRef .tc main_v103) = _
  stretch_reads hostOps4

/-- After launch 4 the result holds 5 steps. -/
theorem out4 (c : Dev nD) : W10 m ρ c (Proc.devRef .tc main_v104) = feat m c 5 (by decide) := by
  obtain ⟨hs, hd, hw, h3, h4⟩ := at4 m ρ c
  refine (W10_arr m ρ c 5).trans ?_
  rw [Region4.final]
  show layer (V9 m ρ c main_v96) (V9 m ρ c main_v84) (V9 m ρ c main_v98) (V9 m ρ c main_v100) (V9 m ρ c main_v103) = _
  rw [entry4_agg, entry4_x, entry4_w1, entry4_w2, entry4_b, hs, hd, hw, h3, h4, out3 m ρ c]
  rfl

/-- The edge data and the weight and bias arguments at the boundary after launch 4. -/
theorem at5 (c : Dev nD) :
    W10 m ρ c (Proc.devRef .tc main_v1) = src m c ∧ W10 m ρ c (Proc.devRef .tc main_v3) = dst m c
    ∧ W10 m ρ c (Proc.devRef .tc main_v4) = ew m c
    ∧ W10 m ρ c (Proc.devRef .tc main_arg3) = m ((c : Thread nD τ).loc main_arg3)
    ∧ W10 m ρ c (Proc.devRef .tc main_arg4) = m ((c : Thread nD τ).loc main_arg4) := by
  obtain ⟨hs, hd, hw, h3, h4⟩ := at4 m ρ c
  refine ⟨((W10_of_ne m ρ c main_v1 (by decide)).trans ?_).trans hs, ((W10_of_ne m ρ c main_v3 (by decide)).trans ?_).trans hd,
    ((W10_of_ne m ρ c main_v4 (by decide)).trans ?_).trans hw, ((W10_of_ne m ρ c main_arg3 (by decide)).trans ?_).trans h3,
    ((W10_of_ne m ρ c main_arg4 (by decide)).trans ?_).trans h4⟩
  · show StableHlo.after hostOps4 (W8 m ρ c) (Proc.devRef .tc main_v1) = _
    stretch_keeps hostOps4
  · show StableHlo.after hostOps4 (W8 m ρ c) (Proc.devRef .tc main_v3) = _
    stretch_keeps hostOps4
  · show StableHlo.after hostOps4 (W8 m ρ c) (Proc.devRef .tc main_v4) = _
    stretch_keeps hostOps4
  · show StableHlo.after hostOps4 (W8 m ρ c) (Proc.devRef .tc main_arg3) = _
    stretch_keeps hostOps4
  · show StableHlo.after hostOps4 (W8 m ρ c) (Proc.devRef .tc main_arg4) = _
    stretch_keeps hostOps4

/-! ## Stretch 5 and launch 5 -/

set_option maxHeartbeats 4000000 in
theorem entry5_agg (c : Dev nD) :
    V11 m ρ c main_v116 = aggK (W10 m ρ c (Proc.devRef .tc main_v1)) (W10 m ρ c (Proc.devRef .tc main_v3))
      (W10 m ρ c (Proc.devRef .tc main_v4)) (W10 m ρ c (Proc.devRef .tc main_v104)) := by
  show StableHlo.after hostOps5 (W10 m ρ c) (Proc.devRef .tc main_v116) = _
  stretch_reads hostOps5

theorem entry5_x (c : Dev nD) : V11 m ρ c main_v104 = W10 m ρ c (Proc.devRef .tc main_v104) := by
  show StableHlo.after hostOps5 (W10 m ρ c) (Proc.devRef .tc main_v104) = _
  stretch_keeps hostOps5

theorem entry5_w1 (c : Dev nD) : V11 m ρ c main_v118 = w1K ⟨5, by decide⟩ (W10 m ρ c (Proc.devRef .tc main_arg3)) := by
  show StableHlo.after hostOps5 (W10 m ρ c) (Proc.devRef .tc main_v118) = _
  stretch_reads hostOps5

theorem entry5_w2 (c : Dev nD) : V11 m ρ c main_v120 = w2K ⟨5, by decide⟩ (W10 m ρ c (Proc.devRef .tc main_arg3)) := by
  show StableHlo.after hostOps5 (W10 m ρ c) (Proc.devRef .tc main_v120) = _
  stretch_reads hostOps5

theorem entry5_b (c : Dev nD) : V11 m ρ c main_v123 = bK ⟨5, by decide⟩ (W10 m ρ c (Proc.devRef .tc main_arg4)) := by
  show StableHlo.after hostOps5 (W10 m ρ c) (Proc.devRef .tc main_v123) = _
  stretch_reads hostOps5

/-- After launch 5 the result holds 6 steps. -/
theorem out5 (c : Dev nD) : W12 m ρ c (Proc.devRef .tc main_v124) = feat m c 6 (by decide) := by
  obtain ⟨hs, hd, hw, h3, h4⟩ := at5 m ρ c
  refine (W12_arr m ρ c 5).trans ?_
  rw [Region5.final]
  show layer (V11 m ρ c main_v116) (V11 m ρ c main_v104) (V11 m ρ c main_v118) (V11 m ρ c main_v120) (V11 m ρ c main_v123) = _
  rw [entry5_agg, entry5_x, entry5_w1, entry5_w2, entry5_b, hs, hd, hw, h3, h4, out4 m ρ c]
  rfl

/-- The edge data and the weight and bias arguments at the boundary after launch 5. -/
theorem at6 (c : Dev nD) :
    W12 m ρ c (Proc.devRef .tc main_v1) = src m c ∧ W12 m ρ c (Proc.devRef .tc main_v3) = dst m c
    ∧ W12 m ρ c (Proc.devRef .tc main_v4) = ew m c
    ∧ W12 m ρ c (Proc.devRef .tc main_arg3) = m ((c : Thread nD τ).loc main_arg3)
    ∧ W12 m ρ c (Proc.devRef .tc main_arg4) = m ((c : Thread nD τ).loc main_arg4) := by
  obtain ⟨hs, hd, hw, h3, h4⟩ := at5 m ρ c
  refine ⟨((W12_of_ne m ρ c main_v1 (by decide)).trans ?_).trans hs, ((W12_of_ne m ρ c main_v3 (by decide)).trans ?_).trans hd,
    ((W12_of_ne m ρ c main_v4 (by decide)).trans ?_).trans hw, ((W12_of_ne m ρ c main_arg3 (by decide)).trans ?_).trans h3,
    ((W12_of_ne m ρ c main_arg4 (by decide)).trans ?_).trans h4⟩
  · show StableHlo.after hostOps5 (W10 m ρ c) (Proc.devRef .tc main_v1) = _
    stretch_keeps hostOps5
  · show StableHlo.after hostOps5 (W10 m ρ c) (Proc.devRef .tc main_v3) = _
    stretch_keeps hostOps5
  · show StableHlo.after hostOps5 (W10 m ρ c) (Proc.devRef .tc main_v4) = _
    stretch_keeps hostOps5
  · show StableHlo.after hostOps5 (W10 m ρ c) (Proc.devRef .tc main_arg3) = _
    stretch_keeps hostOps5
  · show StableHlo.after hostOps5 (W10 m ρ c) (Proc.devRef .tc main_arg4) = _
    stretch_keeps hostOps5

/-! ## Stretch 6 and launch 6 -/

set_option maxHeartbeats 4000000 in
theorem entry6_agg (c : Dev nD) :
    V13 m ρ c main_v136 = aggK (W12 m ρ c (Proc.devRef .tc main_v1)) (W12 m ρ c (Proc.devRef .tc main_v3))
      (W12 m ρ c (Proc.devRef .tc main_v4)) (W12 m ρ c (Proc.devRef .tc main_v124)) := by
  show StableHlo.after hostOps6 (W12 m ρ c) (Proc.devRef .tc main_v136) = _
  stretch_reads hostOps6

theorem entry6_x (c : Dev nD) : V13 m ρ c main_v124 = W12 m ρ c (Proc.devRef .tc main_v124) := by
  show StableHlo.after hostOps6 (W12 m ρ c) (Proc.devRef .tc main_v124) = _
  stretch_keeps hostOps6

theorem entry6_w1 (c : Dev nD) : V13 m ρ c main_v138 = w1K ⟨6, by decide⟩ (W12 m ρ c (Proc.devRef .tc main_arg3)) := by
  show StableHlo.after hostOps6 (W12 m ρ c) (Proc.devRef .tc main_v138) = _
  stretch_reads hostOps6

theorem entry6_w2 (c : Dev nD) : V13 m ρ c main_v140 = w2K ⟨6, by decide⟩ (W12 m ρ c (Proc.devRef .tc main_arg3)) := by
  show StableHlo.after hostOps6 (W12 m ρ c) (Proc.devRef .tc main_v140) = _
  stretch_reads hostOps6

theorem entry6_b (c : Dev nD) : V13 m ρ c main_v143 = bK ⟨6, by decide⟩ (W12 m ρ c (Proc.devRef .tc main_arg4)) := by
  show StableHlo.after hostOps6 (W12 m ρ c) (Proc.devRef .tc main_v143) = _
  stretch_reads hostOps6

/-- After launch 6 the result holds 7 steps. -/
theorem out6 (c : Dev nD) : W14 m ρ c (Proc.devRef .tc main_v144) = feat m c 7 (by decide) := by
  obtain ⟨hs, hd, hw, h3, h4⟩ := at6 m ρ c
  refine (W14_arr m ρ c 5).trans ?_
  rw [Region6.final]
  show layer (V13 m ρ c main_v136) (V13 m ρ c main_v124) (V13 m ρ c main_v138) (V13 m ρ c main_v140) (V13 m ρ c main_v143) = _
  rw [entry6_agg, entry6_x, entry6_w1, entry6_w2, entry6_b, hs, hd, hw, h3, h4, out5 m ρ c]
  rfl

/-- The edge data and the weight and bias arguments at the boundary after launch 6. -/
theorem at7 (c : Dev nD) :
    W14 m ρ c (Proc.devRef .tc main_v1) = src m c ∧ W14 m ρ c (Proc.devRef .tc main_v3) = dst m c
    ∧ W14 m ρ c (Proc.devRef .tc main_v4) = ew m c
    ∧ W14 m ρ c (Proc.devRef .tc main_arg3) = m ((c : Thread nD τ).loc main_arg3)
    ∧ W14 m ρ c (Proc.devRef .tc main_arg4) = m ((c : Thread nD τ).loc main_arg4) := by
  obtain ⟨hs, hd, hw, h3, h4⟩ := at6 m ρ c
  refine ⟨((W14_of_ne m ρ c main_v1 (by decide)).trans ?_).trans hs, ((W14_of_ne m ρ c main_v3 (by decide)).trans ?_).trans hd,
    ((W14_of_ne m ρ c main_v4 (by decide)).trans ?_).trans hw, ((W14_of_ne m ρ c main_arg3 (by decide)).trans ?_).trans h3,
    ((W14_of_ne m ρ c main_arg4 (by decide)).trans ?_).trans h4⟩
  · show StableHlo.after hostOps6 (W12 m ρ c) (Proc.devRef .tc main_v1) = _
    stretch_keeps hostOps6
  · show StableHlo.after hostOps6 (W12 m ρ c) (Proc.devRef .tc main_v3) = _
    stretch_keeps hostOps6
  · show StableHlo.after hostOps6 (W12 m ρ c) (Proc.devRef .tc main_v4) = _
    stretch_keeps hostOps6
  · show StableHlo.after hostOps6 (W12 m ρ c) (Proc.devRef .tc main_arg3) = _
    stretch_keeps hostOps6
  · show StableHlo.after hostOps6 (W12 m ρ c) (Proc.devRef .tc main_arg4) = _
    stretch_keeps hostOps6

/-! ## Stretch 7 and launch 7 -/

set_option maxHeartbeats 4000000 in
theorem entry7_agg (c : Dev nD) :
    V15 m ρ c main_v156 = aggK (W14 m ρ c (Proc.devRef .tc main_v1)) (W14 m ρ c (Proc.devRef .tc main_v3))
      (W14 m ρ c (Proc.devRef .tc main_v4)) (W14 m ρ c (Proc.devRef .tc main_v144)) := by
  show StableHlo.after hostOps7 (W14 m ρ c) (Proc.devRef .tc main_v156) = _
  stretch_reads hostOps7

theorem entry7_x (c : Dev nD) : V15 m ρ c main_v144 = W14 m ρ c (Proc.devRef .tc main_v144) := by
  show StableHlo.after hostOps7 (W14 m ρ c) (Proc.devRef .tc main_v144) = _
  stretch_keeps hostOps7

theorem entry7_w1 (c : Dev nD) : V15 m ρ c main_v158 = w1K ⟨7, by decide⟩ (W14 m ρ c (Proc.devRef .tc main_arg3)) := by
  show StableHlo.after hostOps7 (W14 m ρ c) (Proc.devRef .tc main_v158) = _
  stretch_reads hostOps7

theorem entry7_w2 (c : Dev nD) : V15 m ρ c main_v160 = w2K ⟨7, by decide⟩ (W14 m ρ c (Proc.devRef .tc main_arg3)) := by
  show StableHlo.after hostOps7 (W14 m ρ c) (Proc.devRef .tc main_v160) = _
  stretch_reads hostOps7

theorem entry7_b (c : Dev nD) : V15 m ρ c main_v163 = bK ⟨7, by decide⟩ (W14 m ρ c (Proc.devRef .tc main_arg4)) := by
  show StableHlo.after hostOps7 (W14 m ρ c) (Proc.devRef .tc main_v163) = _
  stretch_reads hostOps7

/-- After launch 7 the result holds 8 steps. -/
theorem out7 (c : Dev nD) : W16 m ρ c (Proc.devRef .tc main_v164) = feat m c 8 (by decide) := by
  obtain ⟨hs, hd, hw, h3, h4⟩ := at7 m ρ c
  refine (W16_arr m ρ c 5).trans ?_
  rw [Region7.final]
  show layer (V15 m ρ c main_v156) (V15 m ρ c main_v144) (V15 m ρ c main_v158) (V15 m ρ c main_v160) (V15 m ρ c main_v163) = _
  rw [entry7_agg, entry7_x, entry7_w1, entry7_w2, entry7_b, hs, hd, hw, h3, h4, out6 m ρ c]
  rfl

/-- The edge data and the weight and bias arguments at the boundary after launch 7. -/
theorem at8 (c : Dev nD) :
    W16 m ρ c (Proc.devRef .tc main_v1) = src m c ∧ W16 m ρ c (Proc.devRef .tc main_v3) = dst m c
    ∧ W16 m ρ c (Proc.devRef .tc main_v4) = ew m c
    ∧ W16 m ρ c (Proc.devRef .tc main_arg3) = m ((c : Thread nD τ).loc main_arg3)
    ∧ W16 m ρ c (Proc.devRef .tc main_arg4) = m ((c : Thread nD τ).loc main_arg4) := by
  obtain ⟨hs, hd, hw, h3, h4⟩ := at7 m ρ c
  refine ⟨((W16_of_ne m ρ c main_v1 (by decide)).trans ?_).trans hs, ((W16_of_ne m ρ c main_v3 (by decide)).trans ?_).trans hd,
    ((W16_of_ne m ρ c main_v4 (by decide)).trans ?_).trans hw, ((W16_of_ne m ρ c main_arg3 (by decide)).trans ?_).trans h3,
    ((W16_of_ne m ρ c main_arg4 (by decide)).trans ?_).trans h4⟩
  · show StableHlo.after hostOps7 (W14 m ρ c) (Proc.devRef .tc main_v1) = _
    stretch_keeps hostOps7
  · show StableHlo.after hostOps7 (W14 m ρ c) (Proc.devRef .tc main_v3) = _
    stretch_keeps hostOps7
  · show StableHlo.after hostOps7 (W14 m ρ c) (Proc.devRef .tc main_v4) = _
    stretch_keeps hostOps7
  · show StableHlo.after hostOps7 (W14 m ρ c) (Proc.devRef .tc main_arg3) = _
    stretch_keeps hostOps7
  · show StableHlo.after hostOps7 (W14 m ρ c) (Proc.devRef .tc main_arg4) = _
    stretch_keeps hostOps7

/-! ## Stretch 8 and launch 8 -/

set_option maxHeartbeats 4000000 in
theorem entry8_agg (c : Dev nD) :
    V17 m ρ c main_v176 = aggK (W16 m ρ c (Proc.devRef .tc main_v1)) (W16 m ρ c (Proc.devRef .tc main_v3))
      (W16 m ρ c (Proc.devRef .tc main_v4)) (W16 m ρ c (Proc.devRef .tc main_v164)) := by
  show StableHlo.after hostOps8 (W16 m ρ c) (Proc.devRef .tc main_v176) = _
  stretch_reads hostOps8

theorem entry8_x (c : Dev nD) : V17 m ρ c main_v164 = W16 m ρ c (Proc.devRef .tc main_v164) := by
  show StableHlo.after hostOps8 (W16 m ρ c) (Proc.devRef .tc main_v164) = _
  stretch_keeps hostOps8

theorem entry8_w1 (c : Dev nD) : V17 m ρ c main_v178 = w1K ⟨8, by decide⟩ (W16 m ρ c (Proc.devRef .tc main_arg3)) := by
  show StableHlo.after hostOps8 (W16 m ρ c) (Proc.devRef .tc main_v178) = _
  stretch_reads hostOps8

theorem entry8_w2 (c : Dev nD) : V17 m ρ c main_v180 = w2K ⟨8, by decide⟩ (W16 m ρ c (Proc.devRef .tc main_arg3)) := by
  show StableHlo.after hostOps8 (W16 m ρ c) (Proc.devRef .tc main_v180) = _
  stretch_reads hostOps8

theorem entry8_b (c : Dev nD) : V17 m ρ c main_v183 = bK ⟨8, by decide⟩ (W16 m ρ c (Proc.devRef .tc main_arg4)) := by
  show StableHlo.after hostOps8 (W16 m ρ c) (Proc.devRef .tc main_v183) = _
  stretch_reads hostOps8

/-- After launch 8 the result holds 9 steps. -/
theorem out8 (c : Dev nD) : W18 m ρ c (Proc.devRef .tc main_v184) = feat m c 9 (by decide) := by
  obtain ⟨hs, hd, hw, h3, h4⟩ := at8 m ρ c
  refine (W18_arr m ρ c 5).trans ?_
  rw [Region8.final]
  show layer (V17 m ρ c main_v176) (V17 m ρ c main_v164) (V17 m ρ c main_v178) (V17 m ρ c main_v180) (V17 m ρ c main_v183) = _
  rw [entry8_agg, entry8_x, entry8_w1, entry8_w2, entry8_b, hs, hd, hw, h3, h4, out7 m ρ c]
  rfl

/-- The edge data and the weight and bias arguments at the boundary after launch 8. -/
theorem at9 (c : Dev nD) :
    W18 m ρ c (Proc.devRef .tc main_v1) = src m c ∧ W18 m ρ c (Proc.devRef .tc main_v3) = dst m c
    ∧ W18 m ρ c (Proc.devRef .tc main_v4) = ew m c
    ∧ W18 m ρ c (Proc.devRef .tc main_arg3) = m ((c : Thread nD τ).loc main_arg3)
    ∧ W18 m ρ c (Proc.devRef .tc main_arg4) = m ((c : Thread nD τ).loc main_arg4) := by
  obtain ⟨hs, hd, hw, h3, h4⟩ := at8 m ρ c
  refine ⟨((W18_of_ne m ρ c main_v1 (by decide)).trans ?_).trans hs, ((W18_of_ne m ρ c main_v3 (by decide)).trans ?_).trans hd,
    ((W18_of_ne m ρ c main_v4 (by decide)).trans ?_).trans hw, ((W18_of_ne m ρ c main_arg3 (by decide)).trans ?_).trans h3,
    ((W18_of_ne m ρ c main_arg4 (by decide)).trans ?_).trans h4⟩
  · show StableHlo.after hostOps8 (W16 m ρ c) (Proc.devRef .tc main_v1) = _
    stretch_keeps hostOps8
  · show StableHlo.after hostOps8 (W16 m ρ c) (Proc.devRef .tc main_v3) = _
    stretch_keeps hostOps8
  · show StableHlo.after hostOps8 (W16 m ρ c) (Proc.devRef .tc main_v4) = _
    stretch_keeps hostOps8
  · show StableHlo.after hostOps8 (W16 m ρ c) (Proc.devRef .tc main_arg3) = _
    stretch_keeps hostOps8
  · show StableHlo.after hostOps8 (W16 m ρ c) (Proc.devRef .tc main_arg4) = _
    stretch_keeps hostOps8

/-! ## Stretch 9 and launch 9 -/

set_option maxHeartbeats 4000000 in
theorem entry9_agg (c : Dev nD) :
    V19 m ρ c main_v196 = aggK (W18 m ρ c (Proc.devRef .tc main_v1)) (W18 m ρ c (Proc.devRef .tc main_v3))
      (W18 m ρ c (Proc.devRef .tc main_v4)) (W18 m ρ c (Proc.devRef .tc main_v184)) := by
  show StableHlo.after hostOps9 (W18 m ρ c) (Proc.devRef .tc main_v196) = _
  stretch_reads hostOps9

theorem entry9_x (c : Dev nD) : V19 m ρ c main_v184 = W18 m ρ c (Proc.devRef .tc main_v184) := by
  show StableHlo.after hostOps9 (W18 m ρ c) (Proc.devRef .tc main_v184) = _
  stretch_keeps hostOps9

theorem entry9_w1 (c : Dev nD) : V19 m ρ c main_v198 = w1K ⟨9, by decide⟩ (W18 m ρ c (Proc.devRef .tc main_arg3)) := by
  show StableHlo.after hostOps9 (W18 m ρ c) (Proc.devRef .tc main_v198) = _
  stretch_reads hostOps9

theorem entry9_w2 (c : Dev nD) : V19 m ρ c main_v200 = w2K ⟨9, by decide⟩ (W18 m ρ c (Proc.devRef .tc main_arg3)) := by
  show StableHlo.after hostOps9 (W18 m ρ c) (Proc.devRef .tc main_v200) = _
  stretch_reads hostOps9

theorem entry9_b (c : Dev nD) : V19 m ρ c main_v203 = bK ⟨9, by decide⟩ (W18 m ρ c (Proc.devRef .tc main_arg4)) := by
  show StableHlo.after hostOps9 (W18 m ρ c) (Proc.devRef .tc main_v203) = _
  stretch_reads hostOps9

/-- After launch 9 the result holds 10 steps. -/
theorem out9 (c : Dev nD) : W20 m ρ c (Proc.devRef .tc main_v204) = feat m c 10 (by decide) := by
  obtain ⟨hs, hd, hw, h3, h4⟩ := at9 m ρ c
  refine (W20_arr m ρ c 5).trans ?_
  rw [Region9.final]
  show layer (V19 m ρ c main_v196) (V19 m ρ c main_v184) (V19 m ρ c main_v198) (V19 m ρ c main_v200) (V19 m ρ c main_v203) = _
  rw [entry9_agg, entry9_x, entry9_w1, entry9_w2, entry9_b, hs, hd, hw, h3, h4, out8 m ρ c]
  rfl

/-- The edge data and the weight and bias arguments at the boundary after launch 9. -/
theorem at10 (c : Dev nD) :
    W20 m ρ c (Proc.devRef .tc main_v1) = src m c ∧ W20 m ρ c (Proc.devRef .tc main_v3) = dst m c
    ∧ W20 m ρ c (Proc.devRef .tc main_v4) = ew m c
    ∧ W20 m ρ c (Proc.devRef .tc main_arg3) = m ((c : Thread nD τ).loc main_arg3)
    ∧ W20 m ρ c (Proc.devRef .tc main_arg4) = m ((c : Thread nD τ).loc main_arg4) := by
  obtain ⟨hs, hd, hw, h3, h4⟩ := at9 m ρ c
  refine ⟨((W20_of_ne m ρ c main_v1 (by decide)).trans ?_).trans hs, ((W20_of_ne m ρ c main_v3 (by decide)).trans ?_).trans hd,
    ((W20_of_ne m ρ c main_v4 (by decide)).trans ?_).trans hw, ((W20_of_ne m ρ c main_arg3 (by decide)).trans ?_).trans h3,
    ((W20_of_ne m ρ c main_arg4 (by decide)).trans ?_).trans h4⟩
  · show StableHlo.after hostOps9 (W18 m ρ c) (Proc.devRef .tc main_v1) = _
    stretch_keeps hostOps9
  · show StableHlo.after hostOps9 (W18 m ρ c) (Proc.devRef .tc main_v3) = _
    stretch_keeps hostOps9
  · show StableHlo.after hostOps9 (W18 m ρ c) (Proc.devRef .tc main_v4) = _
    stretch_keeps hostOps9
  · show StableHlo.after hostOps9 (W18 m ρ c) (Proc.devRef .tc main_arg3) = _
    stretch_keeps hostOps9
  · show StableHlo.after hostOps9 (W18 m ρ c) (Proc.devRef .tc main_arg4) = _
    stretch_keeps hostOps9

/-! ## Stretch 10 and launch 10 -/

set_option maxHeartbeats 4000000 in
theorem entry10_agg (c : Dev nD) :
    V21 m ρ c main_v216 = aggK (W20 m ρ c (Proc.devRef .tc main_v1)) (W20 m ρ c (Proc.devRef .tc main_v3))
      (W20 m ρ c (Proc.devRef .tc main_v4)) (W20 m ρ c (Proc.devRef .tc main_v204)) := by
  show StableHlo.after hostOps10 (W20 m ρ c) (Proc.devRef .tc main_v216) = _
  stretch_reads hostOps10

theorem entry10_x (c : Dev nD) : V21 m ρ c main_v204 = W20 m ρ c (Proc.devRef .tc main_v204) := by
  show StableHlo.after hostOps10 (W20 m ρ c) (Proc.devRef .tc main_v204) = _
  stretch_keeps hostOps10

theorem entry10_w1 (c : Dev nD) : V21 m ρ c main_v218 = w1K ⟨10, by decide⟩ (W20 m ρ c (Proc.devRef .tc main_arg3)) := by
  show StableHlo.after hostOps10 (W20 m ρ c) (Proc.devRef .tc main_v218) = _
  stretch_reads hostOps10

theorem entry10_w2 (c : Dev nD) : V21 m ρ c main_v220 = w2K ⟨10, by decide⟩ (W20 m ρ c (Proc.devRef .tc main_arg3)) := by
  show StableHlo.after hostOps10 (W20 m ρ c) (Proc.devRef .tc main_v220) = _
  stretch_reads hostOps10

theorem entry10_b (c : Dev nD) : V21 m ρ c main_v223 = bK ⟨10, by decide⟩ (W20 m ρ c (Proc.devRef .tc main_arg4)) := by
  show StableHlo.after hostOps10 (W20 m ρ c) (Proc.devRef .tc main_v223) = _
  stretch_reads hostOps10

/-- After launch 10 the result holds 11 steps. -/
theorem out10 (c : Dev nD) : W22 m ρ c (Proc.devRef .tc main_v224) = feat m c 11 (by decide) := by
  obtain ⟨hs, hd, hw, h3, h4⟩ := at10 m ρ c
  refine (W22_arr m ρ c 5).trans ?_
  rw [Region10.final]
  show layer (V21 m ρ c main_v216) (V21 m ρ c main_v204) (V21 m ρ c main_v218) (V21 m ρ c main_v220) (V21 m ρ c main_v223) = _
  rw [entry10_agg, entry10_x, entry10_w1, entry10_w2, entry10_b, hs, hd, hw, h3, h4, out9 m ρ c]
  rfl

/-- The edge data and the weight and bias arguments at the boundary after launch 10. -/
theorem at11 (c : Dev nD) :
    W22 m ρ c (Proc.devRef .tc main_v1) = src m c ∧ W22 m ρ c (Proc.devRef .tc main_v3) = dst m c
    ∧ W22 m ρ c (Proc.devRef .tc main_v4) = ew m c
    ∧ W22 m ρ c (Proc.devRef .tc main_arg3) = m ((c : Thread nD τ).loc main_arg3)
    ∧ W22 m ρ c (Proc.devRef .tc main_arg4) = m ((c : Thread nD τ).loc main_arg4) := by
  obtain ⟨hs, hd, hw, h3, h4⟩ := at10 m ρ c
  refine ⟨((W22_of_ne m ρ c main_v1 (by decide)).trans ?_).trans hs, ((W22_of_ne m ρ c main_v3 (by decide)).trans ?_).trans hd,
    ((W22_of_ne m ρ c main_v4 (by decide)).trans ?_).trans hw, ((W22_of_ne m ρ c main_arg3 (by decide)).trans ?_).trans h3,
    ((W22_of_ne m ρ c main_arg4 (by decide)).trans ?_).trans h4⟩
  · show StableHlo.after hostOps10 (W20 m ρ c) (Proc.devRef .tc main_v1) = _
    stretch_keeps hostOps10
  · show StableHlo.after hostOps10 (W20 m ρ c) (Proc.devRef .tc main_v3) = _
    stretch_keeps hostOps10
  · show StableHlo.after hostOps10 (W20 m ρ c) (Proc.devRef .tc main_v4) = _
    stretch_keeps hostOps10
  · show StableHlo.after hostOps10 (W20 m ρ c) (Proc.devRef .tc main_arg3) = _
    stretch_keeps hostOps10
  · show StableHlo.after hostOps10 (W20 m ρ c) (Proc.devRef .tc main_arg4) = _
    stretch_keeps hostOps10

/-! ## Stretch 11 and launch 11 -/

set_option maxHeartbeats 4000000 in
theorem entry11_agg (c : Dev nD) :
    V23 m ρ c main_v236 = aggK (W22 m ρ c (Proc.devRef .tc main_v1)) (W22 m ρ c (Proc.devRef .tc main_v3))
      (W22 m ρ c (Proc.devRef .tc main_v4)) (W22 m ρ c (Proc.devRef .tc main_v224)) := by
  show StableHlo.after hostOps11 (W22 m ρ c) (Proc.devRef .tc main_v236) = _
  stretch_reads hostOps11

theorem entry11_x (c : Dev nD) : V23 m ρ c main_v224 = W22 m ρ c (Proc.devRef .tc main_v224) := by
  show StableHlo.after hostOps11 (W22 m ρ c) (Proc.devRef .tc main_v224) = _
  stretch_keeps hostOps11

theorem entry11_w1 (c : Dev nD) : V23 m ρ c main_v238 = w1K ⟨11, by decide⟩ (W22 m ρ c (Proc.devRef .tc main_arg3)) := by
  show StableHlo.after hostOps11 (W22 m ρ c) (Proc.devRef .tc main_v238) = _
  stretch_reads hostOps11

theorem entry11_w2 (c : Dev nD) : V23 m ρ c main_v240 = w2K ⟨11, by decide⟩ (W22 m ρ c (Proc.devRef .tc main_arg3)) := by
  show StableHlo.after hostOps11 (W22 m ρ c) (Proc.devRef .tc main_v240) = _
  stretch_reads hostOps11

theorem entry11_b (c : Dev nD) : V23 m ρ c main_v243 = bK ⟨11, by decide⟩ (W22 m ρ c (Proc.devRef .tc main_arg4)) := by
  show StableHlo.after hostOps11 (W22 m ρ c) (Proc.devRef .tc main_v243) = _
  stretch_reads hostOps11

/-- After launch 11 the result holds 12 steps. -/
theorem out11 (c : Dev nD) : W24 m ρ c (Proc.devRef .tc main_v244) = feat m c 12 (by decide) := by
  obtain ⟨hs, hd, hw, h3, h4⟩ := at11 m ρ c
  refine (W24_arr m ρ c 5).trans ?_
  rw [Region11.final]
  show layer (V23 m ρ c main_v236) (V23 m ρ c main_v224) (V23 m ρ c main_v238) (V23 m ρ c main_v240) (V23 m ρ c main_v243) = _
  rw [entry11_agg, entry11_x, entry11_w1, entry11_w2, entry11_b, hs, hd, hw, h3, h4, out10 m ρ c]
  rfl

/-- The program's result: the twelve steps applied to the features argument. -/
theorem result (c : Dev nD) : W24 m ρ c (Proc.devRef .tc main_v244) = feat m c 12 (Nat.le_refl 12) := out11 m ρ c

end Cert.KernelIdeal.Fold

end
-- ==== Proof.RefChain.lean ====
/-
  The reference's run as twelve steps.

  The reference computes, from the edge list, the source ids, the destination ids and the edge weights as a column,
  once; then twelve times over it takes the current node features, gathers and scales and sums them by destination
  into the aggregated messages, scales those rows to unit length, applies the affine map of the layer's weight and
  bias, and scales the rows of the result to unit length. Each of its named intermediates is, by definition, the
  corresponding part of the step applied to the intermediate before it, so the output of layer n is the step at n
  applied to the output of layer n - 1, and the final result is the twelve steps iterated from the node features.
  Nothing is computed here: every equation below holds by unfolding the definitions of the two sides.
-/
import proofs.«122515_j23313082483149_1_alg».proof.Proof.Gen.ReferenceIdeal.Run
import proofs.«122515_j23313082483149_1_alg».proof.Proof.Chain

set_option maxRecDepth 16384

noncomputable section

namespace Cert.ReferenceIdeal.ChainValue

open Cert.ReferenceIdeal Cert.ReferenceIdeal.Gen Cert.ReferenceIdeal.Value Idealize.ShloMosaic Idealize.ShloMosaic.TcCoe
  Idealize.SL.Sem Idealize.ShloMosaic.StableHlo
open Cert.LayerBridge Cert.Chain

section Layers

variable (V0 : Valuation τ sig (Elt Ideal))

/-- One step of the reference at the values a valuation gives the edge list, the edge weights, the weights and the
    biases. -/
abbrev stepV : Fin 12 → Arr → Arr :=
  stepR (res_main_v1 V0) (res_main_v3 V0) (res_main_v4 V0) (V0 (Proc.devRef .tc main_arg3)) (V0 (Proc.devRef .tc main_arg4))

/-- The sources, the destinations and the edge weights of the reference are the edge list's two rows and the weights as
    a column. -/
theorem src_eq : res_main_v1 V0 = srcOf (V0 (Proc.devRef .tc main_arg1)) := rfl
theorem dst_eq : res_main_v3 V0 = dstOf (V0 (Proc.devRef .tc main_arg1)) := rfl
theorem ew_eq : res_main_v4 V0 = ewOf (V0 (Proc.devRef .tc main_arg2)) := rfl

/-! ### The twelve layers, one at a time

Layer n reads the previous layer's output (the node features for n = 0) twice: its gather–scale–scatter-add gives the
aggregated messages, and the affine map joins the scaled messages with it. Each named intermediate is, by
definition, the step's part applied to the previous intermediate. -/

theorem agg_0 : res_main_v16 V0 = aggR (res_main_v1 V0) (res_main_v3 V0) (res_main_v4 V0) (V0 (Proc.devRef .tc main_arg0)) := rfl
theorem aff_0 : res_main_v33 V0
    = refAff (refUnit (res_main_v16 V0)) (V0 (Proc.devRef .tc main_arg0)) (wR ⟨0, by decide⟩ (V0 (Proc.devRef .tc main_arg3))) (bR ⟨0, by decide⟩ (V0 (Proc.devRef .tc main_arg4))) := rfl
theorem out_0 : res_main_v41 V0 = refUnit (res_main_v33 V0) := rfl
theorem step_0 : res_main_v41 V0 = stepV V0 ⟨0, by decide⟩ (V0 (Proc.devRef .tc main_arg0)) :=
  (out_0 V0).trans (congrArg refUnit ((aff_0 V0).trans (congrArg (fun a => refAff (refUnit a) (V0 (Proc.devRef .tc main_arg0)) (wR ⟨0, by decide⟩ (V0 (Proc.devRef .tc main_arg3))) (bR ⟨0, by decide⟩ (V0 (Proc.devRef .tc main_arg4)))) (agg_0 V0))))

theorem agg_1 : res_main_v53 V0 = aggR (res_main_v1 V0) (res_main_v3 V0) (res_main_v4 V0) (res_main_v41 V0) := rfl
theorem aff_1 : res_main_v70 V0
    = refAff (refUnit (res_main_v53 V0)) (res_main_v41 V0) (wR ⟨1, by decide⟩ (V0 (Proc.devRef .tc main_arg3))) (bR ⟨1, by decide⟩ (V0 (Proc.devRef .tc main_arg4))) := rfl
theorem out_1 : res_main_v78 V0 = refUnit (res_main_v70 V0) := rfl
theorem step_1 : res_main_v78 V0 = stepV V0 ⟨1, by decide⟩ (res_main_v41 V0) :=
  (out_1 V0).trans (congrArg refUnit ((aff_1 V0).trans (congrArg (fun a => refAff (refUnit a) (res_main_v41 V0) (wR ⟨1, by decide⟩ (V0 (Proc.devRef .tc main_arg3))) (bR ⟨1, by decide⟩ (V0 (Proc.devRef .tc main_arg4)))) (agg_1 V0))))

theorem agg_2 : res_main_v90 V0 = aggR (res_main_v1 V0) (res_main_v3 V0) (res_main_v4 V0) (res_main_v78 V0) := rfl
theorem aff_2 : res_main_v107 V0
    = refAff (refUnit (res_main_v90 V0)) (res_main_v78 V0) (wR ⟨2, by decide⟩ (V0 (Proc.devRef .tc main_arg3))) (bR ⟨2, by decide⟩ (V0 (Proc.devRef .tc main_arg4))) := rfl
theorem out_2 : res_main_v115 V0 = refUnit (res_main_v107 V0) := rfl
theorem step_2 : res_main_v115 V0 = stepV V0 ⟨2, by decide⟩ (res_main_v78 V0) :=
  (out_2 V0).trans (congrArg refUnit ((aff_2 V0).trans (congrArg (fun a => refAff (refUnit a) (res_main_v78 V0) (wR ⟨2, by decide⟩ (V0 (Proc.devRef .tc main_arg3))) (bR ⟨2, by decide⟩ (V0 (Proc.devRef .tc main_arg4)))) (agg_2 V0))))

theorem agg_3 : res_main_v127 V0 = aggR (res_main_v1 V0) (res_main_v3 V0) (res_main_v4 V0) (res_main_v115 V0) := rfl
theorem aff_3 : res_main_v144 V0
    = refAff (refUnit (res_main_v127 V0)) (res_main_v115 V0) (wR ⟨3, by decide⟩ (V0 (Proc.devRef .tc main_arg3))) (bR ⟨3, by decide⟩ (V0 (Proc.devRef .tc main_arg4))) := rfl
theorem out_3 : res_main_v152 V0 = refUnit (res_main_v144 V0) := rfl
theorem step_3 : res_main_v152 V0 = stepV V0 ⟨3, by decide⟩ (res_main_v115 V0) :=
  (out_3 V0).trans (congrArg refUnit ((aff_3 V0).trans (congrArg (fun a => refAff (refUnit a) (res_main_v115 V0) (wR ⟨3, by decide⟩ (V0 (Proc.devRef .tc main_arg3))) (bR ⟨3, by decide⟩ (V0 (Proc.devRef .tc main_arg4)))) (agg_3 V0))))

theorem agg_4 : res_main_v164 V0 = aggR (res_main_v1 V0) (res_main_v3 V0) (res_main_v4 V0) (res_main_v152 V0) := rfl
theorem aff_4 : res_main_v181 V0
    = refAff (refUnit (res_main_v164 V0)) (res_main_v152 V0) (wR ⟨4, by decide⟩ (V0 (Proc.devRef .tc main_arg3))) (bR ⟨4, by decide⟩ (V0 (Proc.devRef .tc main_arg4))) := rfl
theorem out_4 : res_main_v189 V0 = refUnit (res_main_v181 V0) := rfl
theorem step_4 : res_main_v189 V0 = stepV V0 ⟨4, by decide⟩ (res_main_v152 V0) :=
  (out_4 V0).trans (congrArg refUnit ((aff_4 V0).trans (congrArg (fun a => refAff (refUnit a) (res_main_v152 V0) (wR ⟨4, by decide⟩ (V0 (Proc.devRef .tc main_arg3))) (bR ⟨4, by decide⟩ (V0 (Proc.devRef .tc main_arg4)))) (agg_4 V0))))

theorem agg_5 : res_main_v201 V0 = aggR (res_main_v1 V0) (res_main_v3 V0) (res_main_v4 V0) (res_main_v189 V0) := rfl
theorem aff_5 : res_main_v218 V0
    = refAff (refUnit (res_main_v201 V0)) (res_main_v189 V0) (wR ⟨5, by decide⟩ (V0 (Proc.devRef .tc main_arg3))) (bR ⟨5, by decide⟩ (V0 (Proc.devRef .tc main_arg4))) := rfl
theorem out_5 : res_main_v226 V0 = refUnit (res_main_v218 V0) := rfl
theorem step_5 : res_main_v226 V0 = stepV V0 ⟨5, by decide⟩ (res_main_v189 V0) :=
  (out_5 V0).trans (congrArg refUnit ((aff_5 V0).trans (congrArg (fun a => refAff (refUnit a) (res_main_v189 V0) (wR ⟨5, by decide⟩ (V0 (Proc.devRef .tc main_arg3))) (bR ⟨5, by decide⟩ (V0 (Proc.devRef .tc main_arg4)))) (agg_5 V0))))

theorem agg_6 : res_main_v238 V0 = aggR (res_main_v1 V0) (res_main_v3 V0) (res_main_v4 V0) (res_main_v226 V0) := rfl
theorem aff_6 : res_main_v255 V0
    = refAff (refUnit (res_main_v238 V0)) (res_main_v226 V0) (wR ⟨6, by decide⟩ (V0 (Proc.devRef .tc main_arg3))) (bR ⟨6, by decide⟩ (V0 (Proc.devRef .tc main_arg4))) := rfl
theorem out_6 : res_main_v263 V0 = refUnit (res_main_v255 V0) := rfl
theorem step_6 : res_main_v263 V0 = stepV V0 ⟨6, by decide⟩ (res_main_v226 V0) :=
  (out_6 V0).trans (congrArg refUnit ((aff_6 V0).trans (congrArg (fun a => refAff (refUnit a) (res_main_v226 V0) (wR ⟨6, by decide⟩ (V0 (Proc.devRef .tc main_arg3))) (bR ⟨6, by decide⟩ (V0 (Proc.devRef .tc main_arg4)))) (agg_6 V0))))

theorem agg_7 : res_main_v275 V0 = aggR (res_main_v1 V0) (res_main_v3 V0) (res_main_v4 V0) (res_main_v263 V0) := rfl
theorem aff_7 : res_main_v292 V0
    = refAff (refUnit (res_main_v275 V0)) (res_main_v263 V0) (wR ⟨7, by decide⟩ (V0 (Proc.devRef .tc main_arg3))) (bR ⟨7, by decide⟩ (V0 (Proc.devRef .tc main_arg4))) := rfl
theorem out_7 : res_main_v300 V0 = refUnit (res_main_v292 V0) := rfl
theorem step_7 : res_main_v300 V0 = stepV V0 ⟨7, by decide⟩ (res_main_v263 V0) :=
  (out_7 V0).trans (congrArg refUnit ((aff_7 V0).trans (congrArg (fun a => refAff (refUnit a) (res_main_v263 V0) (wR ⟨7, by decide⟩ (V0 (Proc.devRef .tc main_arg3))) (bR ⟨7, by decide⟩ (V0 (Proc.devRef .tc main_arg4)))) (agg_7 V0))))

theorem agg_8 : res_main_v312 V0 = aggR (res_main_v1 V0) (res_main_v3 V0) (res_main_v4 V0) (res_main_v300 V0) := rfl
theorem aff_8 : res_main_v329 V0
    = refAff (refUnit (res_main_v312 V0)) (res_main_v300 V0) (wR ⟨8, by decide⟩ (V0 (Proc.devRef .tc main_arg3))) (bR ⟨8, by decide⟩ (V0 (Proc.devRef .tc main_arg4))) := rfl
theorem out_8 : res_main_v337 V0 = refUnit (res_main_v329 V0) := rfl
theorem step_8 : res_main_v337 V0 = stepV V0 ⟨8, by decide⟩ (res_main_v300 V0) :=
  (out_8 V0).trans (congrArg refUnit ((aff_8 V0).trans (congrArg (fun a => refAff (refUnit a) (res_main_v300 V0) (wR ⟨8, by decide⟩ (V0 (Proc.devRef .tc main_arg3))) (bR ⟨8, by decide⟩ (V0 (Proc.devRef .tc main_arg4)))) (agg_8 V0))))

theorem agg_9 : res_main_v349 V0 = aggR (res_main_v1 V0) (res_main_v3 V0) (res_main_v4 V0) (res_main_v337 V0) := rfl
theorem aff_9 : res_main_v366 V0
    = refAff (refUnit (res_main_v349 V0)) (res_main_v337 V0) (wR ⟨9, by decide⟩ (V0 (Proc.devRef .tc main_arg3))) (bR ⟨9, by decide⟩ (V0 (Proc.devRef .tc main_arg4))) := rfl
theorem out_9 : res_main_v374 V0 = refUnit (res_main_v366 V0) := rfl
theorem step_9 : res_main_v374 V0 = stepV V0 ⟨9, by decide⟩ (res_main_v337 V0) :=
  (out_9 V0).trans (congrArg refUnit ((aff_9 V0).trans (congrArg (fun a => refAff (refUnit a) (res_main_v337 V0) (wR ⟨9, by decide⟩ (V0 (Proc.devRef .tc main_arg3))) (bR ⟨9, by decide⟩ (V0 (Proc.devRef .tc main_arg4)))) (agg_9 V0))))

theorem agg_10 : res_main_v386 V0 = aggR (res_main_v1 V0) (res_main_v3 V0) (res_main_v4 V0) (res_main_v374 V0) := rfl
theorem aff_10 : res_main_v403 V0
    = refAff (refUnit (res_main_v386 V0)) (res_main_v374 V0) (wR ⟨10, by decide⟩ (V0 (Proc.devRef .tc main_arg3))) (bR ⟨10, by decide⟩ (V0 (Proc.devRef .tc main_arg4))) := rfl
theorem out_10 : res_main_v411 V0 = refUnit (res_main_v403 V0) := rfl
theorem step_10 : res_main_v411 V0 = stepV V0 ⟨10, by decide⟩ (res_main_v374 V0) :=
  (out_10 V0).trans (congrArg refUnit ((aff_10 V0).trans (congrArg (fun a => refAff (refUnit a) (res_main_v374 V0) (wR ⟨10, by decide⟩ (V0 (Proc.devRef .tc main_arg3))) (bR ⟨10, by decide⟩ (V0 (Proc.devRef .tc main_arg4)))) (agg_10 V0))))

theorem agg_11 : res_main_v423 V0 = aggR (res_main_v1 V0) (res_main_v3 V0) (res_main_v4 V0) (res_main_v411 V0) := rfl
theorem aff_11 : res_main_v440 V0
    = refAff (refUnit (res_main_v423 V0)) (res_main_v411 V0) (wR ⟨11, by decide⟩ (V0 (Proc.devRef .tc main_arg3))) (bR ⟨11, by decide⟩ (V0 (Proc.devRef .tc main_arg4))) := rfl
theorem step_11 : refUnit (res_main_v440 V0) = stepV V0 ⟨11, by decide⟩ (res_main_v411 V0) :=
  congrArg refUnit ((aff_11 V0).trans (congrArg (fun a => refAff (refUnit a) (res_main_v411 V0) (wR ⟨11, by decide⟩ (V0 (Proc.devRef .tc main_arg3))) (bR ⟨11, by decide⟩ (V0 (Proc.devRef .tc main_arg4)))) (agg_11 V0)))

/-! ### The outputs as iterated steps -/

theorem chain_1 : res_main_v41 V0 = iter (stepV V0) (V0 (Proc.devRef .tc main_arg0)) 1 (by decide) := step_0 V0
theorem chain_2 : res_main_v78 V0 = iter (stepV V0) (V0 (Proc.devRef .tc main_arg0)) 2 (by decide) :=
  (step_1 V0).trans (congrArg (stepV V0 ⟨1, by decide⟩) (chain_1 V0))
theorem chain_3 : res_main_v115 V0 = iter (stepV V0) (V0 (Proc.devRef .tc main_arg0)) 3 (by decide) :=
  (step_2 V0).trans (congrArg (stepV V0 ⟨2, by decide⟩) (chain_2 V0))
theorem chain_4 : res_main_v152 V0 = iter (stepV V0) (V0 (Proc.devRef .tc main_arg0)) 4 (by decide) :=
  (step_3 V0).trans (congrArg (stepV V0 ⟨3, by decide⟩) (chain_3 V0))
theorem chain_5 : res_main_v189 V0 = iter (stepV V0) (V0 (Proc.devRef .tc main_arg0)) 5 (by decide) :=
  (step_4 V0).trans (congrArg (stepV V0 ⟨4, by decide⟩) (chain_4 V0))
theorem chain_6 : res_main_v226 V0 = iter (stepV V0) (V0 (Proc.devRef .tc main_arg0)) 6 (by decide) :=
  (step_5 V0).trans (congrArg (stepV V0 ⟨5, by decide⟩) (chain_5 V0))
theorem chain_7 : res_main_v263 V0 = iter (stepV V0) (V0 (Proc.devRef .tc main_arg0)) 7 (by decide) :=
  (step_6 V0).trans (congrArg (stepV V0 ⟨6, by decide⟩) (chain_6 V0))
theorem chain_8 : res_main_v300 V0 = iter (stepV V0) (V0 (Proc.devRef .tc main_arg0)) 8 (by decide) :=
  (step_7 V0).trans (congrArg (stepV V0 ⟨7, by decide⟩) (chain_7 V0))
theorem chain_9 : res_main_v337 V0 = iter (stepV V0) (V0 (Proc.devRef .tc main_arg0)) 9 (by decide) :=
  (step_8 V0).trans (congrArg (stepV V0 ⟨8, by decide⟩) (chain_8 V0))
theorem chain_10 : res_main_v374 V0 = iter (stepV V0) (V0 (Proc.devRef .tc main_arg0)) 10 (by decide) :=
  (step_9 V0).trans (congrArg (stepV V0 ⟨9, by decide⟩) (chain_9 V0))
theorem chain_11 : res_main_v411 V0 = iter (stepV V0) (V0 (Proc.devRef .tc main_arg0)) 11 (by decide) :=
  (step_10 V0).trans (congrArg (stepV V0 ⟨10, by decide⟩) (chain_10 V0))
theorem chain_12 : refUnit (res_main_v440 V0) = iter (stepV V0) (V0 (Proc.devRef .tc main_arg0)) 12 (by decide) :=
  (step_11 V0).trans (congrArg (stepV V0 ⟨11, by decide⟩) (chain_11 V0))

end Layers

/-- Every weakly fair execution of the reference terminates with its result at twelve steps from the node features,
    the step read from the launch's edge list, edge weights, weights and biases, and with the arguments unchanged. -/
theorem run_iter (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v448)
        = iter (stepR (srcOf (m ((c.tc : Thread nD τ).loc main_arg1))) (dstOf (m ((c.tc : Thread nD τ).loc main_arg1)))
            (ewOf (m ((c.tc : Thread nD τ).loc main_arg2))) (m ((c.tc : Thread nD τ).loc main_arg3))
            (m ((c.tc : Thread nD τ).loc main_arg4))) (m ((c.tc : Thread nD τ).loc main_arg0)) 12 (Nat.le_refl 12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (chain_12 (launchContents m c)), (h c).2⟩)
    (Cert.ReferenceIdeal.Value.run (F := Ideal) m ρ)

end Cert.ReferenceIdeal.ChainValue

end
-- ==== Proof.lean ====
/-
  The certificate's five claims.

  The frames of the two printed kernels are the generated ones; the reference's frame is its generated run with the
  result dropped; the ideal pass rewrote nothing, so the kernel's idealization is its own text read on the extended
  reals and the fourth claim is trivial.

  The fifth claim. On the extended reals the idealized kernel ends with its result at twelve steps applied to the
  features argument, each step the shared gather, scaling and summation of the messages followed by the row-wise
  layer with the two halves of that layer's weight; the idealized reference ends at twelve steps of its own spelling,
  with the two inputs joined side by side against the whole weight. The steps agree one by one: a sum over the 128
  joined coordinates is the sum over the first 64 plus the sum over the last 64, which uses only that addition of
  extended reals is commutative and associative, so the precondition is never opened. Steps that agree one by one
  agree iterated, from memories that agree on the arguments.
-/
import proofs.«122515_j23313082483149_1_alg».proof.Defs
import proofs.«122515_j23313082483149_1_alg».proof.Proof.Gen.Kernel
import proofs.«122515_j23313082483149_1_alg».proof.Proof.Gen.Kernel.Frame
import proofs.«122515_j23313082483149_1_alg».proof.Proof.Gen.KernelIdeal
import proofs.«122515_j23313082483149_1_alg».proof.Proof.Gen.KernelIdeal.Frame
import proofs.«122515_j23313082483149_1_alg».proof.Proof.Gen.ReferenceIdeal
import proofs.«122515_j23313082483149_1_alg».proof.Proof.Gen.Pre_finite_inputs
import proofs.«122515_j23313082483149_1_alg».proof.Proof.Gen.ReferenceIdeal.Run
import proofs.«122515_j23313082483149_1_alg».proof.Proof.Chain
import proofs.«122515_j23313082483149_1_alg».proof.Proof.KernelRun
import proofs.«122515_j23313082483149_1_alg».proof.Proof.KernelFold
import proofs.«122515_j23313082483149_1_alg».proof.Proof.RefChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Fold.feat m c 12 (Nat.le_refl 12), ?_, ?_⟩
  · exact (θ_run Cert.KernelIdeal.defs _ _).mono
      (fun _ h c => ⟨(h c).1.trans (Cert.KernelIdeal.Fold.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ChainValue.run_iter m' ρ')
    obtain ⟨e0, e1, e2, e3, e4⟩ := hagree c
    rw [e0, e1, e2, e3, e4]
    exact Cert.Chain.iter_congr _ _ (Cert.Chain.step_eq _ _ _ _ _) _ 12 _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
